-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v108)) (v2 : (c : Dev Cert.KernelIdeal.nD) → Buf (Elt Ideal) ((c.tc : Thread Cert.KernelIdeal.nD Cert.KernelIdeal.τ).loc Cert.KernelIdeal.main_v112)) (v3 : (c : Dev Cert.KernelIdeal.nD) → Buf (Elt Ideal) ((c.tc : Thread Cert.KernelIdeal.nD Cert.KernelIdeal.τ).loc Cert.KernelIdeal.main_v114)) (v4 : (c : Dev Cert.KernelIdeal.nD) → Buf (Elt Ideal) ((c.tc : Thread Cert.KernelIdeal.nD Cert.KernelIdeal.τ).loc Cert.KernelIdeal.main_v115)) (v5 : (c : Dev Cert.KernelIdeal.nD) → Buf (Elt Ideal) ((c.tc : Thread Cert.KernelIdeal.nD Cert.KernelIdeal.τ).loc Cert.KernelIdeal.main_v117)) (v6 : (c : Dev Cert.KernelIdeal.nD) → Buf (Elt Ideal) ((c.tc : Thread Cert.KernelIdeal.nD Cert.KernelIdeal.τ).loc Cert.KernelIdeal.main_v121)) (v7 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_v112) = v2 c
          ∧ r.2.mem ((c.tc : Thread Cert.KernelIdeal.nD Cert.KernelIdeal.τ).loc Cert.KernelIdeal.main_v114) = v3 c
          ∧ r.2.mem ((c.tc : Thread Cert.KernelIdeal.nD Cert.KernelIdeal.τ).loc Cert.KernelIdeal.main_v115) = v4 c
          ∧ r.2.mem ((c.tc : Thread Cert.KernelIdeal.nD Cert.KernelIdeal.τ).loc Cert.KernelIdeal.main_v117) = v5 c
          ∧ r.2.mem ((c.tc : Thread Cert.KernelIdeal.nD Cert.KernelIdeal.τ).loc Cert.KernelIdeal.main_v121) = v6 c
          ∧ r.2.mem ((c.tc : Thread Cert.KernelIdeal.nD Cert.KernelIdeal.τ).loc Cert.KernelIdeal.main_v123) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v131) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_v137) = v6 c
          ∧ r.2.mem ((c.tc : Thread Cert.ReferenceIdeal.nD Cert.ReferenceIdeal.τ).loc Cert.ReferenceIdeal.main_v139) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x30 : Shape := ⟨2, ![10000, 30]⟩
abbrev S10000x2 : Shape := ⟨2, ![10000, 2]⟩
abbrev S5000x30 : Shape := ⟨2, ![5000, 30]⟩
abbrev S5000x2 : Shape := ⟨2, ![5000, 2]⟩
abbrev S10000 : Shape := ⟨1, ![10000]⟩
abbrev S5000 : Shape := ⟨1, ![5000]⟩
abbrev S32x30 : Shape := ⟨2, ![32, 30]⟩
abbrev S32x32 : Shape := ⟨2, ![32, 32]⟩
abbrev S1x1 : Shape := ⟨2, ![1, 1]⟩
abbrev S32 : Shape := ⟨1, ![32]⟩
abbrev S5x64 : Shape := ⟨2, ![5, 64]⟩
abbrev S5 : Shape := ⟨1, ![5]⟩
abbrev S5x30 : Shape := ⟨2, ![5, 30]⟩
abbrev S_ : Shape := ⟨0, ![]⟩

class Facts : Prop where
  bcast_S_S10000x30 : S_.BroadcastsInDim S10000x30 (![] : Fin 0 → Fin S10000x30.rank)
  reducesTo_S10000x30_S_d0_1 : S10000x30.ReducesTo [0, 1] S_
  h_S_ : 0 < S_.numel
  bcast_S_S10000x2 : S_.BroadcastsInDim S10000x2 (![] : Fin 0 → Fin S10000x2.rank)
  reducesTo_S10000x2_S_d0_1 : S10000x2.ReducesTo [0, 1] S_
  bcast_S_S5000x30 : S_.BroadcastsInDim S5000x30 (![] : Fin 0 → Fin S5000x30.rank)
  reducesTo_S5000x30_S_d0_1 : S5000x30.ReducesTo [0, 1] S_
  bcast_S_S5000x2 : S_.BroadcastsInDim S5000x2 (![] : Fin 0 → Fin S5000x2.rank)
  reducesTo_S5000x2_S_d0_1 : S5000x2.ReducesTo [0, 1] S_
  bcast_S_S10000 : S_.BroadcastsInDim S10000 (![] : Fin 0 → Fin S10000.rank)
  reducesTo_S10000_S_d0 : S10000.ReducesTo [0] S_
  bcast_S_S5000 : S_.BroadcastsInDim S5000 (![] : Fin 0 → Fin S5000.rank)
  reducesTo_S5000_S_d0 : S5000.ReducesTo [0] S_
  bcast_S_S32x30 : S_.BroadcastsInDim S32x30 (![] : Fin 0 → Fin S32x30.rank)
  reducesTo_S32x30_S_d0_1 : S32x30.ReducesTo [0, 1] S_
  bcast_S_S32x32 : S_.BroadcastsInDim S32x32 (![] : Fin 0 → Fin S32x32.rank)
  reducesTo_S32x32_S_d0_1 : S32x32.ReducesTo [0, 1] S_
  bcast_S_S1x1 : S_.BroadcastsInDim S1x1 (![] : Fin 0 → Fin S1x1.rank)
  reducesTo_S1x1_S_d0_1 : S1x1.ReducesTo [0, 1] S_
  bcast_S_S32 : S_.BroadcastsInDim S32 (![] : Fin 0 → Fin S32.rank)
  reducesTo_S32_S_d0 : S32.ReducesTo [0] S_
  bcast_S_S5x64 : S_.BroadcastsInDim S5x64 (![] : Fin 0 → Fin S5x64.rank)
  reducesTo_S5x64_S_d0_1 : S5x64.ReducesTo [0, 1] S_
  bcast_S_S5 : S_.BroadcastsInDim S5 (![] : Fin 0 → Fin S5.rank)
  reducesTo_S5_S_d0 : S5.ReducesTo [0] S_
  bcast_S_S5x30 : S_.BroadcastsInDim S5x30 (![] : Fin 0 → Fin S5x30.rank)
  reducesTo_S5x30_S_d0_1 : S5x30.ReducesTo [0, 1] S_

variable [Facts]

def fn_part6 {F : FTy → Type} [FloatOps F] (main_arg21 : FVec F S5 .f32) (main_v98 : IVec S_ 1) (main_v101 : IVec S5x30 1) (main_c_39 : IVec S_ 1) : IVec S_ 1 :=
  let main_v102 : IVec S_ 1 := (fun x v => Host.reduce IntOp.andi x v reducesTo_S5x30_S_d0_1 h_S_) main_v101 main_c_39
  let main_v103 : IVec S_ 1 := andi main_v98 main_v102
  let main_v104 : FVec F S5 .f32 := Host.absf main_arg21
  let main_cst_40 : FVec F S_ .f32 := constant S_ .f32 0x7F800000#32
  let main_v105 : FVec F S5 .f32 := broadcastInDim S5 ![] bcast_S_S5 main_cst_40
  let main_v106 : IVec S5 1 := cmpf .olt main_v104 main_v105
  let main_c_41 : IVec S_ 1 := constantI S_ 1 1#1
  let main_v107 : IVec S_ 1 := (fun x v => Host.reduce IntOp.andi x v reducesTo_S5_S_d0 h_S_) main_v106 main_c_41
  let main_v108 : IVec S_ 1 := andi main_v103 main_v107
  main_v108

def fn_part5 {F : FTy → Type} [FloatOps F] (main_arg18 : FVec F S5x64 .f32) (main_arg19 : FVec F S5 .f32) (main_arg20 : FVec F S5x30 .f32) (main_arg21 : FVec F S5 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S5x64 .f32 := Host.absf main_arg18
  let main_cst_34 : FVec F S_ .f32 := constant S_ .f32 0x7F800000#32
  let main_v90 : FVec F S5x64 .f32 := broadcastInDim S5x64 ![] bcast_S_S5x64 main_cst_34
  let main_v91 : IVec S5x64 1 := cmpf .olt main_v89 main_v90
  let main_c_35 : IVec S_ 1 := constantI S_ 1 1#1
  let main_v92 : IVec S_ 1 := (fun x v => Host.reduce IntOp.andi x v reducesTo_S5x64_S_d0_1 h_S_) main_v91 main_c_35
  let main_v93 : IVec S_ 1 := andi main_v88 main_v92
  let main_v94 : FVec F S5 .f32 := Host.absf main_arg19
  let main_cst_36 : FVec F S_ .f32 := constant S_ .f32 0x7F800000#32
  let main_v95 : FVec F S5 .f32 := broadcastInDim S5 ![] bcast_S_S5 main_cst_36
  let main_v96 : IVec S5 1 := cmpf .olt main_v94 main_v95
  let main_c_37 : IVec S_ 1 := constantI S_ 1 1#1
  let main_v97 : IVec S_ 1 := (fun x v => Host.reduce IntOp.andi x v reducesTo_S5_S_d0 h_S_) main_v96 main_c_37
  let main_v98 : IVec S_ 1 := andi main_v93 main_v97
  let main_v99 : FVec F S5x30 .f32 := Host.absf main_arg20
  let main_cst_38 : FVec F S_ .f32 := constant S_ .f32 0x7F800000#32
  let main_v100 : FVec F S5x30 .f32 := broadcastInDim S5x30 ![] bcast_S_S5x30 main_cst_38
  let main_v101 : IVec S5x30 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S32x32 .f32) (main_arg15 : FVec F S32 .f32) (main_arg16 : FVec F S32x32 .f32) (main_arg17 : FVec F S32 .f32) (main_arg18 : FVec F S5x64 .f32) (main_arg19 : FVec F S5 .f32) (main_arg20 : FVec F S5x30 .f32) (main_arg21 : FVec F S5 .f32) (main_v63 : IVec S_ 1) (main_v67 : IVec S_ 1) : IVec S_ 1 :=
  let main_v68 : IVec S_ 1 := andi main_v63 main_v67
  let main_v69 : FVec F S32x32 .f32 := Host.absf main_arg14
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg16
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1x1 .f32) (main_arg12 : FVec F S1x1 .f32) (main_arg13 : FVec F S1x1 .f32) (main_arg14 : FVec F S32x32 .f32) (main_arg15 : FVec F S32 .f32) (main_arg16 : FVec F S32x32 .f32) (main_arg17 : FVec F S32 .f32) (main_arg18 : FVec F S5x64 .f32) (main_arg19 : FVec F S5 .f32) (main_arg20 : FVec F S5x30 .f32) (main_arg21 : FVec F S5 .f32) (main_v48 : IVec S_ 1) (main_v49 : FVec F S1x1 .f32) (main_v50 : FVec F S1x1 .f32) : IVec S_ 1 :=
  let main_v51 : IVec S1x1 1 := cmpf .olt main_v49 main_v50
  let main_c_19 : IVec S_ 1 := constantI S_ 1 1#1
  let main_v52 : IVec S_ 1 := (fun x v => Host.reduce IntOp.andi x v reducesTo_S1x1_S_d0_1 h_S_) main_v51 main_c_19
  let main_v53 : IVec S_ 1 := andi main_v48 main_v52
  let main_v54 : FVec F S1x1 .f32 := Host.absf main_arg11
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S1x1 .f32 := Host.absf main_arg12
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  let main_v64 : FVec F S1x1 .f32 := Host.absf main_arg13
  let main_cst_24 : FVec F S_ .f32 := constant S_ .f32 0x7F800000#32
  let main_v65 : FVec F S1x1 .f32 := broadcastInDim S1x1 ![] bcast_S_S1x1 main_cst_24
  let main_v66 : IVec S1x1 1 := cmpf .olt main_v64 main_v65
  let main_c_25 : IVec S_ 1 := constantI S_ 1 1#1
  let main_v67 : IVec S_ 1 := (fun x v => Host.reduce IntOp.andi x v reducesTo_S1x1_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S32x30 .f32) (main_arg8 : FVec F S32x32 .f32) (main_arg9 : FVec F S1x1 .f32) (main_arg10 : FVec F S1x1 .f32) (main_arg11 : FVec F S1x1 .f32) (main_arg12 : FVec F S1x1 .f32) (main_arg13 : FVec F S1x1 .f32) (main_arg14 : FVec F S32x32 .f32) (main_arg15 : FVec F S32 .f32) (main_arg16 : FVec F S32x32 .f32) (main_arg17 : FVec F S32 .f32) (main_arg18 : FVec F S5x64 .f32) (main_arg19 : FVec F S5 .f32) (main_arg20 : FVec F S5x30 .f32) (main_arg21 : FVec F S5 .f32) (main_v33 : IVec S_ 1) : IVec S_ 1 :=
  let main_v34 : FVec F S32x30 .f32 := Host.absf main_arg7
  let main_cst_12 : FVec F S_ .f32 := constant S_ .f32 0x7F800000#32
  let main_v35 : FVec F S32x30 .f32 := broadcastInDim S32x30 ![] bcast_S_S32x30 main_cst_12
  let main_v36 : IVec S32x30 1 := cmpf .olt main_v34 main_v35
  let main_c_13 : IVec S_ 1 := constantI S_ 1 1#1
  let main_v37 : IVec S_ 1 := (fun x v => Host.reduce IntOp.andi x v reducesTo_S32x30_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S1x1 .f32 := Host.absf main_arg10
  let main_cst_18 : FVec F S_ .f32 := constant S_ .f32 0x7F800000#32
  let main_v50 : FVec F S1x1 .f32 := broadcastInDim S1x1 ![] bcast_S_S1x1 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S10000 .f32) (main_arg5 : FVec F S5000 .f32) (main_arg6 : FVec F S32x30 .f32) (main_arg7 : FVec F S32x30 .f32) (main_arg8 : FVec F S32x32 .f32) (main_arg9 : FVec F S1x1 .f32) (main_arg10 : FVec F S1x1 .f32) (main_arg11 : FVec F S1x1 .f32) (main_arg12 : FVec F S1x1 .f32) (main_arg13 : FVec F S1x1 .f32) (main_arg14 : FVec F S32x32 .f32) (main_arg15 : FVec F S32 .f32) (main_arg16 : FVec F S32x32 .f32) (main_arg17 : FVec F S32 .f32) (main_arg18 : FVec F S5x64 .f32) (main_arg19 : FVec F S5 .f32) (main_arg20 : FVec F S5x30 .f32) (main_arg21 : FVec F S5 .f32) (main_v13 : IVec S_ 1) (main_v16 : IVec S5000x2 1) : IVec S_ 1 :=
  let main_c_5 : IVec S_ 1 := constantI S_ 1 1#1
  let main_v17 : IVec S_ 1 := (fun x v => Host.reduce IntOp.andi x v reducesTo_S5000x2_S_d0_1 h_S_) main_v16 main_c_5
  let main_v18 : IVec S_ 1 := andi main_v13 main_v17
  let main_v19 : FVec F S10000 .f32 := Host.absf main_arg4
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  let main_v24 : FVec F S5000 .f32 := Host.absf main_arg5
  let main_cst_8 : FVec F S_ .f32 := constant S_ .f32 0x7F800000#32
  let main_v25 : FVec F S5000 .f32 := broadcastInDim S5000 ![] bcast_S_S5000 main_cst_8
  let main_v26 : IVec S5000 1 := cmpf .olt main_v24 main_v25
  let main_c_9 : IVec S_ 1 := constantI S_ 1 1#1
  let main_v27 : IVec S_ 1 := (fun x v => Host.reduce IntOp.andi x v reducesTo_S5000_S_d0 h_S_) main_v26 main_c_9
  let main_v28 : IVec S_ 1 := andi main_v23 main_v27
  let main_v29 : FVec F S32x30 .f32 := Host.absf main_arg6
  let main_cst_10 : FVec F S_ .f32 := constant S_ .f32 0x7F800000#32
  let main_v30 : FVec F S32x30 .f32 := broadcastInDim S32x30 ![] bcast_S_S32x30 main_cst_10
  let main_v31 : IVec S32x30 1 := cmpf .olt main_v29 main_v30
  let main_c_11 : IVec S_ 1 := constantI S_ 1 1#1
  let main_v32 : IVec S_ 1 := (fun x v => Host.reduce IntOp.andi x v reducesTo_S32x30_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S10000x30 .f32) (main_arg1 : FVec F S10000x2 .f32) (main_arg2 : FVec F S5000x30 .f32) (main_arg3 : FVec F S5000x2 .f32) (main_arg4 : FVec F S10000 .f32) (main_arg5 : FVec F S5000 .f32) (main_arg6 : FVec F S32x30 .f32) (main_arg7 : FVec F S32x30 .f32) (main_arg8 : FVec F S32x32 .f32) (main_arg9 : FVec F S1x1 .f32) (main_arg10 : FVec F S1x1 .f32) (main_arg11 : FVec F S1x1 .f32) (main_arg12 : FVec F S1x1 .f32) (main_arg13 : FVec F S1x1 .f32) (main_arg14 : FVec F S32x32 .f32) (main_arg15 : FVec F S32 .f32) (main_arg16 : FVec F S32x32 .f32) (main_arg17 : FVec F S32 .f32) (main_arg18 : FVec F S5x64 .f32) (main_arg19 : FVec F S5 .f32) (main_arg20 : FVec F S5x30 .f32) (main_arg21 : FVec F S5 .f32) : IVec S_ 1 :=
  let main_v0 : FVec F S10000x30 .f32 := Host.absf main_arg0
  let main_cst : FVec F S_ .f32 := constant S_ .f32 0x7F800000#32
  let main_v1 : FVec F S10000x30 .f32 := broadcastInDim S10000x30 ![] bcast_S_S10000x30 main_cst
  let main_v2 : IVec S10000x30 1 := cmpf .olt main_v0 main_v1
  let main_c : IVec S_ 1 := constantI S_ 1 1#1
  let main_v3 : IVec S_ 1 := (fun x v => Host.reduce IntOp.andi x v reducesTo_S10000x30_S_d0_1 h_S_) main_v2 main_c
  let main_v4 : FVec F S10000x2 .f32 := Host.absf main_arg1
  let main_cst_0 : FVec F S_ .f32 := constant S_ .f32 0x7F800000#32
  let main_v5 : FVec F S10000x2 .f32 := broadcastInDim S10000x2 ![] bcast_S_S10000x2 main_cst_0
  let main_v6 : IVec S10000x2 1 := cmpf .olt main_v4 main_v5
  let main_c_1 : IVec S_ 1 := constantI S_ 1 1#1
  let main_v7 : IVec S_ 1 := (fun x v => Host.reduce IntOp.andi x v reducesTo_S10000x2_S_d0_1 h_S_) main_v6 main_c_1
  let main_v8 : IVec S_ 1 := andi main_v3 main_v7
  let main_v9 : FVec F S5000x30 .f32 := Host.absf main_arg2
  let main_cst_2 : FVec F S_ .f32 := constant S_ .f32 0x7F800000#32
  let main_v10 : FVec F S5000x30 .f32 := broadcastInDim S5000x30 ![] bcast_S_S5000x30 main_cst_2
  let main_v11 : IVec S5000x30 1 := cmpf .olt main_v9 main_v10
  let main_c_3 : IVec S_ 1 := constantI S_ 1 1#1
  let main_v12 : IVec S_ 1 := (fun x v => Host.reduce IntOp.andi x v reducesTo_S5000x30_S_d0_1 h_S_) main_v11 main_c_3
  let main_v13 : IVec S_ 1 := andi main_v8 main_v12
  let main_v14 : FVec F S5000x2 .f32 := Host.absf main_arg3
  let main_cst_4 : FVec F S_ .f32 := constant S_ .f32 0x7F800000#32
  let main_v15 : FVec F S5000x2 .f32 := broadcastInDim S5000x2 ![] bcast_S_S5000x2 main_cst_4
  let main_v16 : IVec S5000x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S10000x30 : Shape := ⟨2, ![10000, 30]⟩
abbrev S10000x2 : Shape := ⟨2, ![10000, 2]⟩
abbrev S5000x30 : Shape := ⟨2, ![5000, 30]⟩
abbrev S5000x2 : Shape := ⟨2, ![5000, 2]⟩
abbrev S10000 : Shape := ⟨1, ![10000]⟩
abbrev S5000 : Shape := ⟨1, ![5000]⟩
abbrev S32x30 : Shape := ⟨2, ![32, 30]⟩
abbrev S32x32 : Shape := ⟨2, ![32, 32]⟩
abbrev S1x1 : Shape := ⟨2, ![1, 1]⟩
abbrev S32 : Shape := ⟨1, ![32]⟩
abbrev S5x64 : Shape := ⟨2, ![5, 64]⟩
abbrev S5 : Shape := ⟨1, ![5]⟩
abbrev S5x30 : Shape := ⟨2, ![5, 30]⟩
abbrev S10000x32 : Shape := ⟨2, ![10000, 32]⟩
abbrev S_ : Shape := ⟨0, ![]⟩
abbrev S5000x32 : Shape := ⟨2, ![5000, 32]⟩
abbrev S1x32 : Shape := ⟨2, ![1, 32]⟩
abbrev S30x32 : Shape := ⟨2, ![30, 32]⟩
abbrev S5000x1 : Shape := ⟨2, ![5000, 1]⟩
abbrev S200x32 : Shape := ⟨2, ![200, 32]⟩
abbrev S200x1 : Shape := ⟨2, ![200, 1]⟩
abbrev S200x10000 : Shape := ⟨2, ![200, 10000]⟩
abbrev S200 : Shape := ⟨1, ![200]⟩
abbrev S1x10000 : Shape := ⟨2, ![1, 10000]⟩
abbrev S15001x32 : Shape := ⟨2, ![15001, 32]⟩
abbrev S5000x64 : Shape := ⟨2, ![5000, 64]⟩
abbrev S64x5 : Shape := ⟨2, ![64, 5]⟩
abbrev S5000x5 : Shape := ⟨2, ![5000, 5]⟩
abbrev S1x5 : Shape := ⟨2, ![1, 5]⟩
abbrev S30x5 : Shape := ⟨2, ![30, 5]⟩

abbrev nBuf : Space → Nat
  | .hbm => 239
  | .vmem => 8
  | .smem => 0
  | _ => 0

abbrev hbmTy0_0 (i : Nat) : BufTy := match i % 128 with
  | 0 => ⟨S10000x30, .f32⟩
  | 1 => ⟨S10000x2, .f32⟩
  | 2 => ⟨S5000x30, .f32⟩
  | 3 => ⟨S5000x2, .f32⟩
  | 4 => ⟨S10000, .f32⟩
  | 5 => ⟨S5000, .f32⟩
  | 6 => ⟨S32x30, .f32⟩
  | 7 => ⟨S32x30, .f32⟩
  | 8 => ⟨S32x32, .f32⟩
  | 9 => ⟨S1x1, .f32⟩
  | 10 => ⟨S1x1, .f32⟩
  | 11 => ⟨S1x1, .f32⟩
  | 12 => ⟨S1x1, .f32⟩
  | 13 => ⟨S1x1, .f32⟩
  | 14 => ⟨S32x32, .f32⟩
  | 15 => ⟨S32, .f32⟩
  | 16 => ⟨S32x32, .f32⟩
  | 17 => ⟨S32, .f32⟩
  | 18 => ⟨S5x64, .f32⟩
  | 19 => ⟨S5, .f32⟩
  | 20 => ⟨S5x30, .f32⟩
  | 21 => ⟨S5, .f32⟩
  | 22 => ⟨S10000x32, .f32⟩
  | 23 => ⟨S_, .f32⟩
  | 24 => ⟨S5000x2, .f32⟩
  | 25 => ⟨S5000x32, .f32⟩
  | 26 => ⟨S_, .f32⟩
  | 27 => ⟨S32, .f32⟩
  | 28 => ⟨S1x32, .f32⟩
  | 29 => ⟨S_, .f32⟩
  | 30 => ⟨S1x32, .f32⟩
  | 31 => ⟨S1x32, .f32⟩
  | 32 => ⟨S30x32, .f32⟩
  | 33 => ⟨S5000x32, .f32⟩
  | 34 => ⟨S30x32, .f32⟩
  | 35 => ⟨S10000x32, .f32⟩
  | 36 => ⟨S5000x1, .f32⟩
  | 37 => ⟨S5000x32, .f32⟩
  | 38 => ⟨S5000, .f32⟩
  | 39 => ⟨S_, .f32⟩
  | 40 => ⟨S_, .f32⟩
  | 41 => ⟨S_, .f32⟩
  | 42 => ⟨S_, .f32⟩
  | 43 => ⟨S10000, .f32⟩
  | 44 => ⟨S10000, .f32⟩
  | 45 => ⟨S10000, .f32⟩
  | 46 => ⟨S10000, .f32⟩
  | 47 => ⟨S10000, .f32⟩
  | 48 => ⟨S10000, .f32⟩
  | 49 => ⟨S10000, .f32⟩
  | 50 => ⟨S_, .f32⟩
  | 51 => ⟨S_, .f32⟩
  | 52 => ⟨S5000, .f32⟩
  | 53 => ⟨S5000, .f32⟩
  | 54 => ⟨S5000, .f32⟩
  | 55 => ⟨S5000, .f32⟩
  | 56 => ⟨S5000, .f32⟩
  | 57 => ⟨S5000, .f32⟩
  | 58 => ⟨S5000, .f32⟩
  | 59 => ⟨S_, .f32⟩
  | 60 => ⟨S10000x32, .f32⟩
  | 61 => ⟨S10000x32, .f32⟩
  | 62 => ⟨S_, .f32⟩
  | 63 => ⟨S5000, .f32⟩
  | 64 => ⟨S5000, .f32⟩
  | 65 => ⟨S5000, .f32⟩
  | 66 => ⟨S_, .f32⟩
  | 67 => ⟨S5000, .f32⟩
  | 68 => ⟨S5000, .f32⟩
  | 69 => ⟨S5000x32, .f32⟩
  | 70 => ⟨S5000x1, .f32⟩
  | 71 => ⟨S5000x32, .f32⟩
  | 72 => ⟨S5000x32, .f32⟩
  | 73 => ⟨S5000x32, .f32⟩
  | 74 => ⟨S5000x32, .f32⟩
  | 75 => ⟨S5000x1, .f32⟩
  | 76 => ⟨S5000x32, .f32⟩
  | 77 => ⟨S5000x32, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1x10000, .f32⟩
  | 85 => ⟨S1x32, .f32⟩
  | 86 => ⟨S1x32, .f32⟩
  | 87 => ⟨S1x32, .f32⟩
  | 88 => ⟨S1x32, .f32⟩
  | 89 => ⟨S15001x32, .f32⟩
  | 90 => ⟨S32x32, .f32⟩
  | 91 => ⟨S15001x32, .f32⟩
  | 92 => ⟨S1x32, .f32⟩
  | 93 => ⟨S15001x32, .f32⟩
  | 94 => ⟨S15001x32, .f32⟩
  | 95 => ⟨S5000x32, .f32⟩
  | 96 => ⟨S1x32, .f32⟩
  | 97 => ⟨S_, .f32⟩
  | 98 => ⟨S_, .f32⟩
  | 99 => ⟨S5000, .f32⟩
  | 100 => ⟨S5000, .f32⟩
  | 101 => ⟨S5000, .f32⟩
  | 102 => ⟨S5000, .f32⟩
  | 103 => ⟨S5000, .f32⟩
  | 104 => ⟨S5000, .f32⟩
  | 105 => ⟨S5000, .f32⟩
  | 106 => ⟨S_, .f32⟩
  | 107 => ⟨S5000, .f32⟩
  | 108 => ⟨S5000, .f32⟩
  | 109 => ⟨S_, .f32⟩
  | 110 => ⟨S5000, .f32⟩
  | 111 => ⟨S5000, .f32⟩
  | 112 => ⟨S5000x1, .f32⟩
  | 113 => ⟨S5000x32, .f32⟩
  | 114 => ⟨S5000x32, .f32⟩
  | 115 => ⟨S5000x32, .f32⟩
  | 116 => ⟨S5000x32, .f32⟩
  | 117 => ⟨S5000x1, .f32⟩
  | 118 => ⟨S5000x32, .f32⟩
  | 119 => ⟨S5000x32, .f32⟩
  | 120 => ⟨S_, .f32⟩
  | 121 => ⟨S1x32, .f32⟩
  | 122 => ⟨S1x32, .f32⟩
  | 123 => ⟨S15001x32, .f32⟩
  | 124 => ⟨S32x32, .f32⟩
  | 125 => ⟨S15001x32, .f32⟩
  | 126 => ⟨S1x32, .f32⟩
  | 127 => ⟨S15001x32, .f32⟩
  | _ => ⟨S10000x30, .f32⟩

abbrev hbmTy0_1 (i : Nat) : BufTy := match i % 128 with
  | 0 => ⟨S15001x32, .f32⟩
  | 1 => ⟨S5000x32, .f32⟩
  | 2 => ⟨S5000x64, .f32⟩
  | 3 => ⟨S64x5, .f32⟩
  | 4 => ⟨S5000x5, .f32⟩
  | 5 => ⟨S1x5, .f32⟩
  | 6 => ⟨S5000x5, .f32⟩
  | 7 => ⟨S5000x5, .f32⟩
  | 8 => ⟨S30x5, .f32⟩
  | 9 => ⟨S5000x5, .f32⟩
  | 10 => ⟨S1x5, .f32⟩
  | 11 => ⟨S5000x5, .f32⟩
  | 12 => ⟨S5000x5, .f32⟩
  | 13 => ⟨S5000x2, .f32⟩
  | 14 => ⟨S5000x1, .f32⟩
  | 15 => ⟨S_, .f32⟩
  | 16 => ⟨S5000x1, .f32⟩
  | 17 => ⟨S5000x1, .f32⟩
  | 18 => ⟨S5000x1, .f32⟩
  | 19 => ⟨S5000x1, .f32⟩
  | 20 => ⟨S5000x1, .i1⟩
  | 21 => ⟨S5000x1, .f32⟩
  | 22 => ⟨S5000x1, .f32⟩
  | 23 => ⟨S5000x1, .f32⟩
  | 24 => ⟨S5000x1, .f32⟩
  | 25 => ⟨S5000x1, .f32⟩
  | 26 => ⟨S5000x1, .f32⟩
  | 27 => ⟨S5000x1, .f32⟩
  | 28 => ⟨S5000x1, .f32⟩
  | 29 => ⟨S5000x1, .f32⟩
  | 30 => ⟨S_, .f32⟩
  | 31 => ⟨S5000x1, .f32⟩
  | 32 => ⟨S5000x1, .f32⟩
  | 33 => ⟨S5000x1, .f32⟩
  | 34 => ⟨S5000x1, .f32⟩
  | 35 => ⟨S5000x1, .i1⟩
  | 36 => ⟨S5000x1, .f32⟩
  | 37 => ⟨S5000x1, .f32⟩
  | 38 => ⟨S5000x1, .f32⟩
  | 39 => ⟨S5000x1, .f32⟩
  | 40 => ⟨S5000x1, .f32⟩
  | 41 => ⟨S5000x1, .f32⟩
  | 42 => ⟨S5000x1, .f32⟩
  | 43 => ⟨S5000x1, .f32⟩
  | 44 => ⟨S_, .f32⟩
  | 45 => ⟨S5000x1, .f32⟩
  | 46 => ⟨S5000x1, .f32⟩
  | 47 => ⟨S5000x1, .f32⟩
  | 48 => ⟨S_, .f32⟩
  | 49 => ⟨S5000x1, .f32⟩
  | 50 => ⟨S5000x1, .f32⟩
  | 51 => ⟨S5000x1, .f32⟩
  | 52 => ⟨S5000x1, .f32⟩
  | 53 => ⟨S5000x1, .i1⟩
  | 54 => ⟨S5000x1, .f32⟩
  | 55 => ⟨S5000x1, .f32⟩
  | 56 => ⟨S5000x1, .f32⟩
  | 57 => ⟨S5000x1, .f32⟩
  | 58 => ⟨S5000x1, .f32⟩
  | 59 => ⟨S5000x1, .f32⟩
  | 60 => ⟨S5000x1, .f32⟩
  | 61 => ⟨S5000x1, .f32⟩
  | 62 => ⟨S5000x2, .f32⟩
  | 63 => ⟨S5000x1, .f32⟩
  | 64 => ⟨S_, .f32⟩
  | 65 => ⟨S5000x1, .f32⟩
  | 66 => ⟨S5000x1, .f32⟩
  | 67 => ⟨S5000x1, .f32⟩
  | 68 => ⟨S5000x1, .f32⟩
  | 69 => ⟨S5000x1, .i1⟩
  | 70 => ⟨S5000x1, .f32⟩
  | 71 => ⟨S5000x1, .f32⟩
  | 72 => ⟨S5000x1, .f32⟩
  | 73 => ⟨S5000x1, .f32⟩
  | 74 => ⟨S5000x1, .f32⟩
  | 75 => ⟨S5000x1, .f32⟩
  | 76 => ⟨S5000x1, .f32⟩
  | 77 => ⟨S5000x1, .f32⟩
  | 78 => ⟨S5000x1, .f32⟩
  | 79 => ⟨S_, .f32⟩
  | 80 => ⟨S5000x1, .f32⟩
  | 81 => ⟨S5000x1, .f32⟩
  | 82 => ⟨S5000x1, .f32⟩
  | 83 => ⟨S5000x1, .f32⟩
  | 84 => ⟨S5000x1, .i1⟩
  | 85 => ⟨S5000x1, .f32⟩
  | 86 => ⟨S5000x1, .f32⟩
  | 87 => ⟨S5000x1, .f32⟩
  | 88 => ⟨S5000x1, .f32⟩
  | 89 => ⟨S5000x1, .f32⟩
  | 90 => ⟨S5000x1, .f32⟩
  | 91 => ⟨S5000x1, .f32⟩
  | 92 => ⟨S5000x1, .f32⟩
  | 93 => ⟨S_, .f32⟩
  | 94 => ⟨S5000x1, .f32⟩
  | 95 => ⟨S5000x1, .f32⟩
  | 96 => ⟨S5000x1, .f32⟩
  | 97 => ⟨S_, .f32⟩
  | 98 => ⟨S5000x1, .f32⟩
  | 99 => ⟨S5000x1, .f32⟩
  | 100 => ⟨S5000x1, .f32⟩
  | 101 => ⟨S5000x1, .f32⟩
  | 102 => ⟨S5000x1, .i1⟩
  | 103 => ⟨S5000x1, .f32⟩
  | 104 => ⟨S5000x1, .f32⟩
  | 105 => ⟨S5000x1, .f32⟩
  | 106 => ⟨S5000x1, .f32⟩
  | 107 => ⟨S5000x1, .f32⟩
  | 108 => ⟨S5000x1, .f32⟩
  | 109 => ⟨S5000x1, .f32⟩
  | 110 => ⟨S5000x1, .f32⟩
  | _ => ⟨S10000x30, .f32⟩

abbrev hbmTy (i : Nat) : BufTy := match i / 128 with
  | 0 => hbmTy0_0 i
  | 1 => hbmTy0_1 i
  | _ => ⟨S10000x30, .f32⟩

abbrev bufTy : (tb : Table) → Fin (tcTables nBuf tb) → BufTy
  | .hbm, ⟨i, _⟩ => hbmTy i
  | .local _ .vmem, ⟨0, _⟩ => ⟨S200x32, .f32⟩
  | .local _ .vmem, ⟨1, _⟩ => ⟨S200x32, .f32⟩
  | .local _ .vmem, ⟨2, _⟩ => ⟨S10000x32, .f32⟩
  | .local _ .vmem, ⟨3, _⟩ => ⟨S10000x32, .f32⟩
  | .local _ .vmem, ⟨4, _⟩ => ⟨S200x1, .f32⟩
  | .local _ .vmem, ⟨5, _⟩ => ⟨S200x1, .f32⟩
  | .local _ .vmem, ⟨6, _⟩ => ⟨S200x32, .f32⟩
  | .local _ .vmem, ⟨7, _⟩ => ⟨S200x32, .f32⟩
  | _, _ => ⟨S10000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_8 : Ref sig .tc := ⟨.hbm, 106, rfl⟩
abbrev main_v74 : Ref sig .tc := ⟨.hbm, 107, rfl⟩
abbrev main_v75 : Ref sig .tc := ⟨.hbm, 108, rfl⟩
abbrev main_cst_9 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_10 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call0_cst : Ref sig .tc := ⟨.hbm, 143, rfl⟩
abbrev main_call0_v0 : Ref sig .tc := ⟨.hbm, 144, rfl⟩
abbrev main_call0_v1 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_v5 : Ref sig .tc := ⟨.hbm, 149, rfl⟩
abbrev main_call0_v6 : Ref sig .tc := ⟨.hbm, 150, rfl⟩
abbrev main_call0_v7 : Ref sig .tc := ⟨.hbm, 151, rfl⟩
abbrev main_call0_v8 : Ref sig .tc := ⟨.hbm, 152, rfl⟩
abbrev main_call0_v9 : Ref sig .tc := ⟨.hbm, 153, rfl⟩
abbrev main_call0_v10 : Ref sig .tc := ⟨.hbm, 154, rfl⟩
abbrev main_call0_v11 : Ref sig .tc := ⟨.hbm, 155, rfl⟩
abbrev main_v108 : Ref sig .tc := ⟨.hbm, 156, rfl⟩
abbrev main_v109 : Ref sig .tc := ⟨.hbm, 157, rfl⟩
abbrev main_call1_cst : Ref sig .tc := ⟨.hbm, 158, rfl⟩
abbrev main_call1_v0 : Ref sig .tc := ⟨.hbm, 159, rfl⟩
abbrev main_call1_v1 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_v5 : Ref sig .tc := ⟨.hbm, 164, rfl⟩
abbrev main_call1_v6 : Ref sig .tc := ⟨.hbm, 165, rfl⟩
abbrev main_call1_v7 : Ref sig .tc := ⟨.hbm, 166, rfl⟩
abbrev main_call1_v8 : Ref sig .tc := ⟨.hbm, 167, rfl⟩
abbrev main_call1_v9 : Ref sig .tc := ⟨.hbm, 168, rfl⟩
abbrev main_call1_v10 : Ref sig .tc := ⟨.hbm, 169, rfl⟩
abbrev main_call1_v11 : Ref sig .tc := ⟨.hbm, 170, rfl⟩
abbrev main_v110 : Ref sig .tc := ⟨.hbm, 171, rfl⟩
abbrev main_cst_11 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_call3_cst : Ref sig .tc := ⟨.hbm, 192, rfl⟩
abbrev main_call3_v0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_v5 : Ref sig .tc := ⟨.hbm, 198, rfl⟩
abbrev main_call3_v6 : Ref sig .tc := ⟨.hbm, 199, rfl⟩
abbrev main_call3_v7 : Ref sig .tc := ⟨.hbm, 200, rfl⟩
abbrev main_call3_v8 : Ref sig .tc := ⟨.hbm, 201, rfl⟩
abbrev main_call3_v9 : Ref sig .tc := ⟨.hbm, 202, rfl⟩
abbrev main_call3_v10 : Ref sig .tc := ⟨.hbm, 203, rfl⟩
abbrev main_call3_v11 : Ref sig .tc := ⟨.hbm, 204, rfl⟩
abbrev main_v117 : Ref sig .tc := ⟨.hbm, 205, rfl⟩
abbrev main_v118 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_v7 : Ref sig .tc := ⟨.hbm, 215, rfl⟩
abbrev main_call4_v8 : Ref sig .tc := ⟨.hbm, 216, rfl⟩
abbrev main_call4_v9 : Ref sig .tc := ⟨.hbm, 217, rfl⟩
abbrev main_call4_v10 : Ref sig .tc := ⟨.hbm, 218, rfl⟩
abbrev main_call4_v11 : Ref sig .tc := ⟨.hbm, 219, rfl⟩
abbrev main_v119 : Ref sig .tc := ⟨.hbm, 220, rfl⟩
abbrev main_cst_12 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_call5_cst : Ref sig .tc := ⟨.hbm, 225, rfl⟩
abbrev main_call5_v0 : Ref sig .tc := ⟨.hbm, 226, rfl⟩
abbrev main_call5_v1 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_call5_v5 : Ref sig .tc := ⟨.hbm, 231, rfl⟩
abbrev main_call5_v6 : Ref sig .tc := ⟨.hbm, 232, rfl⟩
abbrev main_call5_v7 : Ref sig .tc := ⟨.hbm, 233, rfl⟩
abbrev main_call5_v8 : Ref sig .tc := ⟨.hbm, 234, rfl⟩
abbrev main_call5_v9 : Ref sig .tc := ⟨.hbm, 235, rfl⟩
abbrev main_call5_v10 : Ref sig .tc := ⟨.hbm, 236, rfl⟩
abbrev main_call5_v11 : Ref sig .tc := ⟨.hbm, 237, rfl⟩
abbrev main_v123 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S10000x30_S10000x2_S10000x32_d1 : Shape.Concatenates [S10000x30, S10000x2] S10000x32 1
  bcast_S_S5000x2 : S_.BroadcastsInDim S5000x2 (![] : Fin 0 → Fin S5000x2.rank)
  concatenates_S5000x30_S5000x2_S5000x32_d1 : Shape.Concatenates [S5000x30, S5000x2] S5000x32 1
  reducesTo_S10000x32_S32_d0 : S10000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  transposes_S32x30_S30x32_1_0 : S32x30.Transposes [1, 0] S30x32
  inb_S200x32_S200x32_0_0 : ∀ a, (![0, 0] : Fin 2 → Nat) a + S200x32.size a ≤ S200x32.size a
  h_S200x32 : 0 < S200x32.numel
  shapeCasts_S200x32_S200x32 : S200x32.ShapeCasts S200x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  reduces_S200x10000_S200 : S200x10000.Reduces [1] S200
  shapeCasts_S200_S200x1 : S200.ShapeCasts S200x1
  broadcasts_S200x1_S200x10000 : S200x1.Broadcasts S200x10000
  inb_S200x1_S200x1_0_0 : ∀ a, (![0, 0] : Fin 2 → Nat) a + S200x1.size a ≤ S200x1.size a
  h_S200x1 : 0 < S200x1.numel
  shapeCasts_S5000x1_S5000 : S5000x1.ShapeCasts S5000
  shapeCasts_S1x1_S_ : S1x1.ShapeCasts S_
  bcast_S_S10000 : S_.BroadcastsInDim S10000 (![] : Fin 0 → Fin S10000.rank)
  bcast_S_S5000 : S_.BroadcastsInDim S5000 (![] : Fin 0 → Fin S5000.rank)
  bcast_S_S10000x32 : S_.BroadcastsInDim S10000x32 (![] : Fin 0 → Fin S10000x32.rank)
  bcast_S5000_S5000x1_0 : S5000.BroadcastsInDim S5000x1 (![0] : Fin 1 → Fin S5000x1.rank)
  bcast_S5000x1_S5000x32_0_1 : S5000x1.BroadcastsInDim S5000x32 (![0, 1] : Fin 2 → Fin S5000x32.rank)
  bcast_S1x32_S5000x32_0_1 : S1x32.BroadcastsInDim S5000x32 (![0, 1] : Fin 2 → Fin S5000x32.rank)
  reducesTo_S10000_S_d0 : S10000.ReducesTo [0] S_
  bcast_S10000_S1x10000_1 : S10000.BroadcastsInDim S1x10000 (![1] : Fin 1 → Fin S1x10000.rank)
  concatenates_S10000x32_S5000x32_S1x32_S15001x32_d0 : Shape.Concatenates [S10000x32, S5000x32, S1x32] S15001x32 0
  transposes_S32x32_S32x32_1_0 : S32x32.Transposes [1, 0] S32x32
  bcast_S1x32_S15001x32_0_1 : S1x32.BroadcastsInDim S15001x32 (![0, 1] : Fin 2 → Fin S15001x32.rank)
  slices_S15001x32_S5000x32_10000_0 : S15001x32.Slices ![10000, 0] S5000x32
  slices_S15001x32_S1x32_15000_0 : S15001x32.Slices ![15000, 0] S1x32
  concatenates_S5000x32_S5000x32_S5000x64_d1 : Shape.Concatenates [S5000x32, S5000x32] S5000x64 1
  transposes_S5x64_S64x5_1_0 : S5x64.Transposes [1, 0] S64x5
  bcast_S5_S1x5_1 : S5.BroadcastsInDim S1x5 (![1] : Fin 1 → Fin S1x5.rank)
  bcast_S1x5_S5000x5_0_1 : S1x5.BroadcastsInDim S5000x5 (![0, 1] : Fin 2 → Fin S5000x5.rank)
  transposes_S5x30_S30x5_1_0 : S5x30.Transposes [1, 0] S30x5
  slices_S5000x5_S5000x2_0_0 : S5000x5.Slices ![0, 0] S5000x2
  slices_S5000x5_S5000x1_0_2 : S5000x5.Slices ![0, 2] S5000x1
  bcast_S_S5000x1 : S_.BroadcastsInDim S5000x1 (![] : Fin 0 → Fin S5000x1.rank)
  slices_S5000x5_S5000x1_0_3 : S5000x5.Slices ![0, 3] S5000x1
  slices_S5000x5_S5000x1_0_4 : S5000x5.Slices ![0, 4] S5000x1
  dot_S5000x30_S30x32_S5000x32_1_0_0_1_n_n_wf : DotDims.WF S5000x30 S30x32 S5000x32 [1] [0] [0] [1] [] []
  dot_S10000x30_S30x32_S10000x32_1_0_0_1_n_n_wf : DotDims.WF S10000x30 S30x32 S10000x32 [1] [0] [0] [1] [] []
  dot_S200x32_S10000x32_S200x10000_1_1_0_0_n_n_wf : DotDims.WF S200x32 S10000x32 S200x10000 [1] [1] [0] [0] [] []
  dot_S200x10000_S10000x32_S200x32_1_0_0_1_n_n_wf : DotDims.WF S200x10000 S10000x32 S200x32 [1] [0] [0] [1] [] []
  dot_S1x10000_S10000x32_S1x32_1_0_0_1_n_n_wf : DotDims.WF S1x10000 S10000x32 S1x32 [1] [0] [0] [1] [] []
  dot_S15001x32_S32x32_S15001x32_1_0_0_1_n_n_wf : DotDims.WF S15001x32 S32x32 S15001x32 [1] [0] [0] [1] [] []
  dot_S5000x64_S64x5_S5000x5_1_0_0_1_n_n_wf : DotDims.WF S5000x64 S64x5 S5000x5 [1] [0] [0] [1] [] []
  dot_S5000x30_S30x5_S5000x5_1_0_0_1_n_n_wf : DotDims.WF S5000x30 S30x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32.size a ≤ S5000x32.size a
  hwx0_0 : ∀ i : grid0.Coords, EltTy.bits .f32 = 32 ∨ (Rect.block (s := S5000x32) S200x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S10000x32.size a
  hwx0_1 : ∀ i : grid0.Coords, EltTy.bits .f32 = 32 ∨ (Rect.block (s := S10000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S10000x32.size a
  hwx0_2 : ∀ i : grid0.Coords, EltTy.bits .f32 = 32 ∨ (Rect.block (s := S10000x32) S10000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S5000x1.size a
  hwx0_3 : ∀ i : grid0.Coords, EltTy.bits .f32 = 32 ∨ (Rect.block (s := S5000x1) S200x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x32.size a ≤ S5000x32.size a
  hwx0_4 : ∀ i : grid0.Coords, EltTy.bits .f32 = 32 ∨ (Rect.block (s := S5000x32) S200x32.size (cc0_transform_4 i) (hinb0_4 i)).WholeWords (EltTy.packing .f32)

variable [Facts₀]

def dot_S5000x30_S30x32_S5000x32_1_0_0_1_n_n : DotDims S5000x30 S30x32 S5000x32 where
  lhsContracting := [1]
  rhsContracting := [0]
  lhsNonContracting := [0]
  rhsNonContracting := [1]
  lhsBatch := []
  rhsBatch := []
  wf := dot_S5000x30_S30x32_S5000x32_1_0_0_1_n_n_wf
def dot_S10000x30_S30x32_S10000x32_1_0_0_1_n_n : DotDims S10000x30 S30x32 S10000x32 where
  lhsContracting := [1]
  rhsContracting := [0]
  lhsNonContracting := [0]
  rhsNonContracting := [1]
  lhsBatch := []
  rhsBatch := []
  wf := dot_S10000x30_S30x32_S10000x32_1_0_0_1_n_n_wf
def dot_S200x32_S10000x32_S200x10000_1_1_0_0_n_n : DotDims S200x32 S10000x32 S200x10000 where
  lhsContracting := [1]
  rhsContracting := [1]
  lhsNonContracting := [0]
  rhsNonContracting := [0]
  lhsBatch := []
  rhsBatch := []
  wf := dot_S200x32_S10000x32_S200x10000_1_1_0_0_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S1x10000_S10000x32_S1x32_1_0_0_1_n_n : DotDims S1x10000 S10000x32 S1x32 where
  lhsContracting := [1]
  rhsContracting := [0]
  lhsNonContracting := [0]
  rhsNonContracting := [1]
  lhsBatch := []
  rhsBatch := []
  wf := dot_S1x10000_S10000x32_S1x32_1_0_0_1_n_n_wf
def dot_S15001x32_S32x32_S15001x32_1_0_0_1_n_n : DotDims S15001x32 S32x32 S15001x32 where
  lhsContracting := [1]
  rhsContracting := [0]
  lhsNonContracting := [0]
  rhsNonContracting := [1]
  lhsBatch := []
  rhsBatch := []
  wf := dot_S15001x32_S32x32_S15001x32_1_0_0_1_n_n_wf
def dot_S5000x64_S64x5_S5000x5_1_0_0_1_n_n : DotDims S5000x64 S64x5 S5000x5 where
  lhsContracting := [1]
  rhsContracting := [0]
  lhsNonContracting := [0]
  rhsNonContracting := [1]
  lhsBatch := []
  rhsBatch := []
  wf := dot_S5000x64_S64x5_S5000x5_1_0_0_1_n_n_wf
def dot_S5000x30_S30x5_S5000x5_1_0_0_1_n_n : DotDims S5000x30 S30x5 S5000x5 where
  lhsContracting := [1]
  rhsContracting := [0]
  lhsNonContracting := [0]
  rhsNonContracting := [1]
  lhsBatch := []
  rhsBatch := []
  wf := dot_S5000x30_S30x5_S5000x5_1_0_0_1_n_n_wf

abbrev win0_0 : Pipeline.Window sig grid0 :=
  Pipeline.Window.ofSpec (Memref.whole main_v8) S200x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S200x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S200x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x30 : Shape := ⟨2, ![10000, 30]⟩
abbrev S10000x2 : Shape := ⟨2, ![10000, 2]⟩
abbrev S5000x30 : Shape := ⟨2, ![5000, 30]⟩
abbrev S5000x2 : Shape := ⟨2, ![5000, 2]⟩
abbrev S10000 : Shape := ⟨1, ![10000]⟩
abbrev S5000 : Shape := ⟨1, ![5000]⟩
abbrev S32x30 : Shape := ⟨2, ![32, 30]⟩
abbrev S32x32 : Shape := ⟨2, ![32, 32]⟩
abbrev S1x1 : Shape := ⟨2, ![1, 1]⟩
abbrev S32 : Shape := ⟨1, ![32]⟩
abbrev S5x64 : Shape := ⟨2, ![5, 64]⟩
abbrev S5 : Shape := ⟨1, ![5]⟩
abbrev S5x30 : Shape := ⟨2, ![5, 30]⟩
abbrev S10000x32 : Shape := ⟨2, ![10000, 32]⟩
abbrev S_ : Shape := ⟨0, ![]⟩
abbrev S5000x32 : Shape := ⟨2, ![5000, 32]⟩
abbrev S1x32 : Shape := ⟨2, ![1, 32]⟩
abbrev S30x32 : Shape := ⟨2, ![30, 32]⟩
abbrev S32x10000 : Shape := ⟨2, ![32, 10000]⟩
abbrev S5000x10000 : Shape := ⟨2, ![5000, 10000]⟩
abbrev S5000x1 : Shape := ⟨2, ![5000, 1]⟩
abbrev S1x10000 : Shape := ⟨2, ![1, 10000]⟩
abbrev S15001x32 : Shape := ⟨2, ![15001, 32]⟩
abbrev S5000x64 : Shape := ⟨2, ![5000, 64]⟩
abbrev S64x5 : Shape := ⟨2, ![64, 5]⟩
abbrev S5000x5 : Shape := ⟨2, ![5000, 5]⟩
abbrev S1x5 : Shape := ⟨2, ![1, 5]⟩
abbrev S30x5 : Shape := ⟨2, ![30, 5]⟩

abbrev nBuf : Space → Nat
  | .hbm => 259
  | .vmem => 0
  | .smem => 0
  | _ => 0

abbrev hbmTy0_0 (i : Nat) : BufTy := match i % 128 with
  | 0 => ⟨S10000x30, .f32⟩
  | 1 => ⟨S10000x2, .f32⟩
  | 2 => ⟨S5000x30, .f32⟩
  | 3 => ⟨S5000x2, .f32⟩
  | 4 => ⟨S10000, .f32⟩
  | 5 => ⟨S5000, .f32⟩
  | 6 => ⟨S32x30, .f32⟩
  | 7 => ⟨S32x30, .f32⟩
  | 8 => ⟨S32x32, .f32⟩
  | 9 => ⟨S1x1, .f32⟩
  | 10 => ⟨S1x1, .f32⟩
  | 11 => ⟨S1x1, .f32⟩
  | 12 => ⟨S1x1, .f32⟩
  | 13 => ⟨S1x1, .f32⟩
  | 14 => ⟨S32x32, .f32⟩
  | 15 => ⟨S32, .f32⟩
  | 16 => ⟨S32x32, .f32⟩
  | 17 => ⟨S32, .f32⟩
  | 18 => ⟨S5x64, .f32⟩
  | 19 => ⟨S5, .f32⟩
  | 20 => ⟨S5x30, .f32⟩
  | 21 => ⟨S5, .f32⟩
  | 22 => ⟨S10000x32, .f32⟩
  | 23 => ⟨S_, .f32⟩
  | 24 => ⟨S5000x2, .f32⟩
  | 25 => ⟨S5000x32, .f32⟩
  | 26 => ⟨S_, .f32⟩
  | 27 => ⟨S32, .f32⟩
  | 28 => ⟨S1x32, .f32⟩
  | 29 => ⟨S_, .f32⟩
  | 30 => ⟨S1x32, .f32⟩
  | 31 => ⟨S1x32, .f32⟩
  | 32 => ⟨S30x32, .f32⟩
  | 33 => ⟨S5000x32, .f32⟩
  | 34 => ⟨S30x32, .f32⟩
  | 35 => ⟨S10000x32, .f32⟩
  | 36 => ⟨S32x10000, .f32⟩
  | 37 => ⟨S5000x10000, .f32⟩
  | 38 => ⟨S_, .f32⟩
  | 39 => ⟨S5000x10000, .f32⟩
  | 40 => ⟨S5000x10000, .f32⟩
  | 41 => ⟨S_, .f32⟩
  | 42 => ⟨S5000, .f32⟩
  | 43 => ⟨S_, .f32⟩
  | 44 => ⟨S5000, .f32⟩
  | 45 => ⟨S5000, .f32⟩
  | 46 => ⟨S5000x1, .f32⟩
  | 47 => ⟨S5000x10000, .f32⟩
  | 48 => ⟨S5000x10000, .f32⟩
  | 49 => ⟨S5000x10000, .f32⟩
  | 50 => ⟨S_, .f32⟩
  | 51 => ⟨S5000, .f32⟩
  | 52 => ⟨S5000x1, .f32⟩
  | 53 => ⟨S5000x10000, .f32⟩
  | 54 => ⟨S5000x10000, .f32⟩
  | 55 => ⟨S5000x10000, .f32⟩
  | 56 => ⟨S_, .f32⟩
  | 57 => ⟨S_, .f32⟩
  | 58 => ⟨S_, .f32⟩
  | 59 => ⟨S_, .f32⟩
  | 60 => ⟨S10000, .f32⟩
  | 61 => ⟨S10000, .f32⟩
  | 62 => ⟨S10000, .f32⟩
  | 63 => ⟨S10000, .f32⟩
  | 64 => ⟨S10000, .f32⟩
  | 65 => ⟨S10000, .f32⟩
  | 66 => ⟨S10000, .f32⟩
  | 67 => ⟨S_, .f32⟩
  | 68 => ⟨S_, .f32⟩
  | 69 => ⟨S5000, .f32⟩
  | 70 => ⟨S5000, .f32⟩
  | 71 => ⟨S5000, .f32⟩
  | 72 => ⟨S5000, .f32⟩
  | 73 => ⟨S5000, .f32⟩
  | 74 => ⟨S5000, .f32⟩
  | 75 => ⟨S5000, .f32⟩
  | 76 => ⟨S_, .f32⟩
  | 77 => ⟨S10000x32, .f32⟩
  | 78 => ⟨S10000x32, .f32⟩
  | 79 => ⟨S_, .f32⟩
  | 80 => ⟨S5000, .f32⟩
  | 81 => ⟨S_, .f32⟩
  | 82 => ⟨S5000, .f32⟩
  | 83 => ⟨S5000, .f32⟩
  | 84 => ⟨S5000, .f32⟩
  | 85 => ⟨S_, .f32⟩
  | 86 => ⟨S5000, .f32⟩
  | 87 => ⟨S5000, .f32⟩
  | 88 => ⟨S5000x32, .f32⟩
  | 89 => ⟨S5000x32, .f32⟩
  | 90 => ⟨S5000x1, .f32⟩
  | 91 => ⟨S5000x32, .f32⟩
  | 92 => ⟨S5000x32, .f32⟩
  | 93 => ⟨S5000x32, .f32⟩
  | 94 => ⟨S5000x32, .f32⟩
  | 95 => ⟨S5000x1, .f32⟩
  | 96 => ⟨S5000x32, .f32⟩
  | 97 => ⟨S5000x32, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1x10000, .f32⟩
  | 105 => ⟨S1x32, .f32⟩
  | 106 => ⟨S1x32, .f32⟩
  | 107 => ⟨S1x32, .f32⟩
  | 108 => ⟨S1x32, .f32⟩
  | 109 => ⟨S15001x32, .f32⟩
  | 110 => ⟨S32x32, .f32⟩
  | 111 => ⟨S15001x32, .f32⟩
  | 112 => ⟨S1x32, .f32⟩
  | 113 => ⟨S15001x32, .f32⟩
  | 114 => ⟨S15001x32, .f32⟩
  | 115 => ⟨S5000x32, .f32⟩
  | 116 => ⟨S1x32, .f32⟩
  | 117 => ⟨S_, .f32⟩
  | 118 => ⟨S_, .f32⟩
  | 119 => ⟨S5000, .f32⟩
  | 120 => ⟨S5000, .f32⟩
  | 121 => ⟨S5000, .f32⟩
  | 122 => ⟨S5000, .f32⟩
  | 123 => ⟨S5000, .f32⟩
  | 124 => ⟨S5000, .f32⟩
  | 125 => ⟨S5000, .f32⟩
  | 126 => ⟨S_, .f32⟩
  | 127 => ⟨S5000, .f32⟩
  | _ => ⟨S10000x30, .f32⟩

abbrev hbmTy0_1 (i : Nat) : BufTy := match i % 128 with
  | 0 => ⟨S5000, .f32⟩
  | 1 => ⟨S_, .f32⟩
  | 2 => ⟨S5000, .f32⟩
  | 3 => ⟨S5000, .f32⟩
  | 4 => ⟨S5000x1, .f32⟩
  | 5 => ⟨S5000x32, .f32⟩
  | 6 => ⟨S5000x32, .f32⟩
  | 7 => ⟨S5000x32, .f32⟩
  | 8 => ⟨S5000x32, .f32⟩
  | 9 => ⟨S5000x1, .f32⟩
  | 10 => ⟨S5000x32, .f32⟩
  | 11 => ⟨S5000x32, .f32⟩
  | 12 => ⟨S_, .f32⟩
  | 13 => ⟨S1x32, .f32⟩
  | 14 => ⟨S1x32, .f32⟩
  | 15 => ⟨S15001x32, .f32⟩
  | 16 => ⟨S32x32, .f32⟩
  | 17 => ⟨S15001x32, .f32⟩
  | 18 => ⟨S1x32, .f32⟩
  | 19 => ⟨S15001x32, .f32⟩
  | 20 => ⟨S15001x32, .f32⟩
  | 21 => ⟨S5000x32, .f32⟩
  | 22 => ⟨S5000x64, .f32⟩
  | 23 => ⟨S64x5, .f32⟩
  | 24 => ⟨S5000x5, .f32⟩
  | 25 => ⟨S1x5, .f32⟩
  | 26 => ⟨S5000x5, .f32⟩
  | 27 => ⟨S5000x5, .f32⟩
  | 28 => ⟨S30x5, .f32⟩
  | 29 => ⟨S5000x5, .f32⟩
  | 30 => ⟨S1x5, .f32⟩
  | 31 => ⟨S5000x5, .f32⟩
  | 32 => ⟨S5000x5, .f32⟩
  | 33 => ⟨S5000x2, .f32⟩
  | 34 => ⟨S5000x1, .f32⟩
  | 35 => ⟨S_, .f32⟩
  | 36 => ⟨S5000x1, .f32⟩
  | 37 => ⟨S5000x1, .f32⟩
  | 38 => ⟨S5000x1, .f32⟩
  | 39 => ⟨S5000x1, .f32⟩
  | 40 => ⟨S5000x1, .i1⟩
  | 41 => ⟨S5000x1, .f32⟩
  | 42 => ⟨S5000x1, .f32⟩
  | 43 => ⟨S5000x1, .f32⟩
  | 44 => ⟨S5000x1, .f32⟩
  | 45 => ⟨S5000x1, .f32⟩
  | 46 => ⟨S5000x1, .f32⟩
  | 47 => ⟨S5000x1, .f32⟩
  | 48 => ⟨S5000x1, .f32⟩
  | 49 => ⟨S5000x1, .f32⟩
  | 50 => ⟨S_, .f32⟩
  | 51 => ⟨S5000x1, .f32⟩
  | 52 => ⟨S5000x1, .f32⟩
  | 53 => ⟨S5000x1, .f32⟩
  | 54 => ⟨S5000x1, .f32⟩
  | 55 => ⟨S5000x1, .i1⟩
  | 56 => ⟨S5000x1, .f32⟩
  | 57 => ⟨S5000x1, .f32⟩
  | 58 => ⟨S5000x1, .f32⟩
  | 59 => ⟨S5000x1, .f32⟩
  | 60 => ⟨S5000x1, .f32⟩
  | 61 => ⟨S5000x1, .f32⟩
  | 62 => ⟨S5000x1, .f32⟩
  | 63 => ⟨S5000x1, .f32⟩
  | 64 => ⟨S_, .f32⟩
  | 65 => ⟨S5000x1, .f32⟩
  | 66 => ⟨S5000x1, .f32⟩
  | 67 => ⟨S5000x1, .f32⟩
  | 68 => ⟨S_, .f32⟩
  | 69 => ⟨S5000x1, .f32⟩
  | 70 => ⟨S5000x1, .f32⟩
  | 71 => ⟨S5000x1, .f32⟩
  | 72 => ⟨S5000x1, .f32⟩
  | 73 => ⟨S5000x1, .i1⟩
  | 74 => ⟨S5000x1, .f32⟩
  | 75 => ⟨S5000x1, .f32⟩
  | 76 => ⟨S5000x1, .f32⟩
  | 77 => ⟨S5000x1, .f32⟩
  | 78 => ⟨S5000x1, .f32⟩
  | 79 => ⟨S5000x1, .f32⟩
  | 80 => ⟨S5000x1, .f32⟩
  | 81 => ⟨S5000x1, .f32⟩
  | 82 => ⟨S5000x2, .f32⟩
  | 83 => ⟨S5000x1, .f32⟩
  | 84 => ⟨S_, .f32⟩
  | 85 => ⟨S5000x1, .f32⟩
  | 86 => ⟨S5000x1, .f32⟩
  | 87 => ⟨S5000x1, .f32⟩
  | 88 => ⟨S5000x1, .f32⟩
  | 89 => ⟨S5000x1, .i1⟩
  | 90 => ⟨S5000x1, .f32⟩
  | 91 => ⟨S5000x1, .f32⟩
  | 92 => ⟨S5000x1, .f32⟩
  | 93 => ⟨S5000x1, .f32⟩
  | 94 => ⟨S5000x1, .f32⟩
  | 95 => ⟨S5000x1, .f32⟩
  | 96 => ⟨S5000x1, .f32⟩
  | 97 => ⟨S5000x1, .f32⟩
  | 98 => ⟨S5000x1, .f32⟩
  | 99 => ⟨S_, .f32⟩
  | 100 => ⟨S5000x1, .f32⟩
  | 101 => ⟨S5000x1, .f32⟩
  | 102 => ⟨S5000x1, .f32⟩
  | 103 => ⟨S5000x1, .f32⟩
  | 104 => ⟨S5000x1, .i1⟩
  | 105 => ⟨S5000x1, .f32⟩
  | 106 => ⟨S5000x1, .f32⟩
  | 107 => ⟨S5000x1, .f32⟩
  | 108 => ⟨S5000x1, .f32⟩
  | 109 => ⟨S5000x1, .f32⟩
  | 110 => ⟨S5000x1, .f32⟩
  | 111 => ⟨S5000x1, .f32⟩
  | 112 => ⟨S5000x1, .f32⟩
  | 113 => ⟨S_, .f32⟩
  | 114 => ⟨S5000x1, .f32⟩
  | 115 => ⟨S5000x1, .f32⟩
  | 116 => ⟨S5000x1, .f32⟩
  | 117 => ⟨S_, .f32⟩
  | 118 => ⟨S5000x1, .f32⟩
  | 119 => ⟨S5000x1, .f32⟩
  | 120 => ⟨S5000x1, .f32⟩
  | 121 => ⟨S5000x1, .f32⟩
  | 122 => ⟨S5000x1, .i1⟩
  | 123 => ⟨S5000x1, .f32⟩
  | 124 => ⟨S5000x1, .f32⟩
  | 125 => ⟨S5000x1, .f32⟩
  | 126 => ⟨S5000x1, .f32⟩
  | 127 => ⟨S5000x1, .f32⟩
  | _ => ⟨S10000x30, .f32⟩

abbrev hbmTy0_2 (i : Nat) : BufTy := match i % 128 with
  | 0 => ⟨S5000x1, .f32⟩
  | 1 => ⟨S5000x1, .f32⟩
  | 2 => ⟨S5000x1, .f32⟩
  | _ => ⟨S10000x30, .f32⟩

abbrev hbmTy (i : Nat) : BufTy := match i / 128 with
  | 0 => hbmTy0_0 i
  | 1 => hbmTy0_1 i
  | 2 => hbmTy0_2 i
  | _ => ⟨S10000x30, .f32⟩

abbrev bufTy : (tb : Table) → Fin (tcTables nBuf tb) → BufTy
  | .hbm, ⟨i, _⟩ => hbmTy i
  | _, _ => ⟨S10000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_cst_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_13 : Ref sig .tc := ⟨.hbm, 126, rfl⟩
abbrev main_v90 : Ref sig .tc := ⟨.hbm, 127, rfl⟩
abbrev main_v91 : Ref sig .tc := ⟨.hbm, 128, rfl⟩
abbrev main_cst_14 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_15 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call0_cst : Ref sig .tc := ⟨.hbm, 163, rfl⟩
abbrev main_call0_v0 : Ref sig .tc := ⟨.hbm, 164, rfl⟩
abbrev main_call0_v1 : Ref sig .tc := ⟨.hbm, 165, rfl⟩
abbrev main_call0_v2 : Ref sig .tc := ⟨.hbm, 166, rfl⟩
abbrev main_call0_v3 : Ref sig .tc := ⟨.hbm, 167, rfl⟩
abbrev main_call0_v4 : Ref sig .tc := ⟨.hbm, 168, rfl⟩
abbrev main_call0_v5 : Ref sig .tc := ⟨.hbm, 169, rfl⟩
abbrev main_call0_v6 : Ref sig .tc := ⟨.hbm, 170, rfl⟩
abbrev main_call0_v7 : Ref sig .tc := ⟨.hbm, 171, rfl⟩
abbrev main_call0_v8 : Ref sig .tc := ⟨.hbm, 172, rfl⟩
abbrev main_call0_v9 : Ref sig .tc := ⟨.hbm, 173, rfl⟩
abbrev main_call0_v10 : Ref sig .tc := ⟨.hbm, 174, rfl⟩
abbrev main_call0_v11 : Ref sig .tc := ⟨.hbm, 175, rfl⟩
abbrev main_v124 : Ref sig .tc := ⟨.hbm, 176, rfl⟩
abbrev main_v125 : Ref sig .tc := ⟨.hbm, 177, rfl⟩
abbrev main_call1_cst : Ref sig .tc := ⟨.hbm, 178, rfl⟩
abbrev main_call1_v0 : Ref sig .tc := ⟨.hbm, 179, rfl⟩
abbrev main_call1_v1 : Ref sig .tc := ⟨.hbm, 180, rfl⟩
abbrev main_call1_v2 : Ref sig .tc := ⟨.hbm, 181, rfl⟩
abbrev main_call1_v3 : Ref sig .tc := ⟨.hbm, 182, rfl⟩
abbrev main_call1_v4 : Ref sig .tc := ⟨.hbm, 183, rfl⟩
abbrev main_call1_v5 : Ref sig .tc := ⟨.hbm, 184, rfl⟩
abbrev main_call1_v6 : Ref sig .tc := ⟨.hbm, 185, rfl⟩
abbrev main_call1_v7 : Ref sig .tc := ⟨.hbm, 186, rfl⟩
abbrev main_call1_v8 : Ref sig .tc := ⟨.hbm, 187, rfl⟩
abbrev main_call1_v9 : Ref sig .tc := ⟨.hbm, 188, rfl⟩
abbrev main_call1_v10 : Ref sig .tc := ⟨.hbm, 189, rfl⟩
abbrev main_call1_v11 : Ref sig .tc := ⟨.hbm, 190, rfl⟩
abbrev main_v126 : Ref sig .tc := ⟨.hbm, 191, rfl⟩
abbrev main_cst_16 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_call2_cst : Ref sig .tc := ⟨.hbm, 196, rfl⟩
abbrev main_call2_v0 : Ref sig .tc := ⟨.hbm, 197, rfl⟩
abbrev main_call2_v1 : Ref sig .tc := ⟨.hbm, 198, rfl⟩
abbrev main_call2_v2 : Ref sig .tc := ⟨.hbm, 199, rfl⟩
abbrev main_call2_v3 : Ref sig .tc := ⟨.hbm, 200, rfl⟩
abbrev main_call2_v4 : Ref sig .tc := ⟨.hbm, 201, rfl⟩
abbrev main_call2_v5 : Ref sig .tc := ⟨.hbm, 202, rfl⟩
abbrev main_call2_v6 : Ref sig .tc := ⟨.hbm, 203, rfl⟩
abbrev main_call2_v7 : Ref sig .tc := ⟨.hbm, 204, rfl⟩
abbrev main_call2_v8 : Ref sig .tc := ⟨.hbm, 205, rfl⟩
abbrev main_call2_v9 : Ref sig .tc := ⟨.hbm, 206, rfl⟩
abbrev main_call2_v10 : Ref sig .tc := ⟨.hbm, 207, rfl⟩
abbrev main_call2_v11 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_call3_cst : Ref sig .tc := ⟨.hbm, 212, rfl⟩
abbrev main_call3_v0 : Ref sig .tc := ⟨.hbm, 213, rfl⟩
abbrev main_call3_v1 : Ref sig .tc := ⟨.hbm, 214, rfl⟩
abbrev main_call3_v2 : Ref sig .tc := ⟨.hbm, 215, rfl⟩
abbrev main_call3_v3 : Ref sig .tc := ⟨.hbm, 216, rfl⟩
abbrev main_call3_v4 : Ref sig .tc := ⟨.hbm, 217, rfl⟩
abbrev main_call3_v5 : Ref sig .tc := ⟨.hbm, 218, rfl⟩
abbrev main_call3_v6 : Ref sig .tc := ⟨.hbm, 219, rfl⟩
abbrev main_call3_v7 : Ref sig .tc := ⟨.hbm, 220, rfl⟩
abbrev main_call3_v8 : Ref sig .tc := ⟨.hbm, 221, rfl⟩
abbrev main_call3_v9 : Ref sig .tc := ⟨.hbm, 222, rfl⟩
abbrev main_call3_v10 : Ref sig .tc := ⟨.hbm, 223, rfl⟩
abbrev main_call3_v11 : Ref sig .tc := ⟨.hbm, 224, rfl⟩
abbrev main_v133 : Ref sig .tc := ⟨.hbm, 225, rfl⟩
abbrev main_v134 : Ref sig .tc := ⟨.hbm, 226, rfl⟩
abbrev main_call4_cst : Ref sig .tc := ⟨.hbm, 227, rfl⟩
abbrev main_call4_v0 : Ref sig .tc := ⟨.hbm, 228, rfl⟩
abbrev main_call4_v1 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_v8 : Ref sig .tc := ⟨.hbm, 236, rfl⟩
abbrev main_call4_v9 : Ref sig .tc := ⟨.hbm, 237, rfl⟩
abbrev main_call4_v10 : Ref sig .tc := ⟨.hbm, 238, rfl⟩
abbrev main_call4_v11 : Ref sig .tc := ⟨.hbm, 239, rfl⟩
abbrev main_v135 : Ref sig .tc := ⟨.hbm, 240, rfl⟩
abbrev main_cst_17 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_call5_cst : Ref sig .tc := ⟨.hbm, 245, rfl⟩
abbrev main_call5_v0 : Ref sig .tc := ⟨.hbm, 246, rfl⟩
abbrev main_call5_v1 : Ref sig .tc := ⟨.hbm, 247, rfl⟩
abbrev main_call5_v2 : Ref sig .tc := ⟨.hbm, 248, rfl⟩
abbrev main_call5_v3 : Ref sig .tc := ⟨.hbm, 249, rfl⟩
abbrev main_call5_v4 : Ref sig .tc := ⟨.hbm, 250, rfl⟩
abbrev main_call5_v5 : Ref sig .tc := ⟨.hbm, 251, rfl⟩
abbrev main_call5_v6 : Ref sig .tc := ⟨.hbm, 252, rfl⟩
abbrev main_call5_v7 : Ref sig .tc := ⟨.hbm, 253, rfl⟩
abbrev main_call5_v8 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_v139 : Ref sig .tc := ⟨.hbm, 258, rfl⟩

abbrev nD : Nat := 1
abbrev τ : Topo := Topo.v7x

variable {F : FTy → Type} [FloatOps F]

class Facts₀ : Prop where
  concatenates_S10000x30_S10000x2_S10000x32_d1 : Shape.Concatenates [S10000x30, S10000x2] S10000x32 1
  bcast_S_S5000x2 : S_.BroadcastsInDim S5000x2 (![] : Fin 0 → Fin S5000x2.rank)
  concatenates_S5000x30_S5000x2_S5000x32_d1 : Shape.Concatenates [S5000x30, S5000x2] S5000x32 1
  reducesTo_S10000x32_S32_d0 : S10000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  transposes_S32x30_S30x32_1_0 : S32x30.Transposes [1, 0] S30x32
  transposes_S10000x32_S32x10000_1_0 : S10000x32.Transposes [1, 0] S32x10000
  bcast_S_S5000x10000 : S_.BroadcastsInDim S5000x10000 (![] : Fin 0 → Fin S5000x10000.rank)
  reducesTo_S5000x10000_S5000_d1 : S5000x10000.ReducesTo [1] S5000
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x10000_0_1 : S5000x1.BroadcastsInDim S5000x10000 (![0, 1] : Fin 2 → Fin S5000x10000.rank)
  shapeCasts_S1x1_S_ : S1x1.ShapeCasts S_
  bcast_S_S10000 : S_.BroadcastsInDim S10000 (![] : Fin 0 → Fin S10000.rank)
  bcast_S_S10000x32 : S_.BroadcastsInDim S10000x32 (![] : Fin 0 → Fin S10000x32.rank)
  bcast_S5000x1_S5000x32_0_1 : S5000x1.BroadcastsInDim S5000x32 (![0, 1] : Fin 2 → Fin S5000x32.rank)
  bcast_S1x32_S5000x32_0_1 : S1x32.BroadcastsInDim S5000x32 (![0, 1] : Fin 2 → Fin S5000x32.rank)
  reducesTo_S10000_S_d0 : S10000.ReducesTo [0] S_
  bcast_S10000_S1x10000_1 : S10000.BroadcastsInDim S1x10000 (![1] : Fin 1 → Fin S1x10000.rank)
  concatenates_S10000x32_S5000x32_S1x32_S15001x32_d0 : Shape.Concatenates [S10000x32, S5000x32, S1x32] S15001x32 0
  transposes_S32x32_S32x32_1_0 : S32x32.Transposes [1, 0] S32x32
  bcast_S1x32_S15001x32_0_1 : S1x32.BroadcastsInDim S15001x32 (![0, 1] : Fin 2 → Fin S15001x32.rank)
  slices_S15001x32_S5000x32_10000_0 : S15001x32.Slices ![10000, 0] S5000x32
  slices_S15001x32_S1x32_15000_0 : S15001x32.Slices ![15000, 0] S1x32
  concatenates_S5000x32_S5000x32_S5000x64_d1 : Shape.Concatenates [S5000x32, S5000x32] S5000x64 1
  transposes_S5x64_S64x5_1_0 : S5x64.Transposes [1, 0] S64x5
  bcast_S5_S1x5_1 : S5.BroadcastsInDim S1x5 (![1] : Fin 1 → Fin S1x5.rank)
  bcast_S1x5_S5000x5_0_1 : S1x5.BroadcastsInDim S5000x5 (![0, 1] : Fin 2 → Fin S5000x5.rank)
  transposes_S5x30_S30x5_1_0 : S5x30.Transposes [1, 0] S30x5
  slices_S5000x5_S5000x2_0_0 : S5000x5.Slices ![0, 0] S5000x2
  slices_S5000x5_S5000x1_0_2 : S5000x5.Slices ![0, 2] S5000x1
  bcast_S_S5000x1 : S_.BroadcastsInDim S5000x1 (![] : Fin 0 → Fin S5000x1.rank)
  slices_S5000x5_S5000x1_0_3 : S5000x5.Slices ![0, 3] S5000x1
  slices_S5000x5_S5000x1_0_4 : S5000x5.Slices ![0, 4] S5000x1
  dot_S5000x30_S30x32_S5000x32_1_0_0_1_n_n_wf : DotDims.WF S5000x30 S30x32 S5000x32 [1] [0] [0] [1] [] []
  dot_S10000x30_S30x32_S10000x32_1_0_0_1_n_n_wf : DotDims.WF S10000x30 S30x32 S10000x32 [1] [0] [0] [1] [] []
  dot_S5000x32_S32x10000_S5000x10000_1_0_0_1_n_n_wf : DotDims.WF S5000x32 S32x10000 S5000x10000 [1] [0] [0] [1] [] []
  dot_S5000x10000_S10000x32_S5000x32_1_0_0_1_n_n_wf : DotDims.WF S5000x10000 S10000x32 S5000x32 [1] [0] [0] [1] [] []
  dot_S1x10000_S10000x32_S1x32_1_0_0_1_n_n_wf : DotDims.WF S1x10000 S10000x32 S1x32 [1] [0] [0] [1] [] []
  dot_S15001x32_S32x32_S15001x32_1_0_0_1_n_n_wf : DotDims.WF S15001x32 S32x32 S15001x32 [1] [0] [0] [1] [] []
  dot_S5000x64_S64x5_S5000x5_1_0_0_1_n_n_wf : DotDims.WF S5000x64 S64x5 S5000x5 [1] [0] [0] [1] [] []
  dot_S5000x30_S30x5_S5000x5_1_0_0_1_n_n_wf : DotDims.WF S5000x30 S30x5 S5000x5 [1] [0] [0] [1] [] []

variable [Facts₀]

def dot_S5000x30_S30x32_S5000x32_1_0_0_1_n_n : DotDims S5000x30 S30x32 S5000x32 where
  lhsContracting := [1]
  rhsContracting := [0]
  lhsNonContracting := [0]
  rhsNonContracting := [1]
  lhsBatch := []
  rhsBatch := []
  wf := dot_S5000x30_S30x32_S5000x32_1_0_0_1_n_n_wf
def dot_S10000x30_S30x32_S10000x32_1_0_0_1_n_n : DotDims S10000x30 S30x32 S10000x32 where
  lhsContracting := [1]
  rhsContracting := [0]
  lhsNonContracting := [0]
  rhsNonContracting := [1]
  lhsBatch := []
  rhsBatch := []
  wf := dot_S10000x30_S30x32_S10000x32_1_0_0_1_n_n_wf
def dot_S5000x32_S32x10000_S5000x10000_1_0_0_1_n_n : DotDims S5000x32 S32x10000 S5000x10000 where
  lhsContracting := [1]
  rhsContracting := [0]
  lhsNonContracting := [0]
  rhsNonContracting := [1]
  lhsBatch := []
  rhsBatch := []
  wf := dot_S5000x32_S32x10000_S5000x10000_1_0_0_1_n_n_wf
def dot_S5000x10000_S10000x32_S5000x32_1_0_0_1_n_n : DotDims S5000x10000 S10000x32 S5000x32 where
  lhsContracting := [1]
  rhsContracting := [0]
  lhsNonContracting := [0]
  rhsNonContracting := [1]
  lhsBatch := []
  rhsBatch := []
  wf := dot_S5000x10000_S10000x32_S5000x32_1_0_0_1_n_n_wf
def dot_S1x10000_S10000x32_S1x32_1_0_0_1_n_n : DotDims S1x10000 S10000x32 S1x32 where
  lhsContracting := [1]
  rhsContracting := [0]
  lhsNonContracting := [0]
  rhsNonContracting := [1]
  lhsBatch := []
  rhsBatch := []
  wf := dot_S1x10000_S10000x32_S1x32_1_0_0_1_n_n_wf
def dot_S15001x32_S32x32_S15001x32_1_0_0_1_n_n : DotDims S15001x32 S32x32 S15001x32 where
  lhsContracting := [1]
  rhsContracting := [0]
  lhsNonContracting := [0]
  rhsNonContracting := [1]
  lhsBatch := []
  rhsBatch := []
  wf := dot_S15001x32_S32x32_S15001x32_1_0_0_1_n_n_wf
def dot_S5000x64_S64x5_S5000x5_1_0_0_1_n_n : DotDims S5000x64 S64x5 S5000x5 where
  lhsContracting := [1]
  rhsContracting := [0]
  lhsNonContracting := [0]
  rhsNonContracting := [1]
  lhsBatch := []
  rhsBatch := []
  wf := dot_S5000x64_S64x5_S5000x5_1_0_0_1_n_n_wf
def dot_S5000x30_S30x5_S5000x5_1_0_0_1_n_n : DotDims S5000x30 S30x5 S5000x5 where
  lhsContracting := [1]
  rhsContracting := [0]
  lhsNonContracting := [0]
  rhsNonContracting := [1]
  lhsBatch := []
  rhsBatch := []
  wf := dot_S5000x30_S30x5_S5000x5_1_0_0_1_n_n_wf

class Facts : Prop extends Facts₀ where

variable [Facts]
-- ==== Proof.AroundBits.lean ====
/-
  The run of the attention program around its one tiled region, and the frame it leaves.

  The program is: fourteen host lines (the feature matrices, the router row, the query and key projections), the
  region — a grid of 25 points, point t working on rows 200·t … 200·t + 199 of the queries against all 10000 keys and
  values held whole —, then the host lines that turn the region's two results (the degree column [5000, 1] and the
  aggregated features [5000, 32]) into the eight outputs.

  What is shown here, for any interpretation of the floats:
    * the body at a point reads its three input blocks and leaves in its two output buffers the two stored values,
      each a function of the input blocks alone (the body also reads its output buffers, and uses nothing of what it
      reads there);
    * every host line after the region writes a buffer introduced after the region's results, so none of them touches
      an argument or an array of the region, and the lines before the region write no argument either;
    * hence the whole program runs to the end, faults nowhere, leaves each result array at what the points wrote back,
      every later buffer at the later lines' value from there, and every argument as it was.
-/
import proofs.«110197_j41532333752349_1_alg».proof.Proof.Gen.Kernel.Launch
import proofs.«110197_j41532333752349_1_alg».proof.Proof.Gen.Kernel.Skeleton
import proofs.«110197_j41532333752349_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- The host lines after the region, stretch by stretch, in order. -/
abbrev tailOps : List (List (HloOp τ sig (Elt F))) :=
  [hostOps1, hostOps1_1, hostOps1_2, hostOps1_3, hostOps1_4, hostOps1_5, hostOps1_6, hostOps1_7, hostOps1_8, hostOps1_9,
    hostOps1_10, hostOps1_11]

/-- Core `c`'s buffer contents when the region is entered: the launch contents after the lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- A property of every line of every stretch after the region, from the property stretch by stretch. -/
theorem forall_tail {p : HloOp τ sig (Elt F) → Prop}
    (h0 : (hostOps1 (F := F)).Forall p) (h1 : (hostOps1_1 (F := F)).Forall p) (h2 : (hostOps1_2 (F := F)).Forall p)
    (h3 : (hostOps1_3 (F := F)).Forall p) (h4 : (hostOps1_4 (F := F)).Forall p) (h5 : (hostOps1_5 (F := F)).Forall p)
    (h6 : (hostOps1_6 (F := F)).Forall p) (h7 : (hostOps1_7 (F := F)).Forall p) (h8 : (hostOps1_8 (F := F)).Forall p)
    (h9 : (hostOps1_9 (F := F)).Forall p) (h10 : (hostOps1_10 (F := F)).Forall p) (h11 : (hostOps1_11 (F := F)).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop

/-- No host line allocates a buffer. -/
theorem fresh_pre : (hostOps0 : List (HloOp τ sig (Elt F))).Forall fun op => op.fresh = ∅ := by
  simp only [List.Forall]; repeat' constructor
theorem tail_fresh : ∀ ops ∈ (tailOps : List (List (HloOp τ sig (Elt F)))), ∀ op ∈ ops, op.fresh = ∅ :=
  forall_tail (p := fun op => op.fresh = ∅)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)

/-- The lines after the region touch the region's arrays and the buffers that bypass it only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    (forall_tail (p := fun op => op.bufs ⊆ StableHlo.tcRefs τ sig) hostOps1_sub hostOps1_1_sub hostOps1_2_sub hostOps1_3_sub
      hostOps1_4_sub hostOps1_5_sub hostOps1_6_sub hostOps1_7_sub hostOps1_8_sub hostOps1_9_sub hostOps1_10_sub hostOps1_11_sub
      ops hops op hop)

/-- A line writes only buffers numbered `n` or later. The buffers are numbered in the order the program introduces them:
    the 22 arguments first, then each line's result. -/
abbrev WritesFrom (n : ℕ) (op : HloOp τ sig (Elt F)) : Prop :=
  ∀ b : Ref sig .tc, Proc.devRef .tc b ∈ op.writes → n ≤ b.idx.val

/-- The lines before the region write buffers after the arguments. -/
theorem pre_from : (hostOps0 : List (HloOp τ sig (Elt F))).Forall (WritesFrom 22) := by
  simp only [List.Forall, WritesFrom, StableHlo.nullary_writes, StableHlo.unary_writes, StableHlo.binary_writes,
    StableHlo.ternary_writes, StableHlo.reshape_writes, StableHlo.nary_writes, Finset.mem_singleton]
  repeat' apply And.intro
  all_goals (intro b hb; obtain rfl := Proc.devRef_injective _ hb; decide)

/-- The lines after the region write buffers after the region's results. -/
theorem tail_from : ∀ ops ∈ (tailOps : List (List (HloOp τ sig (Elt F)))), ∀ op ∈ ops, WritesFrom 38 op := by
  refine forall_tail (p := WritesFrom 38) ?_ ?_ ?_ ?_ ?_ ?_ ?_ ?_ ?_ ?_ ?_ ?_
  all_goals
    simp only [List.Forall, WritesFrom, StableHlo.nullary_writes, StableHlo.unary_writes, StableHlo.binary_writes,
      StableHlo.ternary_writes, StableHlo.reshape_writes, StableHlo.nary_writes, Finset.mem_singleton]
    repeat' apply And.intro
    all_goals (intro b hb; obtain rfl := Proc.devRef_injective _ hb; decide)

/-- The region's five arrays (queries, keys, values, degree column, aggregated features) are numbered before 38. -/
theorem arr_early : ∀ w : Fin 5, (Pipeline.arrRef spec0 w).idx.val < 38 := by decide

/-- So no line after the region writes an array of the region. -/
theorem tail_keeps : ∀ ops ∈ (tailOps : List (List (HloOp τ sig (Elt F)))), ∀ op ∈ ops,
    ∀ w, Proc.devRef .tc (Pipeline.arrRef spec0 w) ∉ op.writes :=
  fun ops hops op hop w hw => absurd (tail_from ops hops op hop _ hw) (Nat.not_le.mpr (arr_early w))

/-- @main is the lines before the region, the region, the lines after it: it reduces to the region continued by the
    later lines, entered at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact fresh_pre) main_chain

/-- A buffer numbered before 22 (an argument) is found by the region as launched. -/
theorem V_early (c : Dev nD) (b : Ref sig .tc) (hb : b.idx.val < 22) : V m c b = m ((c : Thread nD τ).loc b) :=
  StableHlo.after_of_forall_not_mem (b := Proc.devRef .tc b) _ _ fun op hop h => by
    simp only [List.flatten_cons, List.flatten_nil, List.append_nil] at hop
    exact absurd ((List.forall_iff_forall_mem.mp pre_from) op hop b h) (Nat.not_le.mpr hb)

/-- And, being no array of the region, it ends as launched. -/
theorem W_early (dats : (p : Fin 1) → (c : Dev nD) → Dat τ (Elt F) Unit ℕ (UR sig nD τ) ℕ (cfgs p) c) (c : Dev nD)
    (b : Ref sig .tc) (hb : b.idx.val < 22) (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop h => by
      obtain ⟨ops, hops, hop'⟩ := List.mem_flatten.mp hop
      exact absurd (tail_from ops hops op hop' b h) (Nat.not_le.mpr (by omega))),
    Pipeline.withArrays_of_ne _ c (V0 m c) _ b hne]
  exact V_early m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (the keys and the values are
    fetched once, at the first point, and their block never moves). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in its two output buffers -/

abbrev rq : Rect S200x32 := Rect.unit (s := S200x32) ![0, 0] S200x32.size inb_S200x32_S200x32_0_0
abbrev rk : Rect S10000x32 := Rect.unit (s := S10000x32) ![0, 0] S10000x32.size inb_S10000x32_S10000x32_0_0
abbrev rd : Rect S200x1 := Rect.unit (s := S200x1) ![0, 0] S200x1.size inb_S200x1_S200x1_0_0

/-- The degree buffer after the body: its one store, of the row sums of the weights. -/
def outDeg (xq : Vec F S200x32 .f32) (xk : Vec F S10000x32 .f32) : Vec F S200x1 .f32 :=
  View.canon [⟨rd, k0_pay2 (View.ld xq rq) (View.ld xk rk)⟩]

/-- The aggregated-features buffer after the body: its one store, of the weights against the values. -/
def outAgg (xq : Vec F S200x32 .f32) (xk xv : Vec F S10000x32 .f32) : Vec F S200x32 .f32 :=
  View.canon [⟨rq, k0_pay3 (View.ld xq rq) (View.ld xk rk) (View.ld xv rk)⟩]

theorem cover_deg (p0 : Vec F S200x1 .f32) (y : S200x1.Idx) :
    ∃ pc ∈ ([⟨rd, p0⟩] : List (View.Piece (Elt F) S200x1 .f32)), y ∈ pc.1.set :=
  View.cover_of_tiled [⟨rd, p0⟩] S200x1.size (by rfl) y

theorem cover_agg (p0 : Vec F S200x32 .f32) (y : S200x32.Idx) :
    ∃ pc ∈ ([⟨rq, p0⟩] : List (View.Piece (Elt F) S200x32 .f32)), y ∈ pc.1.set :=
  View.cover_of_tiled [⟨rq, p0⟩] S200x32.size (by rfl) y

end Cert.Kernel.Around

end
-- ==== Proof.BodyBits.lean ====
/-
  The body of the attention region at a grid point, the region's proof data, and the program's run.

  At a point the body is handed its three input blocks (200 query rows; all the keys; all the values) and two output
  buffers at anything. It loads the inputs, computes, stores the degree column and the aggregated features whole, and
  returns. It also loads both output buffers before storing into them; nothing it stores depends on what it read there.
  So after the body the inputs are as they were and each output buffer holds its one store.

  With that, the region's frame run applies: the program terminates without a fault, each result array ends at what the
  25 points wrote back, every buffer introduced later at the later lines' value, and every argument as launched.
-/
import proofs.«110197_j41532333752349_1_alg».proof.Proof.AroundBits

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole buffers, the inputs' at contents `xq xk xv` and the outputs' at anything, runs to its return holding
    the inputs' as they were and the outputs' at their stores of the inputs. -/
theorem sound_kernel (c : Dev nD) (E : Set ℕ) (i : grid0.Coords)
    (a1 : Memref sig .tc .vmem S200x32 .f32) (h1 : a1.IsWhole) (a2 : Memref sig .tc .vmem S10000x32 .f32) (h2 : a2.IsWhole)
    (a3 : Memref sig .tc .vmem S10000x32 .f32) (h3 : a3.IsWhole) (a4 : Memref sig .tc .vmem S200x1 .f32) (h4 : a4.IsWhole)
    (a5 : Memref sig .tc .vmem S200x32 .f32) (h5 : a5.IsWhole)
    (xq : Vec F S200x32 .f32) (xk xv : Vec F S10000x32 .f32) (K : PUnit → sProp 𝕄) :
    iprop(owns (c : Thread nD τ) a1 fullShare xq ∗ owns (c : Thread nD τ) a2 fullShare xk ∗ owns (c : Thread nD τ) a3 fullShare xv
        ∗ (∃ d, owns (c : Thread nD τ) a4 fullShare d) ∗ (∃ d, owns (c : Thread nD τ) a5 fullShare d)
        ∗ (iprop(owns (c : Thread nD τ) a1 fullShare xq ∗ owns (c : Thread nD τ) a2 fullShare xk ∗ owns (c : Thread nD τ) a3 fullShare xv
            ∗ owns (c : Thread nD τ) a4 fullShare (outDeg xq xk) ∗ owns (c : Thread nD τ) a5 fullShare (outAgg xq xk xv)) -∗ K ⟨⟩))
      ⊢ wp frame (wpE (defs₀ (F := F)) Variants.none c none) E (cc0__attn_kernel i a1 h1 a2 h2 a3 h3 a4 h4 a5 h5) K := by
  simp only [cc0__attn_kernel_eq_skeleton]; unfold cc0__attn_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_deg _)
  iexists _; isplitr
  swap; · iexact H5
  ipureintro
  exact View.read_writes_eq_canon _ _ _ (cover_agg _)

/-! ## The region's proof data -/

/-- The proof data of the region on core `c`: the arrays as the region finds them; after the body at point `t` each
    input's buffer at its block and each output's at its store of the input blocks; the class's invariant; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outDeg (iblk m c 0 t) (iblk m c 1 t)
    | ⟨4, _⟩ => outAgg (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outDeg (iblk m c 0 t) (iblk m c 1 t) := by dsimp only [dats]
theorem after_4 (c : Dev nD) (t : Fin cfg0.N) :
    (dats m 0 c).after 4 t = outAgg (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every array of the region at what the proof data
    compute and every other unscoped buffer at the later lines' value from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument — a buffer numbered before 22, unscoped, no array of the region — ends as launched. -/
theorem kept (r : PUnit × MemSt nD τ sig (Elt F))
    (h : Pipeline.FramePost cfgs (dats m) 0 (Pipeline.afterTail₀ cfgs (dats m) 0 (V0 m) tailOps) r) (c : Dev nD)
    (b : Ref sig .tc) (hs : b.isScoped = false) (hne : ∀ w, (spec0 w).arr.view.ref ≠ b) (hne' : ∀ w, Pipeline.arrRef spec0 w ≠ b)
    (hb : b.idx.val < 22) : r.2.mem ((c.tc : Thread nD τ).loc b) = m ((c.tc : Thread nD τ).loc b) :=
  ((h c).2 b (Pipeline.mem_restRefs_of b hs hne)).trans (W_early m (dats m) c b hb hne')

/-- THE FRAME: the program runs to the end and its 22 argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨kept m r h c main_arg0 (by decide) (by decide) (by decide) (by decide),
    kept m r h c main_arg1 (by decide) (by decide) (by decide) (by decide),
    kept m r h c main_arg2 (by decide) (by decide) (by decide) (by decide),
    kept m r h c main_arg3 (by decide) (by decide) (by decide) (by decide),
    kept m r h c main_arg4 (by decide) (by decide) (by decide) (by decide),
    kept m r h c main_arg5 (by decide) (by decide) (by decide) (by decide),
    kept m r h c main_arg6 (by decide) (by decide) (by decide) (by decide),
    kept m r h c main_arg7 (by decide) (by decide) (by decide) (by decide),
    kept m r h c main_arg8 (by decide) (by decide) (by decide) (by decide),
    kept m r h c main_arg9 (by decide) (by decide) (by decide) (by decide),
    kept m r h c main_arg10 (by decide) (by decide) (by decide) (by decide),
    kept m r h c main_arg11 (by decide) (by decide) (by decide) (by decide),
    kept m r h c main_arg12 (by decide) (by decide) (by decide) (by decide),
    kept m r h c main_arg13 (by decide) (by decide) (by decide) (by decide),
    kept m r h c main_arg14 (by decide) (by decide) (by decide) (by decide),
    kept m r h c main_arg15 (by decide) (by decide) (by decide) (by decide),
    kept m r h c main_arg16 (by decide) (by decide) (by decide) (by decide),
    kept m r h c main_arg17 (by decide) (by decide) (by decide) (by decide),
    kept m r h c main_arg18 (by decide) (by decide) (by decide) (by decide),
    kept m r h c main_arg19 (by decide) (by decide) (by decide) (by decide),
    kept m r h c main_arg20 (by decide) (by decide) (by decide) (by decide),
    kept m r h c main_arg21 (by decide) (by decide) (by decide) (by decide)⟩) (run_main m ρ)

end Cert.Kernel.Around

end
-- ==== Proof.AroundIdeal.lean ====
/-
  The run of the attention program around its one tiled region, and the frame it leaves.

  The program is: fourteen host lines (the feature matrices, the router row, the query and key projections), the
  region — a grid of 25 points, point t working on rows 200·t … 200·t + 199 of the queries against all 10000 keys and
  values held whole —, then the host lines that turn the region's two results (the degree column [5000, 1] and the
  aggregated features [5000, 32]) into the eight outputs.

  What is shown here, for any interpretation of the floats:
    * the body at a point reads its three input blocks and leaves in its two output buffers the two stored values,
      each a function of the input blocks alone (the body also reads its output buffers, and uses nothing of what it
      reads there);
    * every host line after the region writes a buffer introduced after the region's results, so none of them touches
      an argument or an array of the region, and the lines before the region write no argument either;
    * hence the whole program runs to the end, faults nowhere, leaves each result array at what the points wrote back,
      every later buffer at the later lines' value from there, and every argument as it was.
-/
import proofs.«110197_j41532333752349_1_alg».proof.Proof.Gen.KernelIdeal.Launch
import proofs.«110197_j41532333752349_1_alg».proof.Proof.Gen.KernelIdeal.Skeleton
import proofs.«110197_j41532333752349_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- The host lines after the region, stretch by stretch, in order. -/
abbrev tailOps : List (List (HloOp τ sig (Elt F))) :=
  [hostOps1, hostOps1_1, hostOps1_2, hostOps1_3, hostOps1_4, hostOps1_5, hostOps1_6, hostOps1_7, hostOps1_8, hostOps1_9,
    hostOps1_10, hostOps1_11]

/-- Core `c`'s buffer contents when the region is entered: the launch contents after the lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- A property of every line of every stretch after the region, from the property stretch by stretch. -/
theorem forall_tail {p : HloOp τ sig (Elt F) → Prop}
    (h0 : (hostOps1 (F := F)).Forall p) (h1 : (hostOps1_1 (F := F)).Forall p) (h2 : (hostOps1_2 (F := F)).Forall p)
    (h3 : (hostOps1_3 (F := F)).Forall p) (h4 : (hostOps1_4 (F := F)).Forall p) (h5 : (hostOps1_5 (F := F)).Forall p)
    (h6 : (hostOps1_6 (F := F)).Forall p) (h7 : (hostOps1_7 (F := F)).Forall p) (h8 : (hostOps1_8 (F := F)).Forall p)
    (h9 : (hostOps1_9 (F := F)).Forall p) (h10 : (hostOps1_10 (F := F)).Forall p) (h11 : (hostOps1_11 (F := F)).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop

/-- No host line allocates a buffer. -/
theorem fresh_pre : (hostOps0 : List (HloOp τ sig (Elt F))).Forall fun op => op.fresh = ∅ := by
  simp only [List.Forall]; repeat' constructor
theorem tail_fresh : ∀ ops ∈ (tailOps : List (List (HloOp τ sig (Elt F)))), ∀ op ∈ ops, op.fresh = ∅ :=
  forall_tail (p := fun op => op.fresh = ∅)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)

/-- The lines after the region touch the region's arrays and the buffers that bypass it only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    (forall_tail (p := fun op => op.bufs ⊆ StableHlo.tcRefs τ sig) hostOps1_sub hostOps1_1_sub hostOps1_2_sub hostOps1_3_sub
      hostOps1_4_sub hostOps1_5_sub hostOps1_6_sub hostOps1_7_sub hostOps1_8_sub hostOps1_9_sub hostOps1_10_sub hostOps1_11_sub
      ops hops op hop)

/-- A line writes only buffers numbered `n` or later. The buffers are numbered in the order the program introduces them:
    the 22 arguments first, then each line's result. -/
abbrev WritesFrom (n : ℕ) (op : HloOp τ sig (Elt F)) : Prop :=
  ∀ b : Ref sig .tc, Proc.devRef .tc b ∈ op.writes → n ≤ b.idx.val

/-- The lines before the region write buffers after the arguments. -/
theorem pre_from : (hostOps0 : List (HloOp τ sig (Elt F))).Forall (WritesFrom 22) := by
  simp only [List.Forall, WritesFrom, StableHlo.nullary_writes, StableHlo.unary_writes, StableHlo.binary_writes,
    StableHlo.ternary_writes, StableHlo.reshape_writes, StableHlo.nary_writes, Finset.mem_singleton]
  repeat' apply And.intro
  all_goals (intro b hb; obtain rfl := Proc.devRef_injective _ hb; decide)

/-- The lines after the region write buffers after the region's results. -/
theorem tail_from : ∀ ops ∈ (tailOps : List (List (HloOp τ sig (Elt F)))), ∀ op ∈ ops, WritesFrom 38 op := by
  refine forall_tail (p := WritesFrom 38) ?_ ?_ ?_ ?_ ?_ ?_ ?_ ?_ ?_ ?_ ?_ ?_
  all_goals
    simp only [List.Forall, WritesFrom, StableHlo.nullary_writes, StableHlo.unary_writes, StableHlo.binary_writes,
      StableHlo.ternary_writes, StableHlo.reshape_writes, StableHlo.nary_writes, Finset.mem_singleton]
    repeat' apply And.intro
    all_goals (intro b hb; obtain rfl := Proc.devRef_injective _ hb; decide)

/-- The region's five arrays (queries, keys, values, degree column, aggregated features) are numbered before 38. -/
theorem arr_early : ∀ w : Fin 5, (Pipeline.arrRef spec0 w).idx.val < 38 := by decide

/-- So no line after the region writes an array of the region. -/
theorem tail_keeps : ∀ ops ∈ (tailOps : List (List (HloOp τ sig (Elt F)))), ∀ op ∈ ops,
    ∀ w, Proc.devRef .tc (Pipeline.arrRef spec0 w) ∉ op.writes :=
  fun ops hops op hop w hw => absurd (tail_from ops hops op hop _ hw) (Nat.not_le.mpr (arr_early w))

/-- @main is the lines before the region, the region, the lines after it: it reduces to the region continued by the
    later lines, entered at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact fresh_pre) main_chain

/-- A buffer numbered before 22 (an argument) is found by the region as launched. -/
theorem V_early (c : Dev nD) (b : Ref sig .tc) (hb : b.idx.val < 22) : V m c b = m ((c : Thread nD τ).loc b) :=
  StableHlo.after_of_forall_not_mem (b := Proc.devRef .tc b) _ _ fun op hop h => by
    simp only [List.flatten_cons, List.flatten_nil, List.append_nil] at hop
    exact absurd ((List.forall_iff_forall_mem.mp pre_from) op hop b h) (Nat.not_le.mpr hb)

/-- And, being no array of the region, it ends as launched. -/
theorem W_early (dats : (p : Fin 1) → (c : Dev nD) → Dat τ (Elt F) Unit ℕ (UR sig nD τ) ℕ (cfgs p) c) (c : Dev nD)
    (b : Ref sig .tc) (hb : b.idx.val < 22) (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop h => by
      obtain ⟨ops, hops, hop'⟩ := List.mem_flatten.mp hop
      exact absurd (tail_from ops hops op hop' b h) (Nat.not_le.mpr (by omega))),
    Pipeline.withArrays_of_ne _ c (V0 m c) _ b hne]
  exact V_early m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (the keys and the values are
    fetched once, at the first point, and their block never moves). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in its two output buffers -/

abbrev rq : Rect S200x32 := Rect.unit (s := S200x32) ![0, 0] S200x32.size inb_S200x32_S200x32_0_0
abbrev rk : Rect S10000x32 := Rect.unit (s := S10000x32) ![0, 0] S10000x32.size inb_S10000x32_S10000x32_0_0
abbrev rd : Rect S200x1 := Rect.unit (s := S200x1) ![0, 0] S200x1.size inb_S200x1_S200x1_0_0

/-- The degree buffer after the body: its one store, of the row sums of the weights. -/
def outDeg (xq : Vec F S200x32 .f32) (xk : Vec F S10000x32 .f32) : Vec F S200x1 .f32 :=
  View.canon [⟨rd, k0_pay2 (View.ld xq rq) (View.ld xk rk)⟩]

/-- The aggregated-features buffer after the body: its one store, of the weights against the values. -/
def outAgg (xq : Vec F S200x32 .f32) (xk xv : Vec F S10000x32 .f32) : Vec F S200x32 .f32 :=
  View.canon [⟨rq, k0_pay3 (View.ld xq rq) (View.ld xk rk) (View.ld xv rk)⟩]

theorem cover_deg (p0 : Vec F S200x1 .f32) (y : S200x1.Idx) :
    ∃ pc ∈ ([⟨rd, p0⟩] : List (View.Piece (Elt F) S200x1 .f32)), y ∈ pc.1.set :=
  View.cover_of_tiled [⟨rd, p0⟩] S200x1.size (by rfl) y

theorem cover_agg (p0 : Vec F S200x32 .f32) (y : S200x32.Idx) :
    ∃ pc ∈ ([⟨rq, p0⟩] : List (View.Piece (Elt F) S200x32 .f32)), y ∈ pc.1.set :=
  View.cover_of_tiled [⟨rq, p0⟩] S200x32.size (by rfl) y

end Cert.KernelIdeal.Around

end
-- ==== Proof.BodyIdeal.lean ====
/-
  The body of the attention region at a grid point, the region's proof data, and the program's run.

  At a point the body is handed its three input blocks (200 query rows; all the keys; all the values) and two output
  buffers at anything. It loads the inputs, computes, stores the degree column and the aggregated features whole, and
  returns. It also loads both output buffers before storing into them; nothing it stores depends on what it read there.
  So after the body the inputs are as they were and each output buffer holds its one store.

  With that, the region's frame run applies: the program terminates without a fault, each result array ends at what the
  25 points wrote back, every buffer introduced later at the later lines' value, and every argument as launched.
-/
import proofs.«110197_j41532333752349_1_alg».proof.Proof.AroundIdeal

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole buffers, the inputs' at contents `xq xk xv` and the outputs' at anything, runs to its return holding
    the inputs' as they were and the outputs' at their stores of the inputs. -/
theorem sound_kernel (c : Dev nD) (E : Set ℕ) (i : grid0.Coords)
    (a1 : Memref sig .tc .vmem S200x32 .f32) (h1 : a1.IsWhole) (a2 : Memref sig .tc .vmem S10000x32 .f32) (h2 : a2.IsWhole)
    (a3 : Memref sig .tc .vmem S10000x32 .f32) (h3 : a3.IsWhole) (a4 : Memref sig .tc .vmem S200x1 .f32) (h4 : a4.IsWhole)
    (a5 : Memref sig .tc .vmem S200x32 .f32) (h5 : a5.IsWhole)
    (xq : Vec F S200x32 .f32) (xk xv : Vec F S10000x32 .f32) (K : PUnit → sProp 𝕄) :
    iprop(owns (c : Thread nD τ) a1 fullShare xq ∗ owns (c : Thread nD τ) a2 fullShare xk ∗ owns (c : Thread nD τ) a3 fullShare xv
        ∗ (∃ d, owns (c : Thread nD τ) a4 fullShare d) ∗ (∃ d, owns (c : Thread nD τ) a5 fullShare d)
        ∗ (iprop(owns (c : Thread nD τ) a1 fullShare xq ∗ owns (c : Thread nD τ) a2 fullShare xk ∗ owns (c : Thread nD τ) a3 fullShare xv
            ∗ owns (c : Thread nD τ) a4 fullShare (outDeg xq xk) ∗ owns (c : Thread nD τ) a5 fullShare (outAgg xq xk xv)) -∗ K ⟨⟩))
      ⊢ wp frame (wpE (defs₀ (F := F)) Variants.none c none) E (cc0__attn_kernel i a1 h1 a2 h2 a3 h3 a4 h4 a5 h5) K := by
  simp only [cc0__attn_kernel_eq_skeleton]; unfold cc0__attn_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_deg _)
  iexists _; isplitr
  swap; · iexact H5
  ipureintro
  exact View.read_writes_eq_canon _ _ _ (cover_agg _)

/-! ## The region's proof data -/

/-- The proof data of the region on core `c`: the arrays as the region finds them; after the body at point `t` each
    input's buffer at its block and each output's at its store of the input blocks; the class's invariant; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outDeg (iblk m c 0 t) (iblk m c 1 t)
    | ⟨4, _⟩ => outAgg (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outDeg (iblk m c 0 t) (iblk m c 1 t) := by dsimp only [dats]
theorem after_4 (c : Dev nD) (t : Fin cfg0.N) :
    (dats m 0 c).after 4 t = outAgg (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every array of the region at what the proof data
    compute and every other unscoped buffer at the later lines' value from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument — a buffer numbered before 22, unscoped, no array of the region — ends as launched. -/
theorem kept (r : PUnit × MemSt nD τ sig (Elt F))
    (h : Pipeline.FramePost cfgs (dats m) 0 (Pipeline.afterTail₀ cfgs (dats m) 0 (V0 m) tailOps) r) (c : Dev nD)
    (b : Ref sig .tc) (hs : b.isScoped = false) (hne : ∀ w, (spec0 w).arr.view.ref ≠ b) (hne' : ∀ w, Pipeline.arrRef spec0 w ≠ b)
    (hb : b.idx.val < 22) : r.2.mem ((c.tc : Thread nD τ).loc b) = m ((c.tc : Thread nD τ).loc b) :=
  ((h c).2 b (Pipeline.mem_restRefs_of b hs hne)).trans (W_early m (dats m) c b hb hne')

/-- THE FRAME: the program runs to the end and its 22 argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨kept m r h c main_arg0 (by decide) (by decide) (by decide) (by decide),
    kept m r h c main_arg1 (by decide) (by decide) (by decide) (by decide),
    kept m r h c main_arg2 (by decide) (by decide) (by decide) (by decide),
    kept m r h c main_arg3 (by decide) (by decide) (by decide) (by decide),
    kept m r h c main_arg4 (by decide) (by decide) (by decide) (by decide),
    kept m r h c main_arg5 (by decide) (by decide) (by decide) (by decide),
    kept m r h c main_arg6 (by decide) (by decide) (by decide) (by decide),
    kept m r h c main_arg7 (by decide) (by decide) (by decide) (by decide),
    kept m r h c main_arg8 (by decide) (by decide) (by decide) (by decide),
    kept m r h c main_arg9 (by decide) (by decide) (by decide) (by decide),
    kept m r h c main_arg10 (by decide) (by decide) (by decide) (by decide),
    kept m r h c main_arg11 (by decide) (by decide) (by decide) (by decide),
    kept m r h c main_arg12 (by decide) (by decide) (by decide) (by decide),
    kept m r h c main_arg13 (by decide) (by decide) (by decide) (by decide),
    kept m r h c main_arg14 (by decide) (by decide) (by decide) (by decide),
    kept m r h c main_arg15 (by decide) (by decide) (by decide) (by decide),
    kept m r h c main_arg16 (by decide) (by decide) (by decide) (by decide),
    kept m r h c main_arg17 (by decide) (by decide) (by decide) (by decide),
    kept m r h c main_arg18 (by decide) (by decide) (by decide) (by decide),
    kept m r h c main_arg19 (by decide) (by decide) (by decide) (by decide),
    kept m r h c main_arg20 (by decide) (by decide) (by decide) (by decide),
    kept m r h c main_arg21 (by decide) (by decide) (by decide) (by decide)⟩) (run_main m ρ)

end Cert.KernelIdeal.Around

end
-- ==== Proof.ExitIdeal.lean ====
/-
  What the region leaves for the host lines after it.

  At the region's exit the three input arrays (queries, keys, values) are as the region found them, the two result
  arrays hold what the 25 points wrote back, and every other buffer is as it was when the region was entered. Read at
  the buffers the later lines read: an argument is as launched; the feature matrices and the router row, written by the
  lines before the region, are the same functions of the arguments as the whole-array program's stages of the same
  names; and the query and key projections the region consumed are those stages too.
-/
import proofs.«110197_j41532333752349_1_alg».proof.Proof.BodyIdeal
import proofs.«110197_j41532333752349_1_alg».proof.Proof.RefReadP
import Idealize.ShloMosaic.Lib.StableHlo.Run

set_option maxRecDepth 16384

noncomputable section

namespace Cert.KernelExit

open Cert.KernelIdeal Cert.KernelIdeal.Gen Cert.KernelIdeal.Around
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- Core `c`'s buffer contents at the region's exit. -/
def Wx : Valuation τ sig (Elt Ideal) :=
  Pipeline.withArrays spec0 c (V0 m c) (fun w => (dats m 0 c).arrAt w cfg0.N)

/-- A buffer's final contents are the later lines' value from the exit contents. -/
theorem final_eq (b : Ref sig .tc) :
    Pipeline.afterTail₀ cfgs (dats m) 0 (V0 m) (tailOps (F := Ideal)) c b
      = StableHlo.after (tailOps (F := Ideal)).flatten (Wx m c) (Proc.devRef .tc b) := rfl

/-- An argument is as launched. -/
theorem Wx_arg (b : Ref sig .tc) (hb : b.idx.val < 22) (hne : ∀ w, Pipeline.arrRef spec0 w ≠ b) :
    Wx m c (Proc.devRef .tc b) = m ((c : Thread nD τ).loc b) :=
  (Pipeline.withArrays_of_ne _ c (V0 m c) _ b hne).trans (V_early m c b hb)

/-- A buffer that is no array of the region is as the region found it. -/
theorem Wx_rest (b : Ref sig .tc) (hne : ∀ w, Pipeline.arrRef spec0 w ≠ b) : Wx m c (Proc.devRef .tc b) = V m c b :=
  Pipeline.withArrays_of_ne _ c (V0 m c) _ b hne

/-- An array of the region holds what the proof data compute for it. -/
theorem Wx_arr (w : Fin 5) : Wx m c (Proc.devRef .tc (Pipeline.arrRef spec0 w)) = (dats m 0 c).arrAt w cfg0.N :=
  Pipeline.withArrays_arr spec0 launch0.win.arr_inj c (V0 m c) _ w

/-! ## The lines before the region, as the whole-array program's stages -/

theorem V_v0 : V m c main_v0
    = Cert.ReferenceIdeal.ReadP.val_main_v0 (F := Ideal) (m ((c : Thread nD τ).loc main_arg0)) (m ((c : Thread nD τ).loc main_arg1)) := by
  show StableHlo.after (List.flatten [hostOps0]) (fun b => m (c, b)) (Proc.devRef .tc main_v0) = _
  simp only [hostOps0, List.flatten_cons, List.flatten_nil, List.append_nil]
  after_results
  rfl

theorem V_v2 : V m c main_v2
    = Cert.ReferenceIdeal.ReadP.val_main_v2 (F := Ideal) (m ((c : Thread nD τ).loc main_arg2)) := by
  show StableHlo.after (List.flatten [hostOps0]) (fun b => m (c, b)) (Proc.devRef .tc main_v2) = _
  simp only [hostOps0, List.flatten_cons, List.flatten_nil, List.append_nil]
  after_results
  rfl

theorem V_v6 : V m c main_v6
    = Cert.ReferenceIdeal.ReadP.val_main_v6 (F := Ideal) (m ((c : Thread nD τ).loc main_arg0)) (m ((c : Thread nD τ).loc main_arg1)) := by
  show StableHlo.after (List.flatten [hostOps0]) (fun b => m (c, b)) (Proc.devRef .tc main_v6) = _
  simp only [hostOps0, List.flatten_cons, List.flatten_nil, List.append_nil]
  after_results
  rfl

theorem V_v8 : V m c main_v8
    = Cert.ReferenceIdeal.ReadP.val_main_v8 (F := Ideal) (m ((c : Thread nD τ).loc main_arg2)) (m ((c : Thread nD τ).loc main_arg6)) := by
  show StableHlo.after (List.flatten [hostOps0]) (fun b => m (c, b)) (Proc.devRef .tc main_v8) = _
  simp only [hostOps0, List.flatten_cons, List.flatten_nil, List.append_nil]
  after_results
  rfl

theorem V_v10 : V m c main_v10
    = Cert.ReferenceIdeal.ReadP.val_main_v10 (F := Ideal) (m ((c : Thread nD τ).loc main_arg0)) (m ((c : Thread nD τ).loc main_arg7)) := by
  show StableHlo.after (List.flatten [hostOps0]) (fun b => m (c, b)) (Proc.devRef .tc main_v10) = _
  simp only [hostOps0, List.flatten_cons, List.flatten_nil, List.append_nil]
  after_results
  rfl

/-! ## The exit contents at the buffers the later lines read -/

/-- The value matrix (window 2) is an input: as found. -/
theorem Wx_v0 : Wx m c (Proc.devRef .tc main_v0)
    = Cert.ReferenceIdeal.ReadP.val_main_v0 (F := Ideal) (m ((c : Thread nD τ).loc main_arg0)) (m ((c : Thread nD τ).loc main_arg1)) :=
  (Wx_arr m c 2).trans (((dats m 0 c).arrAt_in 2 rfl cfg0.N).trans ((A_eq m c 2).trans (V_v0 m c)))

theorem Wx_v2 : Wx m c (Proc.devRef .tc main_v2)
    = Cert.ReferenceIdeal.ReadP.val_main_v2 (F := Ideal) (m ((c : Thread nD τ).loc main_arg2)) :=
  (Wx_rest m c main_v2 (by decide)).trans (V_v2 m c)

theorem Wx_v6 : Wx m c (Proc.devRef .tc main_v6)
    = Cert.ReferenceIdeal.ReadP.val_main_v6 (F := Ideal) (m ((c : Thread nD τ).loc main_arg0)) (m ((c : Thread nD τ).loc main_arg1)) :=
  (Wx_rest m c main_v6 (by decide)).trans (V_v6 m c)

/-- The two results hold what the points wrote back. -/
theorem Wx_deg : Wx m c (Proc.devRef .tc main_v11_0) = (dats m 0 c).arrAt 3 cfg0.N := Wx_arr m c 3
theorem Wx_agg : Wx m c (Proc.devRef .tc main_v11_1) = (dats m 0 c).arrAt 4 cfg0.N := Wx_arr m c 4

end Cert.KernelExit

end
-- ==== Proof.Spec.lean ====
/-
  The attribute-similarity attention of one target row against all landmark rows, on the extended reals.

  For a query row q (32 numbers), a key matrix K [10000, 32] and a value matrix V [10000, 32]:
    score j   = (sum_k q k * K (j, k)) / c,            c the f32 word of sqrt 32,
    rowMax    = the maximum over j of score j, folded from -inf,
    expo j    = exp (score j - rowMax),
    weight j  = exp (expo j / sum_j' expo j'),          the exponential of the softmax weight,
    degRow    = sum_j weight j,
    aggRow k  = sum_j weight j * V (j, k).
  The tiled program computes these for the 200 rows of one block of Q at a time, the whole-array program for all
  5000 rows at once; row r of either depends on row r of Q only, which is why the two agree.
-/
import Idealize.ShloMosaic.PureOps.Ideal
import Idealize.ShloMosaic.Lib.ValueIdx

noncomputable section

namespace Cert.Spec

open Idealize.ShloMosaic Idealize.ShloMosaic.ValueIdx
open scoped BigOperators

/-- A [10000, 32] matrix of extended reals: the keys, or the values. -/
abbrev Mat := (⟨2, ![10000, 32]⟩ : Shape).Idx → EReal

/-- The scaled inner product of the query row with key row `j`. -/
def score (q : Fin 32 → EReal) (K : Mat) (j : Fin 10000) : EReal :=
  Ideal.div (∑ k : Fin 32, q k * K (ix2 j k)) (Ideal.ofBits .f32 0x40B504F3#32)

/-- The largest score of the row, folded from -inf. -/
def rowMax (q : Fin 32 → EReal) (K : Mat) : EReal :=
  (Finset.univ : Finset (Fin 10000)).fold max (Ideal.ofBits .f32 0xFF800000#32) (fun j => score q K j)

/-- The exponential of a score less the row's maximum. -/
def expo (q : Fin 32 → EReal) (K : Mat) (j : Fin 10000) : EReal :=
  Ideal.exp (score q K j - rowMax q K)

/-- The exponential of the softmax weight of key row `j`. -/
def weight (q : Fin 32 → EReal) (K : Mat) (j : Fin 10000) : EReal :=
  Ideal.exp (Ideal.div (expo q K j) (∑ j' : Fin 10000, expo q K j'))

/-- The row's degree contribution: the sum of its weights. -/
def degRow (q : Fin 32 → EReal) (K : Mat) : EReal :=
  ∑ j : Fin 10000, weight q K j

/-- The row's aggregated features: the weights against the value matrix's column `k`. -/
def aggRow (q : Fin 32 → EReal) (K V : Mat) (k : Fin 32) : EReal :=
  ∑ j : Fin 10000, weight q K j * V (ix2 j k)

end Cert.Spec

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibSoftmaxRow.lean ====
/-
  A row-wise softmax over a matrix [a, b] of extended reals, in the form a vector unit computes it, read at one entry.

  The row maximum is a maximum-reduction over axis 1 into a vector [a], re-laid as a column [a, 1] and spread back over
  [a, b]; it is subtracted, the exponential taken, the exponentials summed over axis 1 by an add-reduction treated the
  same way, and the quotient formed. Because max and + on the extended reals commute and associate, each reduction at
  row r is the fold (the sum) over the row's entries, whatever order it visits them in. So entry (r, k) of the result is
      exp(s(r,k) - M_r) / sum_k' exp(s(r,k') - M_r),      M_r the maximum of row r folded from the accumulator's value.
-/
import Idealize.ShloMosaic.Lib.ValueIdx
import Idealize.ShloMosaic.Lib.Pipeline.Value
import Idealize.ShloMosaic.PureOps.Ideal.Laws
import Idealize.ShloMosaic.PureOps.Reduce
import proofs.«110197_j41532333752349_1_alg».proof.Proof.LibColumn

noncomputable section

namespace Cert.LibSoftmaxRow

open Idealize.ShloMosaic Idealize.ShloMosaic.ValueIdx
open scoped BigOperators

set_option backward.isDefEq.respectTransparency.types false in
/-- Over row `r` of the reduced vector, inserting coordinate `k` on the reduced axis 1 gives the matrix index (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  rw [h.lift_val]
  match c with
  | ⟨0, _⟩ => rfl
  | ⟨1, _⟩ => rfl

/-- A maximum-reduction over axis 1, at row `r`: the fold of max from the accumulator's value over the row's entries. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => (Finset.univ : Finset (Fin b)).fold max (Ideal.ofBits .f32 acc) f)
    (funext fun k => congrArg src (lift_row h r k))

/-- An add-reduction over axis 1, at row `r`: the sum of the row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The row softmax, as computed with the reduced axis kept as a unit column, read at entry (r, k). -/
theorem softmaxRow_apply {a b : ℕ} (s : FVec Ideal ⟨2, ![a, b]⟩ .f32) (accM accA : BitVec 32)
    (h : (⟨2, ![a, b]⟩ : Shape).Reduces [1] ⟨1, ![a]⟩) (hφ hφ' : FKind.Formats .f32)
    (haccM : accM = FKind.maximumf.neutral .f32 hφ) (haccA : accA = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩ (multiReduction .maximumf [1] ⟨1, ![a]⟩ s accM h hφ haccM) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s accM h hφ haccM) hc) hb)))
          accA h hφ' haccA) hc) hb) (ix2 r k)
      = Ideal.div
          (Ideal.exp (s (ix2 r k) - (Finset.univ : Finset (Fin b)).fold max (Ideal.ofBits .f32 accM) (fun k' => s (ix2 r k'))))
          (∑ k' : Fin b, Ideal.exp (s (ix2 r k') - (Finset.univ : Finset (Fin b)).fold max (Ideal.ofBits .f32 accM) (fun k'' => s (ix2 r k'')))) := by
  have hM : ∀ k' : Fin b,
      broadcastTo ⟨2, ![a, b]⟩ (shapeCast ⟨2, ![a, 1]⟩ (multiReduction .maximumf [1] ⟨1, ![a]⟩ s accM h hφ haccM) hc) hb (ix2 r k')
        = (Finset.univ : Finset (Fin b)).fold max (Ideal.ofBits .f32 accM) (fun k'' => s (ix2 r k'')) := fun k' =>
    (Cert.LibColumn.broadcastTo_a1_ab_apply _ hb r k').trans
      ((Cert.LibColumn.shapeCast_a_a1_apply _ hc r 0).trans (rowMax_apply s accM h hφ haccM r))
  have hE : ∀ k' : Fin b,
      exp (subf s (broadcastTo ⟨2, ![a, b]⟩ (shapeCast ⟨2, ![a, 1]⟩ (multiReduction .maximumf [1] ⟨1, ![a]⟩ s accM h hφ haccM) hc) hb)) (ix2 r k')
        = Ideal.exp (s (ix2 r k') - (Finset.univ : Finset (Fin b)).fold max (Ideal.ofBits .f32 accM) (fun k'' => s (ix2 r k''))) := fun k' =>
    congrArg (fun m => Ideal.exp (s (ix2 r k') - m)) (hM k')
  refine (congrArg₂ Ideal.div (hE k) ?_ : _)
  refine (Cert.LibColumn.broadcastTo_a1_ab_apply _ hb r k).trans ((Cert.LibColumn.shapeCast_a_a1_apply _ hc r 0).trans ?_)
  refine (rowSum_apply _ accA h hφ' haccA r).trans ?_
  exact Finset.sum_congr rfl fun k' _ => hE k'

end Cert.LibSoftmaxRow

end
-- ==== Proof.LibTransposedDot.lean ====
/-
  A matrix product whose right operand is contracted on its LAST axis, read at an entry.

  For an [M, K] by [N, K] product with no batch axis, contracting the columns of both operands, the operand
  indices at the result entry (p, o) and the contraction coordinate q are (p, q) and (o, q): the result is the
  matrix of inner products of the left operand's rows with the right operand's rows. So at the ideal values the
  product accumulated onto the zero splat is, at (p, o), the sum over q of lhs (p, q) · rhs (o, q).
-/
import Idealize.ShloMosaic.PureOps.Ideal.Laws
import Idealize.ShloMosaic.Lib.ValueIdx

noncomputable section

namespace Cert.LibTransposedDot

open Idealize.ShloMosaic Idealize.ShloMosaic.ValueIdx

/-- The left operand's index at result entry (p, o) and contraction coordinate q is (p, q). -/
theorem lhsIdx_apply {M K N : ℕ} (p : Fin M) (o : Fin N) (q : Fin K) :
    (DotDims.transposedRhs M K N).lhsIdx (ix2 p o) ((contrEquiv1 (DotDims.transposedRhs M K N) K rfl rfl).symm q) = ix2 p q :=
  funext fun a => Fin.ext (by
    match a with
    | ⟨0, _⟩ => rfl
    | ⟨1, _⟩ => exact contrEquiv1_symm_val (DotDims.transposedRhs M K N) K rfl rfl q)

/-- The right operand's index at result entry (p, o) and contraction coordinate q is (o, q). -/
theorem rhsIdx_apply {M K N : ℕ} (p : Fin M) (o : Fin N) (q : Fin K) :
    (DotDims.transposedRhs M K N).rhsIdx (ix2 p o) ((contrEquiv1 (DotDims.transposedRhs M K N) K rfl rfl).symm q) = ix2 o q :=
  funext fun a => Fin.ext (by
    match a with
    | ⟨0, _⟩ => rfl
    | ⟨1, _⟩ => exact contrEquiv1_symm_val (DotDims.transposedRhs M K N) K rfl rfl q)

/-- Rows against rows onto the zero splat, read at (p, o): the inner product of row p with row o. -/
theorem matmul_zero_apply {M K N : ℕ} {φ₁ φ₂ : FTy} (prec : Option ContractPrecision)
    (lhs : FVec Ideal ⟨2, ![M, K]⟩ φ₁) (rhs : FVec Ideal ⟨2, ![N, K]⟩ φ₂) (p : Fin M) (o : Fin N) :
    FloatOps.matmul (DotDims.transposedRhs M K N) prec lhs rhs (constant ⟨2, ![M, N]⟩ .f32 0x00000000#32) (ix2 p o)
      = ∑ q : Fin K, lhs (ix2 p q) * rhs (ix2 o q) := by
  rw [Ideal.matmul_constant_zero_apply, ← Equiv.sum_comp (contrEquiv1 (DotDims.transposedRhs M K N) K rfl rfl).symm]
  refine Finset.sum_congr rfl fun q _ => ?_
  rw [lhsIdx_apply, rhsIdx_apply]

end Cert.LibTransposedDot

end
-- ==== Proof.LibPlainDot.lean ====
/-
  A plain matrix product read at an entry.

  For dimension numbers that contract the left operand's second axis with the right operand's first and keep the
  other two axes in order, the product of an `M × K` and a `K × N` matrix at the ideal values, read at `(r, c)`, is
  `∑ k, L (r, k) * R (k, c)`: both for a product accumulated into a zero array and for the host's product.
-/
import Idealize.ShloMosaic.PureOps.Ideal.Laws
import Idealize.ShloMosaic.Lib.ValueIdx

namespace Cert.LibPlainDot

open Idealize.ShloMosaic Idealize.ShloMosaic.ValueIdx

variable {M K N : ℕ} {φ₁ φ₂ : FTy}

/-- The operand indices of a plain product at output `(r, c)` and the `k`-th contraction index are `(r, k)` and `(k, c)`. -/
theorem plain_idx (d : DotDims ⟨2, ![M, K]⟩ ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ j q, (d.lhsIdx j q (0 : Fin 2)).val = (j (0 : Fin 2)).val)
    (hr1 : ∀ j q, (d.rhsIdx j q (1 : Fin 2)).val = (j (1 : Fin 2)).val)
    (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  have hk := contrEquiv1_symm_val d K hr hs k
  refine ⟨funext fun a => Fin.ext ?_, funext fun a => Fin.ext ?_⟩
  · match a with
    | ⟨0, _⟩ => exact hl0 _ _
    | ⟨1, _⟩ => exact (d.lhsIdx_val_of_single hlc _ _).trans hk
  · match a with
    | ⟨0, _⟩ => exact (d.rhsIdx_val_of_single hrc _ _).trans hk
    | ⟨1, _⟩ => exact hr1 _ _

/-- A plain product accumulated into the zero array, at `(r, c)`. -/
theorem matmul_zero_at (d : DotDims ⟨2, ![M, K]⟩ ⟨2, ![K, N]⟩ ⟨2, ![M, N]⟩) (prec : Option ContractPrecision)
    (hr : d.contr.rank = 1) (hs : d.contr.size ⟨0, by omega⟩ = K)
    (hlc : d.lhsContracting = [(1 : Fin 2)]) (hrc : d.rhsContracting = [(0 : Fin 2)])
    (hl0 : ∀ j q, (d.lhsIdx j q (0 : Fin 2)).val = (j (0 : Fin 2)).val)
    (hr1 : ∀ j q, (d.rhsIdx j q (1 : Fin 2)).val = (j (1 : Fin 2)).val)
    (L : FVec Ideal ⟨2, ![M, K]⟩ φ₁) (R : FVec Ideal ⟨2, ![K, N]⟩ φ₂) (r : Fin M) (c : Fin N) :
    FloatOps.matmul d prec L R (constant (F := Ideal) ⟨2, ![M, N]⟩ .f32 0x00000000#32) (ix2 r c)
      = ∑ k : Fin K, L (ix2 r k) * R (ix2 k c) := by
  rw [Ideal.matmul_constant_zero_apply, ← Equiv.sum_comp (contrEquiv1 d K hr hs).symm]
  refine Finset.sum_congr rfl fun k _ => ?_
  obtain ⟨el, er⟩ := plain_idx d hr hs hlc hrc hl0 hr1 r c k
  rw [el, er]

/-- The host's plain product, at `(r, c)`. -/
theorem dotGeneral_at (d : DotDims ⟨2, ![M, K]⟩ ⟨2, ![K, N]⟩ ⟨2, ![M, N]⟩) (prec : Option ContractPrecision) (sched : HostSchedule)
    (hr : d.contr.rank = 1) (hs : d.contr.size ⟨0, by omega⟩ = K)
    (hlc : d.lhsContracting = [(1 : Fin 2)]) (hrc : d.rhsContracting = [(0 : Fin 2)])
    (hl0 : ∀ j q, (d.lhsIdx j q (0 : Fin 2)).val = (j (0 : Fin 2)).val)
    (hr1 : ∀ j q, (d.rhsIdx j q (1 : Fin 2)).val = (j (1 : Fin 2)).val)
    (L : FVec Ideal ⟨2, ![M, K]⟩ φ₁) (R : FVec Ideal ⟨2, ![K, N]⟩ φ₂) (r : Fin M) (c : Fin N) :
    FloatOps.dotGeneral d prec sched L R (ix2 r c) = ∑ k : Fin K, L (ix2 r k) * R (ix2 k c) := by
  rw [Ideal.dotGeneral_apply, ← Equiv.sum_comp (contrEquiv1 d K hr hs).symm]
  refine Finset.sum_congr rfl fun k _ => ?_
  obtain ⟨el, er⟩ := plain_idx d hr hs hlc hrc hl0 hr1 r c k
  rw [el, er]

end Cert.LibPlainDot
-- ==== Proof.KernelRow.lean ====
/-
  The pure values of one block of the tiled attention program, read at one entry and named by the row-wise specification.

  For a block of 200 query rows q [200, 32], the keys K [10000, 32] and the values V [10000, 32], the body forms
    s      = (q · Kᵀ) / c                       the scaled inner products, [200, 10000],
    w      = exp (softmax over each row of s)    the weights, [200, 10000],
    deg    = the row sums of w, kept as a column [200, 1],
    agg    = w · V,                              [200, 32].
  Every step is either pointwise or a reduction along a row, so row i of each result depends on row i of q only:
  w (i, j) is the specification's weight of key row j for the query row q (i, ·), deg (i, 0) is its degree and
  agg (i, k) its aggregated feature k.
-/
import proofs.«110197_j41532333752349_1_alg».proof.Proof.Gen.KernelIdeal.Skeleton
import proofs.«110197_j41532333752349_1_alg».proof.Proof.Spec
import proofs.«110197_j41532333752349_1_alg».proof.Proof.LibColumn
import proofs.«110197_j41532333752349_1_alg».proof.Proof.LibSoftmaxRow
import proofs.«110197_j41532333752349_1_alg».proof.Proof.LibTransposedDot
import proofs.«110197_j41532333752349_1_alg».proof.Proof.LibPlainDot

noncomputable section

namespace Cert.KernelRow

open Idealize.ShloMosaic Idealize.ShloMosaic.ValueIdx Cert.KernelIdeal Cert.KernelIdeal.Gen
open scoped BigOperators

/-- The scaled inner products of the block's query rows with every key row: (q · Kᵀ) / c. -/
def scores (q : Vec Ideal S200x32 .f32) (K : Vec Ideal S10000x32 .f32) : FVec Ideal S200x10000 .f32 :=
  divf
    (matmul dot_S200x32_S10000x32_S200x10000_1_1_0_0_n_n none
      (shapeCast S200x32 q shapeCasts_S200x32_S200x32 : FVec Ideal S200x32 .f32)
      (shapeCast S10000x32 K shapeCasts_S10000x32_S10000x32 : FVec Ideal S10000x32 .f32)
      (constant S200x10000 .f32 0x00000000#32))
    (broadcast S200x10000 (Scalar.ofBits (F := Ideal) .f32 0x40B504F3#32))

/-- The dimension numbers of q · Kᵀ contract the last axis of both operands. -/
theorem dot_qk_eq : dot_S200x32_S10000x32_S200x10000_1_1_0_0_n_n = DotDims.transposedRhs 200 32 10000 := rfl

/-- Entry (i, j) of the scaled inner products is the specification's score of key row j for query row i. -/
theorem scores_apply (q : Vec Ideal S200x32 .f32) (K : Vec Ideal S10000x32 .f32) (i : Fin 200) (j : Fin 10000) :
    scores q K (ix2 i j) = Cert.Spec.score (fun k => q (ix2 i k)) K j := by
  unfold scores Cert.Spec.score
  rw [shapeCast_self, shapeCast_self, dot_qk_eq]
  refine congrArg (fun x => Ideal.div x (Ideal.ofBits .f32 0x40B504F3#32)) ?_
  exact Cert.LibTransposedDot.matmul_zero_apply none q K i j

/-- Entry (i, j) of the weight matrix is the specification's weight of key row j for query row i. -/
theorem pay1_apply (q : Vec Ideal S200x32 .f32) (K : Vec Ideal S10000x32 .f32) (i : Fin 200) (j : Fin 10000) :
    k0_pay1 (F := Ideal) q K (ix2 i j) = Cert.Spec.weight (fun k => q (ix2 i k)) K j := by
  have hs : ∀ j' : Fin 10000, scores q K (ix2 i j') = Cert.Spec.score (fun k => q (ix2 i k)) K j' := scores_apply q K i
  refine (congrArg Ideal.exp (Cert.LibSoftmaxRow.softmaxRow_apply (scores q K) 0xFF800000#32 0x00000000#32
    reduces_S200x10000_S200 (.inl rfl) (.inl rfl) rfl rfl shapeCasts_S200_S200x1 broadcasts_S200x1_S200x10000 i j)).trans ?_
  simp only [hs]
  rfl

/-- The row sums of the weights, kept as a column: entry (i, 0) is the specification's degree of query row i. -/
theorem pay_deg (q : Vec Ideal S200x32 .f32) (K : Vec Ideal S10000x32 .f32) (i : Fin 200) :
    k0_pay2 (F := Ideal) q K (ix2 i (0 : Fin 1)) = Cert.Spec.degRow (fun k => q (ix2 i k)) K := by
  unfold k0_pay2 Cert.Spec.degRow
  refine (Cert.LibColumn.shapeCast_a_a1_apply _ shapeCasts_S200_S200x1 i 0).trans ?_
  refine (Cert.LibSoftmaxRow.rowSum_apply (k0_pay1 (F := Ideal) q K) 0x00000000#32 reduces_S200x10000_S200 (.inl rfl) rfl i).trans ?_
  exact Finset.sum_congr rfl fun j _ => pay1_apply q K i j

/-- The weights against the values: entry (i, k) is the specification's aggregated feature k of query row i. -/
theorem pay_agg (q : Vec Ideal S200x32 .f32) (K V : Vec Ideal S10000x32 .f32) (i : Fin 200) (k : Fin 32) :
    k0_pay3 (F := Ideal) q K V (ix2 i k) = Cert.Spec.aggRow (fun k' => q (ix2 i k')) K V k := by
  unfold k0_pay3 Cert.Spec.aggRow
  rw [shapeCast_self]
  refine (Cert.LibPlainDot.matmul_zero_at dot_S200x10000_S10000x32_S200x32_1_0_0_1_n_n none rfl rfl rfl rfl
    (fun j c => ?_) (fun j c => ?_) (k0_pay1 (F := Ideal) q K) V i k).trans ?_
  · unfold DotDims.lhsIdx
    rw [dif_neg (show ¬(0 : Fin S200x10000.rank) ∈ dot_S200x10000_S10000x32_S200x32_1_0_0_1_n_n.lhsBatch by decide),
      dif_pos (show (0 : Fin S200x10000.rank) ∈ dot_S200x10000_S10000x32_S200x32_1_0_0_1_n_n.lhsNonContracting by decide)]
    rfl
  · unfold DotDims.rhsIdx
    rw [dif_neg (show ¬(1 : Fin S10000x32.rank) ∈ dot_S200x10000_S10000x32_S200x32_1_0_0_1_n_n.rhsBatch by decide),
      dif_pos (show (1 : Fin S10000x32.rank) ∈ dot_S200x10000_S10000x32_S200x32_1_0_0_1_n_n.rhsNonContracting by decide)]
    rfl
  · exact Finset.sum_congr rfl fun j _ => congrArg (fun w => w * V (ix2 j k)) (pay1_apply q K i j)

end Cert.KernelRow

end
-- ==== Proof.ArrayIdeal.lean ====
/-
  From the blocks the grid points write back to the two whole result arrays.

  The region runs 25 points. Point t is handed rows 200·t … 200·t + 199 of the query array Q [5000, 32] and the whole
  key and value arrays K, V [10000, 32]; it writes back a block [200, 1] of the degree column and a block [200, 32] of
  the aggregated features, each at block row t. What a point leaves at row i of its blocks is the row-wise
  specification applied to row i of its query block, which is row 200·t + i of Q. The 25 blocks tile rows 0 … 4999:
  the point covering row r is r / 200. Hence after the last point the degree column is, at every row r, the degree of
  query row r, and the aggregated features are, at every (r, k), feature k aggregated for query row r: each array is
  one function of the whole arrays Q, K, V.
-/
import proofs.«110197_j41532333752349_1_alg».proof.Proof.AroundIdeal
import proofs.«110197_j41532333752349_1_alg».proof.Proof.BodyIdeal
import proofs.«110197_j41532333752349_1_alg».proof.Proof.KernelRow
import proofs.«110197_j41532333752349_1_alg».proof.Proof.Spec
import Idealize.ShloMosaic.Lib.Pipeline.Value
import Idealize.ShloMosaic.Lib.ValueIdx

noncomputable section

namespace Cert.KernelArray

open Idealize.ShloMosaic Idealize.ShloMosaic.ValueIdx Cert.KernelIdeal Cert.KernelIdeal.Gen Cert.KernelIdeal.Around
open Idealize.ShloMosaic.TcCoe Idealize.SL.Sem
open Idealize.ShloMosaic.Pipeline (Dat)

variable (m : (ℓ : Loc nD τ sig) → Buf (Elt Ideal) ℓ)

/-! ## The two result arrays as functions of the whole arrays -/

/-- the degree column as one function of the whole query and key arrays -/
def degArr (Q : S5000x32.Idx → EReal) (K : S10000x32.Idx → EReal) : S5000x1.Idx → EReal :=
  fun i => Cert.Spec.degRow (fun k => Q (ix2 (⟨(i 0).val, (i 0).isLt⟩ : Fin 5000) k)) K

/-- the aggregated features as one function of the whole query, key and value arrays -/
def aggArr (Q : S5000x32.Idx → EReal) (K V : S10000x32.Idx → EReal) : S5000x32.Idx → EReal :=
  fun i => Cert.Spec.aggRow (fun k' => Q (ix2 (⟨(i 0).val, (i 0).isLt⟩ : Fin 5000) k')) K V (⟨(i 1).val, (i 1).isLt⟩ : Fin 32)

/-! ## Where each point's blocks lie -/

/-- The zero offsets of a whole rectangle. -/
theorem hz : (![0, 0] : Fin 2 → Nat) = fun _ => 0 := funext fun a => by fin_cases a <;> rfl

/-- The block indices at point t, decided over the 25 points: the query block and both result blocks are at block
    row t, column 0; the key and value blocks are at (0, 0) throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks as parts of the whole arrays -/
/-- The query block of point t at (i, k) is the query array at row 200·t + i, column k. -/
theorem iblk_q (c : Dev nD) (t : Fin cfg0.N) (i : Fin 200) (k : Fin 32) (j : S5000x32.Idx)
    (hj0 : (j 0).val = 200 * t.val + i.val) (hj1 : (j 1).val = k.val) :
    (iblk m c 0 t : Vec Ideal S200x32 .f32) (ix2 i k) = (V m c main_v8 : S5000x32.Idx → EReal) j := by
  obtain ⟨e00, e01, -⟩ := idx_facts t
  unfold iblk
  rw [View.read_apply]
  show V m c main_v8 (((cfg0.win 0).blk t).view.emb (ix2 i k)) = V m c main_v8 j
  refine congrArg (V m c main_v8) (funext fun a => Fin.ext ?_)
  match a with
  | ⟨0, _⟩ => show win0_0.index t (0 : Fin 2) * 200 + 1 * i.val = (j 0).val; rw [e00, hj0]; omega
  | ⟨1, _⟩ => show win0_0.index t (1 : Fin 2) * 32 + 1 * k.val = (j 1).val; rw [e01, hj1]; omega

/-- The key block of every point is the whole key array. -/
theorem iblk_k (c : Dev nD) (t : Fin cfg0.N) :
    (iblk m c 1 t : Vec Ideal S10000x32 .f32) = (V m c main_v10 : S10000x32.Idx → EReal) := by
  obtain ⟨-, -, e10, e11, -⟩ := idx_facts t
  unfold iblk
  funext y
  rw [View.read_apply]
  show V m c main_v10 (((cfg0.win 1).blk t).view.emb y) = V m c main_v10 y
  refine congrArg (V m c main_v10) (funext fun a => Fin.ext ?_)
  match a with
  | ⟨0, _⟩ => show win0_1.index t (0 : Fin 2) * 10000 + 1 * (y 0).val = (y 0).val; rw [e10]; omega
  | ⟨1, _⟩ => show win0_1.index t (1 : Fin 2) * 32 + 1 * (y 1).val = (y 1).val; rw [e11]; omega

/-- The value block of every point is the whole value array. -/
theorem iblk_v (c : Dev nD) (t : Fin cfg0.N) :
    (iblk m c 2 t : Vec Ideal S10000x32 .f32) = (V m c main_v0 : S10000x32.Idx → EReal) := by
  obtain ⟨-, -, -, -, e20, e21, -⟩ := idx_facts t
  unfold iblk
  funext y
  rw [View.read_apply]
  show V m c main_v0 (((cfg0.win 2).blk t).view.emb y) = V m c main_v0 y
  refine congrArg (V m c main_v0) (funext fun a => Fin.ext ?_)
  match a with
  | ⟨0, _⟩ => show win0_2.index t (0 : Fin 2) * 10000 + 1 * (y 0).val = (y 0).val; rw [e20]; omega
  | ⟨1, _⟩ => show win0_2.index t (1 : Fin 2) * 32 + 1 * (y 1).val = (y 1).val; rw [e21]; omega

/-! ## What a point writes back -/

/-- Row i of the degree block of point t is the degree of query row 200·t + i. -/
theorem deg_point (c : Dev nD) (t : Fin cfg0.N) (i : Fin 200) (j : S5000x1.Idx) (hj0 : (j 0).val = 200 * t.val + i.val) :
    k0_pay2 (F := Ideal) (iblk m c 0 t) (iblk m c 1 t) (ix2 i (0 : Fin 1))
      = degArr (V m c main_v8) (V m c main_v10) j := by
  rw [iblk_k]
  refine (Cert.KernelRow.pay_deg _ _ i).trans ?_
  unfold degArr
  refine congrArg (fun f => Cert.Spec.degRow f _) (funext fun k => ?_)
  exact iblk_q m c t i k _ hj0 rfl

/-- Entry (i, k) of the aggregate block of point t is feature k aggregated for query row 200·t + i. -/
theorem agg_point (c : Dev nD) (t : Fin cfg0.N) (i : Fin 200) (k : Fin 32) (j : S5000x32.Idx)
    (hj0 : (j 0).val = 200 * t.val + i.val) (hj1 : (j 1).val = k.val) :
    k0_pay3 (F := Ideal) (iblk m c 0 t) (iblk m c 1 t) (iblk m c 2 t) (ix2 i k)
      = aggArr (V m c main_v8) (V m c main_v10) (V m c main_v0) j := by
  rw [iblk_k, iblk_v]
  refine (Cert.KernelRow.pay_agg _ _ _ i k).trans ?_
  unfold aggArr
  have hk : k = (⟨(j 1).val, (j 1).isLt⟩ : Fin 32) := Fin.ext hj1.symm
  rw [← hk]
  refine congrArg (fun f => Cert.Spec.aggRow f _ _ k) (funext fun k' => ?_)
  exact iblk_q m c t i k' _ hj0 rfl

/-- What point t writes back to the degree column is block t of the degree function of the whole arrays. -/
theorem flushed_deg (c : Dev nD) (t : Fin cfg0.N) :
    (dats (F := Ideal) m 0 c).flushed 3 t
      = ((cfg0.win 3).blk t).view.read (Elt Ideal) (degArr (V m c main_v8) (V m c main_v10)) := by
  show (cfg0.win 3).cut (grid0.coords t) ((dats m 0 c).after 3 t) = _
  rw [after_3]
  unfold outDeg
  rw [View.canon_unit_zero hz]
  simp only [View.ld_unit_zero (S := S200x32) hz, View.ld_unit_zero (S := S10000x32) hz]
  obtain ⟨-, -, -, -, -, -, e30, e31, -⟩ := idx_facts t
  funext y
  obtain ⟨i, u, rfl⟩ : ∃ (i : Fin 200) (u : Fin 1), y = ix2 i u := ⟨y 0, y 1, eq_ix2 y⟩
  obtain rfl : u = 0 := Subsingleton.elim _ _
  rw [View.read_apply]
  show k0_pay2 (F := Ideal) (iblk m c 0 t) (iblk m c 1 t) (ix2 i (0 : Fin 1))
    = degArr (V m c main_v8) (V m c main_v10) (((cfg0.win 3).blk t).view.emb (ix2 i (0 : Fin 1)))
  refine deg_point m c t i _ ?_
  show win0_3.index t (0 : Fin 2) * 200 + 1 * i.val = 200 * t.val + i.val
  rw [e30]; omega

/-- What point t writes back to the aggregated features is block t of the aggregate function of the whole arrays. -/
theorem flushed_agg (c : Dev nD) (t : Fin cfg0.N) :
    (dats (F := Ideal) m 0 c).flushed 4 t
      = ((cfg0.win 4).blk t).view.read (Elt Ideal) (aggArr (V m c main_v8) (V m c main_v10) (V m c main_v0)) := by
  show (cfg0.win 4).cut (grid0.coords t) ((dats m 0 c).after 4 t) = _
  rw [after_4]
  unfold outAgg
  rw [View.canon_unit_zero hz]
  simp only [View.ld_unit_zero (S := S200x32) hz, View.ld_unit_zero (S := S10000x32) hz]
  obtain ⟨-, -, -, -, -, -, -, -, e40, e41⟩ := idx_facts t
  funext y
  obtain ⟨i, k, rfl⟩ : ∃ (i : Fin 200) (k : Fin 32), y = ix2 i k := ⟨y 0, y 1, eq_ix2 y⟩
  rw [View.read_apply]
  show k0_pay3 (F := Ideal) (iblk m c 0 t) (iblk m c 1 t) (iblk m c 2 t) (ix2 i k)
    = aggArr (V m c main_v8) (V m c main_v10) (V m c main_v0) (((cfg0.win 4).blk t).view.emb (ix2 i k))
  refine agg_point m c t i k _ ?_ ?_
  · show win0_4.index t (0 : Fin 2) * 200 + 1 * i.val = 200 * t.val + i.val
    rw [e40]; omega
  · show win0_4.index t (1 : Fin 2) * 32 + 1 * k.val = k.val
    rw [e41]; omega

/-! ## The blocks tile the arrays -/
/-- A row-column index of the degree column lies in point t's block iff each coordinate lies in the block's range on its axis. -/
theorem mem_blk_deg (t : Fin cfg0.N) (i : S5000x1.Idx) :
    i ∈ ((cfg0.win 3).blk t).view.set ↔ ∀ a : Fin 2, win0_3.index t a * S200x1.size a ≤ (i a).val ∧ (i a).val < win0_3.index t a * S200x1.size a + S200x1.size a := by
  show i ∈ ((View.whole main_v11_0).slice (win0_3.rect t)).set ↔ _
  rw [View.set_slice_whole, Rect.mem_set_unit]
  exact Iff.rfl

/-- The same for the aggregated features. -/
theorem mem_blk_agg (t : Fin cfg0.N) (i : S5000x32.Idx) :
    i ∈ ((cfg0.win 4).blk t).view.set ↔ ∀ a : Fin 2, win0_4.index t a * S200x32.size a ≤ (i a).val ∧ (i a).val < win0_4.index t a * S200x32.size a + S200x32.size a := by
  show i ∈ ((View.whole main_v11_1).slice (win0_4.rect t)).set ↔ _
  rw [View.set_slice_whole, Rect.mem_set_unit]
  exact Iff.rfl

/-- Every index of the degree column lies in the block of the point r / 200, r its row; every point writes back. -/
theorem deg_covered (i : S5000x1.Idx) :
    ∃ t : Fin cfg0.N, (cfg0.win 3).flush t = true ∧ i ∈ ((cfg0.win 3).blk t).view.set := by
  have hN : grid0.N = 25 := N_0
  have h0 : (i 0).val < 5000 := (i 0).isLt
  have h1 : (i 1).val < 1 := (i 1).isLt
  have ht : (i 0).val / 200 < grid0.N := by omega
  obtain ⟨-, -, -, -, -, -, e30, e31, -, -⟩ := idx_facts ⟨(i 0).val / 200, ht⟩
  refine ⟨⟨(i 0).val / 200, ht⟩, flush0_3 _, ?_⟩
  rw [mem_blk_deg]
  intro a
  match a with
  | ⟨0, _⟩ =>
    show win0_3.index ⟨(i 0).val / 200, ht⟩ (0 : Fin 2) * 200 ≤ (i 0).val ∧ (i 0).val < win0_3.index ⟨(i 0).val / 200, ht⟩ (0 : Fin 2) * 200 + 200
    rw [e30]; show (i 0).val / 200 * 200 ≤ (i 0).val ∧ (i 0).val < (i 0).val / 200 * 200 + 200; omega
  | ⟨1, _⟩ =>
    show win0_3.index ⟨(i 0).val / 200, ht⟩ (1 : Fin 2) * 1 ≤ (i 1).val ∧ (i 1).val < win0_3.index ⟨(i 0).val / 200, ht⟩ (1 : Fin 2) * 1 + 1
    rw [e31]; omega

/-- Every index of the aggregated features lies in the block of the point r / 200, r its row; every point writes back. -/
theorem agg_covered (i : S5000x32.Idx) :
    ∃ t : Fin cfg0.N, (cfg0.win 4).flush t = true ∧ i ∈ ((cfg0.win 4).blk t).view.set := by
  have hN : grid0.N = 25 := N_0
  have h0 : (i 0).val < 5000 := (i 0).isLt
  have h1 : (i 1).val < 32 := (i 1).isLt
  have ht : (i 0).val / 200 < grid0.N := by omega
  obtain ⟨-, -, -, -, -, -, -, -, e40, e41⟩ := idx_facts ⟨(i 0).val / 200, ht⟩
  refine ⟨⟨(i 0).val / 200, ht⟩, flush0_4 _, ?_⟩
  rw [mem_blk_agg]
  intro a
  match a with
  | ⟨0, _⟩ =>
    show win0_4.index ⟨(i 0).val / 200, ht⟩ (0 : Fin 2) * 200 ≤ (i 0).val ∧ (i 0).val < win0_4.index ⟨(i 0).val / 200, ht⟩ (0 : Fin 2) * 200 + 200
    rw [e40]; show (i 0).val / 200 * 200 ≤ (i 0).val ∧ (i 0).val < (i 0).val / 200 * 200 + 200; omega
  | ⟨1, _⟩ =>
    show win0_4.index ⟨(i 0).val / 200, ht⟩ (1 : Fin 2) * 32 ≤ (i 1).val ∧ (i 1).val < win0_4.index ⟨(i 0).val / 200, ht⟩ (1 : Fin 2) * 32 + 32
    rw [e41]; omega

/-! ## The whole arrays after the last point -/

/-- After the 25 points the degree column is the degree function of the whole query and key arrays. -/
theorem final_deg (c : Dev nD) :
    (dats (F := Ideal) m 0 c).arrAt 3 cfg0.N = degArr (V m c main_v8) (V m c main_v10) :=
  (dats (F := Ideal) m 0 c).arrAt_eq_of_cover 3 (degArr (V m c main_v8) (V m c main_v10)) (fun t _ => flushed_deg m c t) deg_covered

/-- After the 25 points the aggregated features are the aggregate function of the whole query, key and value arrays. -/
theorem final_agg (c : Dev nD) :
    (dats (F := Ideal) m 0 c).arrAt 4 cfg0.N = aggArr (V m c main_v8) (V m c main_v10) (V m c main_v0) :=
  (dats (F := Ideal) m 0 c).arrAt_eq_of_cover 4 (aggArr (V m c main_v8) (V m c main_v10) (V m c main_v0))
    (fun t _ => flushed_agg m c t) agg_covered

end Cert.KernelArray

end
-- ==== Proof.LibHostRowMax.lean ====
/-
  The host's maximum-reduction over axis 1 of a matrix [a, b] of extended reals, read at a row.

  A reduction by a commutative, associative operation at result index r is the fold of that operation, from the initial
  value, over the coordinates of the reduced axis; inserting coordinate k on axis 1 over row r gives the matrix index
  (r, k). So the row's maximum is the fold of max over the row's b entries. A second fact used beside it: taking the
  maximum of such a fold with the value it was folded from changes nothing, since the fold is at least that value.
-/
import Idealize.ShloMosaic.PureOps.Reduce
import Idealize.ShloMosaic.PureOps.Ideal.Laws
import proofs.«110197_j41532333752349_1_alg».proof.Proof.LibSoftmaxRow

noncomputable section

namespace Cert.LibHostRowMax

open Idealize.ShloMosaic Idealize.ShloMosaic.ValueIdx

/-- The host's max-reduce over axis 1 at row `r`: the fold of max from the initial value over the row's entries. -/
theorem hostRowMax_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single _ x init h' h hu (ix1 r)]
  exact congrArg (fun f => (Finset.univ : Finset (Fin b)).fold max (init (Shape.Idx.first hu)) f)
    (funext fun k => congrArg x (Cert.LibSoftmaxRow.lift_row h r k))

/-- The maximum of a fold of max with the value it starts from is the fold. -/
theorem max_fold_start {ι : Type} (s : Finset ι) (b : EReal) (f : ι → EReal) :
    max b (s.fold max b f) = s.fold max b f :=
  max_eq_right ((Finset.le_fold_max b).mpr (Or.inl le_rfl))

end Cert.LibHostRowMax

end
-- ==== Proof.RefRow.lean ====
/-
  The whole-array attention program, read one row at a time.

  The program forms all 5000 x 10000 scaled inner products of the query rows with the key rows at once, takes each
  row's maximum, subtracts it, exponentiates, sums each row, divides, exponentiates again, and then sums each row of
  the result (the degree) and multiplies the result against the value matrix (the aggregate). Every one of these
  steps acts on row r of its operand alone: the inner product at (r, j) reads row r of the queries and row j of the
  keys; a reduction over axis 1 at row r is the fold, or the sum, of that row's 10000 entries; a value spread from a
  column [5000, 1] over [5000, 10000] is read at (r, j) from entry r. Chaining these readings, entry (r, j) of each
  intermediate array is the corresponding quantity of the row specification evaluated at query row r, and so the
  degree at r and the aggregate at (r, k) are the specification's degRow and aggRow of that query row.
-/
import proofs.«110197_j41532333752349_1_alg».proof.Proof.RefReadP
import proofs.«110197_j41532333752349_1_alg».proof.Proof.Spec
import proofs.«110197_j41532333752349_1_alg».proof.Proof.LibHostRowMax

noncomputable section

namespace Cert.RefRow

open Idealize.ShloMosaic Idealize.ShloMosaic.ValueIdx Cert.ReferenceIdeal Cert.ReferenceIdeal.Gen Cert.ReferenceIdeal.ReadP
open scoped BigOperators

variable (x0 : (⟨S10000x30, .f32⟩ : BufTy).Contents (Elt Ideal)) (x1 : (⟨S10000x2, .f32⟩ : BufTy).Contents (Elt Ideal))
  (x2 : (⟨S5000x30, .f32⟩ : BufTy).Contents (Elt Ideal)) (x6 x7 : (⟨S32x30, .f32⟩ : BufTy).Contents (Elt Ideal))

/-- Entry (r, j) of the scaled products: the inner product of query row r with key row j, over the scale. -/
theorem score_apply (r : Fin 5000) (j : Fin 10000) :
    val_main_v14 (F := Ideal) x0 x2 x6 x7 (ix2 r j)
      = Cert.Spec.score (fun k => val_main_v8 (F := Ideal) x2 x6 (ix2 r k)) (val_main_v10 (F := Ideal) x0 x7) j := by
  unfold Cert.Spec.score
  rw [val_main_v14_apply, val_main_v12_apply, val_main_v13_apply, val_main_cst_2_apply, Ideal.hostDivf_def,
    Ideal.ofBits_def]
  refine congrArg (fun s => Ideal.div s _) (Finset.sum_congr rfl fun k _ => ?_)
  rw [val_main_v11_apply]
  have hl : lidx_main_v12 (ix2 r j) k = ix2 r k :=
    funext fun a => Fin.ext (by match a with | ⟨0, _⟩ => rfl | ⟨1, _⟩ => rfl)
  have hr : idx_main_v11 (ridx_main_v12 (ix2 r j) k) = ix2 j k :=
    funext fun a => Fin.ext (by match a with | ⟨0, _⟩ => rfl | ⟨1, _⟩ => rfl)
  rw [hl, hr]

/-- Entry r of the row maxima: the fold of max from -inf over row r's scores. -/
theorem rowMax_apply (r : Fin 5000) :
    val_main_v17 (F := Ideal) x0 x2 x6 x7 (ix1 r)
      = Cert.Spec.rowMax (fun k => val_main_v8 (F := Ideal) x2 x6 (ix2 r k)) (val_main_v10 (F := Ideal) x0 x7) := by
  unfold Cert.Spec.rowMax
  rw [val_main_v17_apply, val_main_v16_apply, val_main_cst_4_apply, Ideal.maximumf_def, Ideal.ofBits_def]
  unfold val_main_v15
  rw [Cert.LibHostRowMax.hostRowMax_apply _ _ reducesTo_S5000x10000_S5000_d1 (by decide) h_S_ r,
    val_main_cst_3_apply, Ideal.ofBits_def, Cert.LibHostRowMax.max_fold_start]
  exact congrArg (fun f => (Finset.univ : Finset (Fin 10000)).fold max (Ideal.ofBits .f32 0xFF800000#32) f)
    (funext fun j => score_apply x0 x2 x6 x7 r j)

/-- Entry (r, j) of the first exponentials: exp of the score less the row's maximum. -/
theorem expo_apply (r : Fin 5000) (j : Fin 10000) :
    val_main_v21 (F := Ideal) x0 x2 x6 x7 (ix2 r j)
      = Cert.Spec.expo (fun k => val_main_v8 (F := Ideal) x2 x6 (ix2 r k)) (val_main_v10 (F := Ideal) x0 x7) j := by
  unfold Cert.Spec.expo
  have hi : idx_main_v18 (idx_main_v19 (ix2 r j)) = ix1 r :=
    funext fun a => Fin.ext (by match a with | ⟨0, _⟩ => rfl)
  rw [val_main_v21_apply, val_main_v20_apply, val_main_v19_apply, val_main_v18_apply, Ideal.hostUnary_exp_def,
    Ideal.subf_def, hi, score_apply, rowMax_apply]

/-- Entry r of the row sums of the first exponentials. -/
theorem expoSum_apply (r : Fin 5000) :
    val_main_v22 (F := Ideal) x0 x2 x6 x7 (ix1 r)
      = ∑ j : Fin 10000,
          Cert.Spec.expo (fun k => val_main_v8 (F := Ideal) x2 x6 (ix2 r k)) (val_main_v10 (F := Ideal) x0 x7) j := by
  rw [val_main_v22_apply, val_main_cst_5_apply, Ideal.ofBits_def, Ideal.ofBits_zero_f32, zero_add]
  refine Finset.sum_congr rfl fun j _ => ?_
  have hi : idx_main_v22 (ix1 r) j = ix2 r j :=
    funext fun a => Fin.ext (by match a with | ⟨0, _⟩ => rfl | ⟨1, _⟩ => rfl)
  rw [hi, expo_apply]

/-- Entry (r, j) of the attention weights: exp of the first exponential over its row's sum. -/
theorem weight_apply (r : Fin 5000) (j : Fin 10000) :
    val_main_v26 (F := Ideal) x0 x2 x6 x7 (ix2 r j)
      = Cert.Spec.weight (fun k => val_main_v8 (F := Ideal) x2 x6 (ix2 r k)) (val_main_v10 (F := Ideal) x0 x7) j := by
  unfold Cert.Spec.weight
  have hi : idx_main_v23 (idx_main_v24 (ix2 r j)) = ix1 r :=
    funext fun a => Fin.ext (by match a with | ⟨0, _⟩ => rfl)
  rw [val_main_v26_apply, val_main_v25_apply, val_main_v24_apply, val_main_v23_apply, Ideal.hostUnary_exp_def,
    Ideal.hostDivf_def, hi, expo_apply, expoSum_apply]

/-- The degree at row r is the row specification's sum of weights for query row r. -/
theorem ref_deg (r : Fin 5000) :
    val_main_v49 (F := Ideal) x0 x2 x6 x7 (ix1 r)
      = Cert.Spec.degRow (fun k => val_main_v8 (F := Ideal) x2 x6 (ix2 r k)) (val_main_v10 (F := Ideal) x0 x7) := by
  unfold Cert.Spec.degRow
  rw [val_main_v49_apply, val_main_cst_7_apply, Ideal.ofBits_def, Ideal.ofBits_zero_f32, zero_add]
  refine Finset.sum_congr rfl fun j _ => ?_
  have hi : idx_main_v49 (ix1 r) j = ix2 r j :=
    funext fun a => Fin.ext (by match a with | ⟨0, _⟩ => rfl | ⟨1, _⟩ => rfl)
  rw [hi, weight_apply]

/-- The aggregate at (r, k) is the row specification's weighted sum of column k of the values for query row r. -/
theorem ref_agg (r : Fin 5000) (k : Fin 32) :
    val_main_v55 (F := Ideal) x0 x1 x2 x6 x7 (ix2 r k)
      = Cert.Spec.aggRow (fun k' => val_main_v8 (F := Ideal) x2 x6 (ix2 r k')) (val_main_v10 (F := Ideal) x0 x7)
          (val_main_v0 (F := Ideal) x0 x1) k := by
  unfold Cert.Spec.aggRow
  rw [val_main_v55_apply]
  refine Finset.sum_congr rfl fun j _ => ?_
  have hl : lidx_main_v55 (ix2 r k) j = ix2 r j :=
    funext fun a => Fin.ext (by match a with | ⟨0, _⟩ => rfl | ⟨1, _⟩ => rfl)
  have hr : ridx_main_v55 (ix2 r k) j = ix2 j k :=
    funext fun a => Fin.ext (by match a with | ⟨0, _⟩ => rfl | ⟨1, _⟩ => rfl)
  rw [hl, hr, weight_apply]

end Cert.RefRow

end
-- ==== Proof.BridgeIdeal.lean ====
/-
  The tiled program's two whole result arrays are the whole-array program's two stages.

  The tiled program's results, assembled over all blocks, are described row by row: the degree column at (r, 0) is the
  row specification's sum of weights for query row r, and the aggregate at (r, k) its weighted sum of column k of the
  values. The whole-array program's degree stage at r and aggregate stage at (r, k) are the same two quantities. A
  column [5000, 1] re-laid as a vector [5000] reads, at r, the column at (r, 0), the row-major position being r in
  both; so the re-laid degree column is the degree stage, and the aggregate array is the aggregate stage.
-/
import proofs.«110197_j41532333752349_1_alg».proof.Proof.RefRow
import proofs.«110197_j41532333752349_1_alg».proof.Proof.ArrayIdeal

noncomputable section

namespace Cert.Bridge

open Idealize.ShloMosaic Idealize.ShloMosaic.ValueIdx Cert.ReferenceIdeal.ReadP

variable (x0 : (⟨Cert.ReferenceIdeal.S10000x30, .f32⟩ : BufTy).Contents (Elt Ideal))
  (x1 : (⟨Cert.ReferenceIdeal.S10000x2, .f32⟩ : BufTy).Contents (Elt Ideal))
  (x2 : (⟨Cert.ReferenceIdeal.S5000x30, .f32⟩ : BufTy).Contents (Elt Ideal))
  (x6 x7 : (⟨Cert.ReferenceIdeal.S32x30, .f32⟩ : BufTy).Contents (Elt Ideal))

/-- The degree column, re-laid as a vector, is the whole-array program's degree stage. -/
theorem deg_bridge (h : Cert.KernelIdeal.S5000x1.ShapeCasts Cert.KernelIdeal.S5000) (i : Cert.KernelIdeal.S5000.Idx) :
    shapeCast Cert.KernelIdeal.S5000
        (Cert.KernelArray.degArr (val_main_v8 (F := Ideal) x2 x6) (val_main_v10 (F := Ideal) x0 x7)) h i
      = val_main_v49 (F := Ideal) x0 x2 x6 x7 i := by
  obtain ⟨r, rfl⟩ : ∃ r : Fin 5000, i = ix1 r := ⟨i 0, eq_ix1 i⟩
  rw [Cert.RefRow.ref_deg]
  refine (shapeCast_apply _ h (ix1 r) (ix2 r (0 : Fin 1)) ?_).trans rfl
  rw [Shape.rowMajor_val_two, Shape.rowMajor_val_one]
  show r.val * 1 + 0 = r.val
  omega

/-- The aggregate array is the whole-array program's aggregate stage. -/
theorem agg_bridge :
    Cert.KernelArray.aggArr (val_main_v8 (F := Ideal) x2 x6) (val_main_v10 (F := Ideal) x0 x7)
        (val_main_v0 (F := Ideal) x0 x1)
      = val_main_v55 (F := Ideal) x0 x1 x2 x6 x7 := by
  funext i
  obtain ⟨r, k, rfl⟩ : ∃ (r : Fin 5000) (k : Fin 32), i = ix2 r k := ⟨i 0, i 1, eq_ix2 i⟩
  rw [Cert.RefRow.ref_agg]
  rfl

end Cert.Bridge

end
-- ==== Proof.TailShort.lean ====
/-
  The host lines after the region against the whole-array program's later stages: the four outputs of the attribute view, which read the target features and two weight arrays only.

  Both programs finish with the same chain of host operations — the star-graph aggregation, the two linear layers,
  the two output heads and the softplus of their columns. Evaluated from any buffer contents W at the region's exit,
  the tiled program's chain gives, at each of its outputs, the whole-array program's stage of the same position, once
  the buffers it reads are what that program's stages say: the arguments, the feature matrices and the router row,
  and — in place of the attention the region computed — the degree vector and the aggregated features.
-/
import proofs.«110197_j41532333752349_1_alg».proof.Proof.AroundIdeal
import proofs.«110197_j41532333752349_1_alg».proof.Proof.RefReadP
import Idealize.ShloMosaic.Lib.StableHlo.Run

set_option maxRecDepth 100000

noncomputable section

namespace Cert.KernelTail

open Cert.KernelIdeal Cert.KernelIdeal.Gen Cert.KernelIdeal.Around
open Idealize.ShloMosaic Idealize.ShloMosaic.TcCoe Idealize.SL.Sem Idealize.ShloMosaic.StableHlo

set_option maxHeartbeats 4000000 in
theorem out4 (W : Valuation τ sig (Elt Ideal))
    (x2 : (⟨Cert.ReferenceIdeal.S5000x30, .f32⟩ : BufTy).Contents (Elt Ideal)) (x20 : (⟨Cert.ReferenceIdeal.S5x30, .f32⟩ : BufTy).Contents (Elt Ideal))
    (x21 : (⟨Cert.ReferenceIdeal.S5, .f32⟩ : BufTy).Contents (Elt Ideal))
    (h2 : W (Proc.devRef .tc main_arg2) = x2) (h20 : W (Proc.devRef .tc main_arg20) = x20) (h21 : W (Proc.devRef .tc main_arg21) = x21) :
    StableHlo.after (tailOps (F := Ideal)).flatten W (Proc.devRef .tc main_v115)
      = Cert.ReferenceIdeal.ReadP.val_main_v131 (F := Ideal) x2 x20 x21 := by
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  after_results_simp
  simp only [h2, h20, h21]
  rfl

set_option maxHeartbeats 4000000 in
theorem out5 (W : Valuation τ sig (Elt Ideal))
    (x2 : (⟨Cert.ReferenceIdeal.S5000x30, .f32⟩ : BufTy).Contents (Elt Ideal)) (x20 : (⟨Cert.ReferenceIdeal.S5x30, .f32⟩ : BufTy).Contents (Elt Ideal))
    (x21 : (⟨Cert.ReferenceIdeal.S5, .f32⟩ : BufTy).Contents (Elt Ideal))
    (h2 : W (Proc.devRef .tc main_arg2) = x2) (h20 : W (Proc.devRef .tc main_arg20) = x20) (h21 : W (Proc.devRef .tc main_arg21) = x21) :
    StableHlo.after (tailOps (F := Ideal)).flatten W (Proc.devRef .tc main_v117)
      = Cert.ReferenceIdeal.ReadP.val_main_v133 (F := Ideal) x2 x20 x21 := by
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  after_results_simp
  simp only [h2, h20, h21]
  rfl

set_option maxHeartbeats 4000000 in
theorem out6 (W : Valuation τ sig (Elt Ideal))
    (x2 : (⟨Cert.ReferenceIdeal.S5000x30, .f32⟩ : BufTy).Contents (Elt Ideal)) (x20 : (⟨Cert.ReferenceIdeal.S5x30, .f32⟩ : BufTy).Contents (Elt Ideal))
    (x21 : (⟨Cert.ReferenceIdeal.S5, .f32⟩ : BufTy).Contents (Elt Ideal))
    (h2 : W (Proc.devRef .tc main_arg2) = x2) (h20 : W (Proc.devRef .tc main_arg20) = x20) (h21 : W (Proc.devRef .tc main_arg21) = x21) :
    StableHlo.after (tailOps (F := Ideal)).flatten W (Proc.devRef .tc main_v121)
      = Cert.ReferenceIdeal.ReadP.val_main_v137 (F := Ideal) x2 x20 x21 := by
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  after_results_simp
  simp only [h2, h20, h21]
  rfl

set_option maxHeartbeats 4000000 in
theorem out7 (W : Valuation τ sig (Elt Ideal))
    (x2 : (⟨Cert.ReferenceIdeal.S5000x30, .f32⟩ : BufTy).Contents (Elt Ideal)) (x20 : (⟨Cert.ReferenceIdeal.S5x30, .f32⟩ : BufTy).Contents (Elt Ideal))
    (x21 : (⟨Cert.ReferenceIdeal.S5, .f32⟩ : BufTy).Contents (Elt Ideal))
    (h2 : W (Proc.devRef .tc main_arg2) = x2) (h20 : W (Proc.devRef .tc main_arg20) = x20) (h21 : W (Proc.devRef .tc main_arg21) = x21) :
    StableHlo.after (tailOps (F := Ideal)).flatten W (Proc.devRef .tc main_v123)
      = Cert.ReferenceIdeal.ReadP.val_main_v139 (F := Ideal) x2 x20 x21 := by
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  after_results_simp
  simp only [h2, h20, h21]
  rfl

end Cert.KernelTail

end
-- ==== Proof.LibCatPieces.lean ====
/-
  A concatenation of two or three arrays as a plain function of its pieces.

  A concatenation is stated over a LIST of pieces, each paired with its shape, and carries a proof that the pieces'
  shapes fit the result; that proof is about the list, so a rewrite inside one piece would have to carry it along.
  The proof reads the pieces' SHAPES only. Naming the two-piece and the three-piece concatenation as functions of the
  pieces' contents, with the shapes and the fitting proof as parameters that do not mention the contents, makes each
  piece an ordinary argument that can be rewritten on its own. Both names unfold to the concatenation they stand for.
-/
import Idealize.ShloMosaic.PureOps

namespace Cert.LibCatPieces

open Idealize.ShloMosaic

/-- The concatenation of two pieces along axis `ax`, as a function of the pieces. -/
def cat2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- The concatenation of three pieces along axis `ax`, as a function of the pieces. -/
def cat3 {α : Type} (t : Shape) (ax : Fin t.rank) (s1 s2 s3 : Shape) (h : Shape.Concatenates [s1, s2, s3] t ax)
    (a : s1.Idx → α) (b : s2.Idx → α) (c : s3.Idx → α) : t.Idx → α :=
  concatenate t ax [⟨s1, a⟩, ⟨s2, b⟩, ⟨s3, c⟩] h

/-- A two-piece concatenation is `cat2` of its pieces. -/
theorem concatenate_two {α : Type} (t : Shape) (ax : Fin t.rank) (s1 s2 : Shape) (a : s1.Idx → α) (b : s2.Idx → α)
    (h : Shape.Concatenates (([⟨s1, a⟩, ⟨s2, b⟩] : List ((s : Shape) × (s.Idx → α))).map (fun p : (s : Shape) × (s.Idx → α) => p.1)) t ax) :
    concatenate t ax [⟨s1, a⟩, ⟨s2, b⟩] h = cat2 t ax s1 s2 h a b := rfl

/-- A three-piece concatenation is `cat3` of its pieces. -/
theorem concatenate_three {α : Type} (t : Shape) (ax : Fin t.rank) (s1 s2 s3 : Shape) (a : s1.Idx → α) (b : s2.Idx → α)
    (c : s3.Idx → α) (h : Shape.Concatenates (([⟨s1, a⟩, ⟨s2, b⟩, ⟨s3, c⟩] : List ((s : Shape) × (s.Idx → α))).map (fun p : (s : Shape) × (s.Idx → α) => p.1)) t ax) :
    concatenate t ax [⟨s1, a⟩, ⟨s2, b⟩, ⟨s3, c⟩] h = cat3 t ax s1 s2 s3 h a b c := rfl

end Cert.LibCatPieces
-- ==== Proof.TailLib.lean ====
/-
  Evaluating the host lines after the region, one buffer at a time.

  What a buffer holds after a line of host operations is found by walking the operations from the last to the first:
  an operation's own result buffer holds its function of its operands' contents, every other buffer what it held
  before. Two kinds of operation need a word. A two-piece concatenation is read as a plain function of its two pieces
  (so that each piece can be evaluated on its own), and the two three-piece stacks of row blocks the program forms
  (the landmark rows, the target rows and the router row, before each linear layer) are read the same way.
-/
import proofs.«110197_j41532333752349_1_alg».proof.Proof.AroundIdeal
import proofs.«110197_j41532333752349_1_alg».proof.Proof.LibCatPieces
import Idealize.ShloMosaic.Lib.StableHlo.Run
import Idealize.ShloMosaic.PureOps.Ideal

set_option maxRecDepth 100000

noncomputable section

namespace Cert.KernelTail

open Cert.KernelIdeal Cert.KernelIdeal.Gen Cert.KernelIdeal.Around
open Idealize.ShloMosaic Idealize.ShloMosaic.TcCoe Idealize.SL.Sem Idealize.ShloMosaic.StableHlo

/-- The stack of the three row blocks written to `main_v57`, as a function of the three blocks. -/
theorem stack_v57 (F : Valuation τ sig (Elt Ideal)) :
    (StableHlo.nary ![main_v34, main_v48, main_v56] main_v57 (fun u => concatenate S15001x32 0 [⟨S10000x32, u 0⟩, ⟨S5000x32, u 1⟩, ⟨S1x32, u 2⟩] concatenates_S10000x32_S5000x32_S1x32_S15001x32_d0) : HloOp τ sig (Elt Ideal)).result F (no_index (Proc.devRef .tc main_v57))
      = Cert.LibCatPieces.cat3 S15001x32 0 S10000x32 S5000x32 S1x32 concatenates_S10000x32_S5000x32_S1x32_S15001x32_d0
          (F (Proc.devRef .tc main_v34)) (F (Proc.devRef .tc main_v48)) (F (Proc.devRef .tc main_v56)) := by
  rw [StableHlo.nary_result]; rfl

/-- The stack of the three row blocks written to `main_v88`, as a function of the three blocks. -/
theorem stack_v88 (F : Valuation τ sig (Elt Ideal)) :
    (StableHlo.nary ![main_v34, main_v85, main_v87] main_v88 (fun u => concatenate S15001x32 0 [⟨S10000x32, u 0⟩, ⟨S5000x32, u 1⟩, ⟨S1x32, u 2⟩] concatenates_S10000x32_S5000x32_S1x32_S15001x32_d0) : HloOp τ sig (Elt Ideal)).result F (no_index (Proc.devRef .tc main_v88))
      = Cert.LibCatPieces.cat3 S15001x32 0 S10000x32 S5000x32 S1x32 concatenates_S10000x32_S5000x32_S1x32_S15001x32_d0
          (F (Proc.devRef .tc main_v34)) (F (Proc.devRef .tc main_v85)) (F (Proc.devRef .tc main_v87)) := by
  rw [StableHlo.nary_result]; rfl

/-- One pass of the evaluation described above. -/
macro "tail_eval" : tactic =>
  `(tactic| (simp (disch := decide) only [after_cons, after_nil,
      nullary_result', unary_result', binary_result', ternary_result', quaternary_result', reshape_result',
      stack_v57, stack_v88,
      nullary_result_ne', unary_result_ne', binary_result_ne', ternary_result_ne', quaternary_result_ne', reshape_result_ne',
      nary_result_ne', Cert.LibCatPieces.concatenate_two]))

end Cert.KernelTail

end
-- ==== Proof.TailA.lean ====
/-
  The host lines after the region against the whole-array program's later stages: the pair of graph-view outputs.

  Both programs finish with the same chain of host operations — the star-graph aggregation, the two linear layers,
  the two output heads and the softplus of their columns. Evaluated from any buffer contents W at the region's exit,
  the tiled program's chain gives, at each of its outputs, the whole-array program's stage of the same position, once
  the buffers it reads are what that program's stages say: the arguments, the feature matrices and the router row,
  and — in place of the attention the region computed — the degree vector and the aggregated features.
-/
import proofs.«110197_j41532333752349_1_alg».proof.Proof.TailLib
import proofs.«110197_j41532333752349_1_alg».proof.Proof.RefReadP
import Idealize.ShloMosaic.Lib.StableHlo.Run

set_option maxRecDepth 100000

noncomputable section

namespace Cert.KernelTail

open Cert.KernelIdeal Cert.KernelIdeal.Gen Cert.KernelIdeal.Around
open Idealize.ShloMosaic Idealize.ShloMosaic.TcCoe Idealize.SL.Sem Idealize.ShloMosaic.StableHlo

set_option maxHeartbeats 100000000 in
theorem out0 (W : Valuation τ sig (Elt Ideal))
    (x0 : (⟨Cert.ReferenceIdeal.S10000x30, .f32⟩ : BufTy).Contents (Elt Ideal)) (x1 : (⟨Cert.ReferenceIdeal.S10000x2, .f32⟩ : BufTy).Contents (Elt Ideal))
    (x2 : (⟨Cert.ReferenceIdeal.S5000x30, .f32⟩ : BufTy).Contents (Elt Ideal)) (x4 : (⟨Cert.ReferenceIdeal.S10000, .f32⟩ : BufTy).Contents (Elt Ideal))
    (x5 : (⟨Cert.ReferenceIdeal.S5000, .f32⟩ : BufTy).Contents (Elt Ideal)) (x6 x7 : (⟨Cert.ReferenceIdeal.S32x30, .f32⟩ : BufTy).Contents (Elt Ideal))
    (x9 x10 x11 x12 x13 : (⟨Cert.ReferenceIdeal.S1x1, .f32⟩ : BufTy).Contents (Elt Ideal)) (x14 : (⟨Cert.ReferenceIdeal.S32x32, .f32⟩ : BufTy).Contents (Elt Ideal))
    (x15 : (⟨Cert.ReferenceIdeal.S32, .f32⟩ : BufTy).Contents (Elt Ideal)) (x16 : (⟨Cert.ReferenceIdeal.S32x32, .f32⟩ : BufTy).Contents (Elt Ideal))
    (x17 : (⟨Cert.ReferenceIdeal.S32, .f32⟩ : BufTy).Contents (Elt Ideal)) (x18 : (⟨Cert.ReferenceIdeal.S5x64, .f32⟩ : BufTy).Contents (Elt Ideal))
    (x19 : (⟨Cert.ReferenceIdeal.S5, .f32⟩ : BufTy).Contents (Elt Ideal))
    (h2 : W (Proc.devRef .tc main_arg2) = x2) (h4 : W (Proc.devRef .tc main_arg4) = x4) (h5 : W (Proc.devRef .tc main_arg5) = x5) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) (h17 : W (Proc.devRef .tc main_arg17) = x17) (h18 : W (Proc.devRef .tc main_arg18) = x18) (h19 : W (Proc.devRef .tc main_arg19) = x19)
    (hv0 : W (Proc.devRef .tc main_v0) = Cert.ReferenceIdeal.ReadP.val_main_v0 (F := Ideal) x0 x1)
    (hv2 : W (Proc.devRef .tc main_v2) = Cert.ReferenceIdeal.ReadP.val_main_v2 (F := Ideal) x2)
    (hv6 : W (Proc.devRef .tc main_v6) = Cert.ReferenceIdeal.ReadP.val_main_v6 (F := Ideal) x0 x1)
    (hdeg : StableHlo.after [StableHlo.reshape main_v11_0 main_v12 rfl shapeCasts_S5000x1_S5000] W (Proc.devRef .tc main_v12)
      = Cert.ReferenceIdeal.ReadP.val_main_v49 (F := Ideal) x0 x2 x6 x7)
    (hagg : W (Proc.devRef .tc main_v11_1) = Cert.ReferenceIdeal.ReadP.val_main_v55 (F := Ideal) x0 x1 x2 x6 x7) :
    StableHlo.after (tailOps (F := Ideal)).flatten W (Proc.devRef .tc main_v106)
      = Cert.ReferenceIdeal.ReadP.val_main_v122 (F := Ideal) x0 x1 x2 x4 x5 x6 x7 x9 x10 x11 x12 x13 x14 x15 x16 x17 x18 x19 := by
  have hdeg' := hdeg
  simp only [after_cons, after_nil, reshape_result'] at hdeg'
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  tail_eval
  simp only [hdeg', hagg, hv0, hv2, hv6, h2, h4, h5, h9, h10, h11, h12, h13, h14, h15, h16, h17, h18, h19]
  rfl

end Cert.KernelTail

end
-- ==== Proof.TailB.lean ====
/-
  The host lines after the region against the whole-array program's later stages: the graph view's softplus of column 2.

  Both programs finish with the same chain of host operations — the star-graph aggregation, the two linear layers,
  the two output heads and the softplus of their columns. Evaluated from any buffer contents W at the region's exit,
  the tiled program's chain gives, at each of its outputs, the whole-array program's stage of the same position, once
  the buffers it reads are what that program's stages say: the arguments, the feature matrices and the router row,
  and — in place of the attention the region computed — the degree vector and the aggregated features.
-/
import proofs.«110197_j41532333752349_1_alg».proof.Proof.TailA
import proofs.«110197_j41532333752349_1_alg».proof.Proof.RefReadP
import Idealize.ShloMosaic.Lib.StableHlo.Run

set_option maxRecDepth 100000

noncomputable section

namespace Cert.KernelTail

open Cert.KernelIdeal Cert.KernelIdeal.Gen Cert.KernelIdeal.Around
open Idealize.ShloMosaic Idealize.ShloMosaic.TcCoe Idealize.SL.Sem Idealize.ShloMosaic.StableHlo

set_option maxHeartbeats 100000000 in
theorem out1 (W : Valuation τ sig (Elt Ideal))
    (x0 : (⟨Cert.ReferenceIdeal.S10000x30, .f32⟩ : BufTy).Contents (Elt Ideal)) (x1 : (⟨Cert.ReferenceIdeal.S10000x2, .f32⟩ : BufTy).Contents (Elt Ideal))
    (x2 : (⟨Cert.ReferenceIdeal.S5000x30, .f32⟩ : BufTy).Contents (Elt Ideal)) (x4 : (⟨Cert.ReferenceIdeal.S10000, .f32⟩ : BufTy).Contents (Elt Ideal))
    (x5 : (⟨Cert.ReferenceIdeal.S5000, .f32⟩ : BufTy).Contents (Elt Ideal)) (x6 x7 : (⟨Cert.ReferenceIdeal.S32x30, .f32⟩ : BufTy).Contents (Elt Ideal))
    (x9 x10 x11 x12 x13 : (⟨Cert.ReferenceIdeal.S1x1, .f32⟩ : BufTy).Contents (Elt Ideal)) (x14 : (⟨Cert.ReferenceIdeal.S32x32, .f32⟩ : BufTy).Contents (Elt Ideal))
    (x15 : (⟨Cert.ReferenceIdeal.S32, .f32⟩ : BufTy).Contents (Elt Ideal)) (x16 : (⟨Cert.ReferenceIdeal.S32x32, .f32⟩ : BufTy).Contents (Elt Ideal))
    (x17 : (⟨Cert.ReferenceIdeal.S32, .f32⟩ : BufTy).Contents (Elt Ideal)) (x18 : (⟨Cert.ReferenceIdeal.S5x64, .f32⟩ : BufTy).Contents (Elt Ideal))
    (x19 : (⟨Cert.ReferenceIdeal.S5, .f32⟩ : BufTy).Contents (Elt Ideal))
    (h2 : W (Proc.devRef .tc main_arg2) = x2) (h4 : W (Proc.devRef .tc main_arg4) = x4) (h5 : W (Proc.devRef .tc main_arg5) = x5) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) (h17 : W (Proc.devRef .tc main_arg17) = x17) (h18 : W (Proc.devRef .tc main_arg18) = x18) (h19 : W (Proc.devRef .tc main_arg19) = x19)
    (hv0 : W (Proc.devRef .tc main_v0) = Cert.ReferenceIdeal.ReadP.val_main_v0 (F := Ideal) x0 x1)
    (hv2 : W (Proc.devRef .tc main_v2) = Cert.ReferenceIdeal.ReadP.val_main_v2 (F := Ideal) x2)
    (hv6 : W (Proc.devRef .tc main_v6) = Cert.ReferenceIdeal.ReadP.val_main_v6 (F := Ideal) x0 x1)
    (hdeg : StableHlo.after [StableHlo.reshape main_v11_0 main_v12 rfl shapeCasts_S5000x1_S5000] W (Proc.devRef .tc main_v12)
      = Cert.ReferenceIdeal.ReadP.val_main_v49 (F := Ideal) x0 x2 x6 x7)
    (hagg : W (Proc.devRef .tc main_v11_1) = Cert.ReferenceIdeal.ReadP.val_main_v55 (F := Ideal) x0 x1 x2 x6 x7) :
    StableHlo.after (tailOps (F := Ideal)).flatten W (Proc.devRef .tc main_v108)
      = Cert.ReferenceIdeal.ReadP.val_main_v124 (F := Ideal) x0 x1 x2 x4 x5 x6 x7 x9 x10 x11 x12 x13 x14 x15 x16 x17 x18 x19 := by
  have hdeg' := hdeg
  simp only [after_cons, after_nil, reshape_result'] at hdeg'
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  tail_eval
  simp only [hdeg', hagg, hv0, hv2, hv6, h2, h4, h5, h9, h10, h11, h12, h13, h14, h15, h16, h17, h18, h19]
  rfl

end Cert.KernelTail

end
-- ==== Proof.TailC.lean ====
/-
  The host lines after the region against the whole-array program's later stages: the graph view's softplus of column 3, plus one.

  Both programs finish with the same chain of host operations — the star-graph aggregation, the two linear layers,
  the two output heads and the softplus of their columns. Evaluated from any buffer contents W at the region's exit,
  the tiled program's chain gives, at each of its outputs, the whole-array program's stage of the same position, once
  the buffers it reads are what that program's stages say: the arguments, the feature matrices and the router row,
  and — in place of the attention the region computed — the degree vector and the aggregated features.
-/
import proofs.«110197_j41532333752349_1_alg».proof.Proof.TailB
import proofs.«110197_j41532333752349_1_alg».proof.Proof.RefReadP
import Idealize.ShloMosaic.Lib.StableHlo.Run

set_option maxRecDepth 100000

noncomputable section

namespace Cert.KernelTail

open Cert.KernelIdeal Cert.KernelIdeal.Gen Cert.KernelIdeal.Around
open Idealize.ShloMosaic Idealize.ShloMosaic.TcCoe Idealize.SL.Sem Idealize.ShloMosaic.StableHlo

set_option maxHeartbeats 100000000 in
theorem out2 (W : Valuation τ sig (Elt Ideal))
    (x0 : (⟨Cert.ReferenceIdeal.S10000x30, .f32⟩ : BufTy).Contents (Elt Ideal)) (x1 : (⟨Cert.ReferenceIdeal.S10000x2, .f32⟩ : BufTy).Contents (Elt Ideal))
    (x2 : (⟨Cert.ReferenceIdeal.S5000x30, .f32⟩ : BufTy).Contents (Elt Ideal)) (x4 : (⟨Cert.ReferenceIdeal.S10000, .f32⟩ : BufTy).Contents (Elt Ideal))
    (x5 : (⟨Cert.ReferenceIdeal.S5000, .f32⟩ : BufTy).Contents (Elt Ideal)) (x6 x7 : (⟨Cert.ReferenceIdeal.S32x30, .f32⟩ : BufTy).Contents (Elt Ideal))
    (x9 x10 x11 x12 x13 : (⟨Cert.ReferenceIdeal.S1x1, .f32⟩ : BufTy).Contents (Elt Ideal)) (x14 : (⟨Cert.ReferenceIdeal.S32x32, .f32⟩ : BufTy).Contents (Elt Ideal))
    (x15 : (⟨Cert.ReferenceIdeal.S32, .f32⟩ : BufTy).Contents (Elt Ideal)) (x16 : (⟨Cert.ReferenceIdeal.S32x32, .f32⟩ : BufTy).Contents (Elt Ideal))
    (x17 : (⟨Cert.ReferenceIdeal.S32, .f32⟩ : BufTy).Contents (Elt Ideal)) (x18 : (⟨Cert.ReferenceIdeal.S5x64, .f32⟩ : BufTy).Contents (Elt Ideal))
    (x19 : (⟨Cert.ReferenceIdeal.S5, .f32⟩ : BufTy).Contents (Elt Ideal))
    (h2 : W (Proc.devRef .tc main_arg2) = x2) (h4 : W (Proc.devRef .tc main_arg4) = x4) (h5 : W (Proc.devRef .tc main_arg5) = x5) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) (h17 : W (Proc.devRef .tc main_arg17) = x17) (h18 : W (Proc.devRef .tc main_arg18) = x18) (h19 : W (Proc.devRef .tc main_arg19) = x19)
    (hv0 : W (Proc.devRef .tc main_v0) = Cert.ReferenceIdeal.ReadP.val_main_v0 (F := Ideal) x0 x1)
    (hv2 : W (Proc.devRef .tc main_v2) = Cert.ReferenceIdeal.ReadP.val_main_v2 (F := Ideal) x2)
    (hv6 : W (Proc.devRef .tc main_v6) = Cert.ReferenceIdeal.ReadP.val_main_v6 (F := Ideal) x0 x1)
    (hdeg : StableHlo.after [StableHlo.reshape main_v11_0 main_v12 rfl shapeCasts_S5000x1_S5000] W (Proc.devRef .tc main_v12)
      = Cert.ReferenceIdeal.ReadP.val_main_v49 (F := Ideal) x0 x2 x6 x7)
    (hagg : W (Proc.devRef .tc main_v11_1) = Cert.ReferenceIdeal.ReadP.val_main_v55 (F := Ideal) x0 x1 x2 x6 x7) :
    StableHlo.after (tailOps (F := Ideal)).flatten W (Proc.devRef .tc main_v112)
      = Cert.ReferenceIdeal.ReadP.val_main_v128 (F := Ideal) x0 x1 x2 x4 x5 x6 x7 x9 x10 x11 x12 x13 x14 x15 x16 x17 x18 x19 := by
  have hdeg' := hdeg
  simp only [after_cons, after_nil, reshape_result'] at hdeg'
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  tail_eval
  simp only [hdeg', hagg, hv0, hv2, hv6, h2, h4, h5, h9, h10, h11, h12, h13, h14, h15, h16, h17, h18, h19]
  rfl

end Cert.KernelTail

end
-- ==== Proof.TailD.lean ====
/-
  The host lines after the region against the whole-array program's later stages: the graph view's softplus of column 4.

  Both programs finish with the same chain of host operations — the star-graph aggregation, the two linear layers,
  the two output heads and the softplus of their columns. Evaluated from any buffer contents W at the region's exit,
  the tiled program's chain gives, at each of its outputs, the whole-array program's stage of the same position, once
  the buffers it reads are what that program's stages say: the arguments, the feature matrices and the router row,
  and — in place of the attention the region computed — the degree vector and the aggregated features.
-/
import proofs.«110197_j41532333752349_1_alg».proof.Proof.TailC
import proofs.«110197_j41532333752349_1_alg».proof.Proof.RefReadP
import Idealize.ShloMosaic.Lib.StableHlo.Run

set_option maxRecDepth 100000

noncomputable section

namespace Cert.KernelTail

open Cert.KernelIdeal Cert.KernelIdeal.Gen Cert.KernelIdeal.Around
open Idealize.ShloMosaic Idealize.ShloMosaic.TcCoe Idealize.SL.Sem Idealize.ShloMosaic.StableHlo

set_option maxHeartbeats 100000000 in
theorem out3 (W : Valuation τ sig (Elt Ideal))
    (x0 : (⟨Cert.ReferenceIdeal.S10000x30, .f32⟩ : BufTy).Contents (Elt Ideal)) (x1 : (⟨Cert.ReferenceIdeal.S10000x2, .f32⟩ : BufTy).Contents (Elt Ideal))
    (x2 : (⟨Cert.ReferenceIdeal.S5000x30, .f32⟩ : BufTy).Contents (Elt Ideal)) (x4 : (⟨Cert.ReferenceIdeal.S10000, .f32⟩ : BufTy).Contents (Elt Ideal))
    (x5 : (⟨Cert.ReferenceIdeal.S5000, .f32⟩ : BufTy).Contents (Elt Ideal)) (x6 x7 : (⟨Cert.ReferenceIdeal.S32x30, .f32⟩ : BufTy).Contents (Elt Ideal))
    (x9 x10 x11 x12 x13 : (⟨Cert.ReferenceIdeal.S1x1, .f32⟩ : BufTy).Contents (Elt Ideal)) (x14 : (⟨Cert.ReferenceIdeal.S32x32, .f32⟩ : BufTy).Contents (Elt Ideal))
    (x15 : (⟨Cert.ReferenceIdeal.S32, .f32⟩ : BufTy).Contents (Elt Ideal)) (x16 : (⟨Cert.ReferenceIdeal.S32x32, .f32⟩ : BufTy).Contents (Elt Ideal))
    (x17 : (⟨Cert.ReferenceIdeal.S32, .f32⟩ : BufTy).Contents (Elt Ideal)) (x18 : (⟨Cert.ReferenceIdeal.S5x64, .f32⟩ : BufTy).Contents (Elt Ideal))
    (x19 : (⟨Cert.ReferenceIdeal.S5, .f32⟩ : BufTy).Contents (Elt Ideal))
    (h2 : W (Proc.devRef .tc main_arg2) = x2) (h4 : W (Proc.devRef .tc main_arg4) = x4) (h5 : W (Proc.devRef .tc main_arg5) = x5) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) (h16 : W (Proc.devRef .tc main_arg16) = x16) (h17 : W (Proc.devRef .tc main_arg17) = x17) (h18 : W (Proc.devRef .tc main_arg18) = x18) (h19 : W (Proc.devRef .tc main_arg19) = x19)
    (hv0 : W (Proc.devRef .tc main_v0) = Cert.ReferenceIdeal.ReadP.val_main_v0 (F := Ideal) x0 x1)
    (hv2 : W (Proc.devRef .tc main_v2) = Cert.ReferenceIdeal.ReadP.val_main_v2 (F := Ideal) x2)
    (hv6 : W (Proc.devRef .tc main_v6) = Cert.ReferenceIdeal.ReadP.val_main_v6 (F := Ideal) x0 x1)
    (hdeg : StableHlo.after [StableHlo.reshape main_v11_0 main_v12 rfl shapeCasts_S5000x1_S5000] W (Proc.devRef .tc main_v12)
      = Cert.ReferenceIdeal.ReadP.val_main_v49 (F := Ideal) x0 x2 x6 x7)
    (hagg : W (Proc.devRef .tc main_v11_1) = Cert.ReferenceIdeal.ReadP.val_main_v55 (F := Ideal) x0 x1 x2 x6 x7) :
    StableHlo.after (tailOps (F := Ideal)).flatten W (Proc.devRef .tc main_v114)
      = Cert.ReferenceIdeal.ReadP.val_main_v130 (F := Ideal) x0 x1 x2 x4 x5 x6 x7 x9 x10 x11 x12 x13 x14 x15 x16 x17 x18 x19 := by
  have hdeg' := hdeg
  simp only [after_cons, after_nil, reshape_result'] at hdeg'
  simp only [tailOps, hostOps1, hostOps1_1, hostOps1_2, hostOps1_3, hostOps1_4, hostOps1_5, hostOps1_6, hostOps1_7, hostOps1_8, hostOps1_9,
    hostOps1_10, hostOps1_11, List.flatten_cons, List.flatten_nil, List.append_nil, List.cons_append, List.nil_append]
  tail_eval
  simp only [hdeg', hagg, hv0, hv2, hv6, h2, h4, h5, h9, h10, h11, h12, h13, h14, h15, h16, h17, h18, h19]
  rfl

end Cert.KernelTail

end
-- ==== Proof.ResultsIdeal.lean ====
/-
  The tiled program's eight outputs as the whole-array program's stages of its own arguments.

  The degree vector the later lines read is the region's degree column re-laid as a vector, and that column and the
  aggregated features are, row by row, the attention of that query row against all keys and values — the same numbers the
  whole-array program's row sums and product of the attribute scores give. With the exit contents read at every other
  buffer the later lines use, each output is the corresponding stage.
-/
import proofs.«110197_j41532333752349_1_alg».proof.Proof.ExitIdeal
import proofs.«110197_j41532333752349_1_alg».proof.Proof.ArrayIdeal
import proofs.«110197_j41532333752349_1_alg».proof.Proof.BridgeIdeal
import proofs.«110197_j41532333752349_1_alg».proof.Proof.TailShort
import proofs.«110197_j41532333752349_1_alg».proof.Proof.TailA
import proofs.«110197_j41532333752349_1_alg».proof.Proof.TailB
import proofs.«110197_j41532333752349_1_alg».proof.Proof.TailC
import proofs.«110197_j41532333752349_1_alg».proof.Proof.TailD

set_option maxRecDepth 16384

noncomputable section

namespace Cert.KernelResults

open Cert.KernelIdeal Cert.KernelIdeal.Gen Cert.KernelIdeal.Around Cert.KernelExit
open Idealize.ShloMosaic Idealize.ShloMosaic.TcCoe Idealize.SL.Sem Idealize.ShloMosaic.StableHlo
open Cert.ReferenceIdeal.ReadP

variable (m : (ℓ : Loc nD τ sig) → Buf (Elt Ideal) ℓ) (c : Dev nD)

/-- The degree column the region leaves, re-laid as a vector, is the whole-array program's vector of row sums. -/
theorem exit_deg :
    StableHlo.after [StableHlo.reshape main_v11_0 main_v12 rfl shapeCasts_S5000x1_S5000] (Wx m c) (Proc.devRef .tc main_v12)
      = val_main_v49 (F := Ideal) (m ((c : Thread nD τ).loc main_arg0)) (m ((c : Thread nD τ).loc main_arg2)) (m ((c : Thread nD τ).loc main_arg6)) (m ((c : Thread nD τ).loc main_arg7)) := by
  after_results
  rw [Wx_deg, Cert.KernelArray.final_deg, V_v8, V_v10]
  funext i
  exact Cert.Bridge.deg_bridge _ _ _ _ _ i

/-- The aggregated features the region leaves are the whole-array program's product of the attribute scores and the values. -/
theorem exit_agg :
    Wx m c (Proc.devRef .tc main_v11_1)
      = val_main_v55 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  rw [Wx_agg, Cert.KernelArray.final_agg, V_v8, V_v10, V_v0]
  exact Cert.Bridge.agg_bridge _ _ _ _ _

theorem res_out0 :
    Pipeline.afterTail₀ cfgs (dats m) 0 (V0 m) (tailOps (F := Ideal)) c main_v106
      = val_main_v122 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (final_eq m c main_v106).trans (Cert.KernelTail.out0 (Wx m c) _ _ _ _ _ _ _ _ _ _ _ _ _ _ _ _ _ _
    (Wx_arg m c main_arg2 (by decide) (by decide)) (Wx_arg m c main_arg4 (by decide) (by decide)) (Wx_arg m c main_arg5 (by decide) (by decide)) (Wx_arg m c main_arg9 (by decide) (by decide)) (Wx_arg m c main_arg10 (by decide) (by decide)) (Wx_arg m c main_arg11 (by decide) (by decide)) (Wx_arg m c main_arg12 (by decide) (by decide)) (Wx_arg m c main_arg13 (by decide) (by decide)) (Wx_arg m c main_arg14 (by decide) (by decide)) (Wx_arg m c main_arg15 (by decide) (by decide)) (Wx_arg m c main_arg16 (by decide) (by decide)) (Wx_arg m c main_arg17 (by decide) (by decide)) (Wx_arg m c main_arg18 (by decide) (by decide)) (Wx_arg m c main_arg19 (by decide) (by decide))
    (Wx_v0 m c) (Wx_v2 m c) (Wx_v6 m c) (exit_deg m c) (exit_agg m c))

theorem res_out1 :
    Pipeline.afterTail₀ cfgs (dats m) 0 (V0 m) (tailOps (F := Ideal)) c main_v108
      = val_main_v124 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (final_eq m c main_v108).trans (Cert.KernelTail.out1 (Wx m c) _ _ _ _ _ _ _ _ _ _ _ _ _ _ _ _ _ _
    (Wx_arg m c main_arg2 (by decide) (by decide)) (Wx_arg m c main_arg4 (by decide) (by decide)) (Wx_arg m c main_arg5 (by decide) (by decide)) (Wx_arg m c main_arg9 (by decide) (by decide)) (Wx_arg m c main_arg10 (by decide) (by decide)) (Wx_arg m c main_arg11 (by decide) (by decide)) (Wx_arg m c main_arg12 (by decide) (by decide)) (Wx_arg m c main_arg13 (by decide) (by decide)) (Wx_arg m c main_arg14 (by decide) (by decide)) (Wx_arg m c main_arg15 (by decide) (by decide)) (Wx_arg m c main_arg16 (by decide) (by decide)) (Wx_arg m c main_arg17 (by decide) (by decide)) (Wx_arg m c main_arg18 (by decide) (by decide)) (Wx_arg m c main_arg19 (by decide) (by decide))
    (Wx_v0 m c) (Wx_v2 m c) (Wx_v6 m c) (exit_deg m c) (exit_agg m c))

theorem res_out2 :
    Pipeline.afterTail₀ cfgs (dats m) 0 (V0 m) (tailOps (F := Ideal)) c main_v112
      = val_main_v128 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (final_eq m c main_v112).trans (Cert.KernelTail.out2 (Wx m c) _ _ _ _ _ _ _ _ _ _ _ _ _ _ _ _ _ _
    (Wx_arg m c main_arg2 (by decide) (by decide)) (Wx_arg m c main_arg4 (by decide) (by decide)) (Wx_arg m c main_arg5 (by decide) (by decide)) (Wx_arg m c main_arg9 (by decide) (by decide)) (Wx_arg m c main_arg10 (by decide) (by decide)) (Wx_arg m c main_arg11 (by decide) (by decide)) (Wx_arg m c main_arg12 (by decide) (by decide)) (Wx_arg m c main_arg13 (by decide) (by decide)) (Wx_arg m c main_arg14 (by decide) (by decide)) (Wx_arg m c main_arg15 (by decide) (by decide)) (Wx_arg m c main_arg16 (by decide) (by decide)) (Wx_arg m c main_arg17 (by decide) (by decide)) (Wx_arg m c main_arg18 (by decide) (by decide)) (Wx_arg m c main_arg19 (by decide) (by decide))
    (Wx_v0 m c) (Wx_v2 m c) (Wx_v6 m c) (exit_deg m c) (exit_agg m c))

theorem res_out3 :
    Pipeline.afterTail₀ cfgs (dats m) 0 (V0 m) (tailOps (F := Ideal)) c main_v114
      = val_main_v130 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (final_eq m c main_v114).trans (Cert.KernelTail.out3 (Wx m c) _ _ _ _ _ _ _ _ _ _ _ _ _ _ _ _ _ _
    (Wx_arg m c main_arg2 (by decide) (by decide)) (Wx_arg m c main_arg4 (by decide) (by decide)) (Wx_arg m c main_arg5 (by decide) (by decide)) (Wx_arg m c main_arg9 (by decide) (by decide)) (Wx_arg m c main_arg10 (by decide) (by decide)) (Wx_arg m c main_arg11 (by decide) (by decide)) (Wx_arg m c main_arg12 (by decide) (by decide)) (Wx_arg m c main_arg13 (by decide) (by decide)) (Wx_arg m c main_arg14 (by decide) (by decide)) (Wx_arg m c main_arg15 (by decide) (by decide)) (Wx_arg m c main_arg16 (by decide) (by decide)) (Wx_arg m c main_arg17 (by decide) (by decide)) (Wx_arg m c main_arg18 (by decide) (by decide)) (Wx_arg m c main_arg19 (by decide) (by decide))
    (Wx_v0 m c) (Wx_v2 m c) (Wx_v6 m c) (exit_deg m c) (exit_agg m c))

theorem res_out4 :
    Pipeline.afterTail₀ cfgs (dats m) 0 (V0 m) (tailOps (F := Ideal)) c main_v115
      = val_main_v131 (F := Ideal) (m ((c : Thread nD τ).loc main_arg2)) (m ((c : Thread nD τ).loc main_arg20)) (m ((c : Thread nD τ).loc main_arg21)) :=
  (final_eq m c main_v115).trans (Cert.KernelTail.out4 (Wx m c) _ _ _ (Wx_arg m c main_arg2 (by decide) (by decide)) (Wx_arg m c main_arg20 (by decide) (by decide)) (Wx_arg m c main_arg21 (by decide) (by decide)))

theorem res_out5 :
    Pipeline.afterTail₀ cfgs (dats m) 0 (V0 m) (tailOps (F := Ideal)) c main_v117
      = val_main_v133 (F := Ideal) (m ((c : Thread nD τ).loc main_arg2)) (m ((c : Thread nD τ).loc main_arg20)) (m ((c : Thread nD τ).loc main_arg21)) :=
  (final_eq m c main_v117).trans (Cert.KernelTail.out5 (Wx m c) _ _ _ (Wx_arg m c main_arg2 (by decide) (by decide)) (Wx_arg m c main_arg20 (by decide) (by decide)) (Wx_arg m c main_arg21 (by decide) (by decide)))

theorem res_out6 :
    Pipeline.afterTail₀ cfgs (dats m) 0 (V0 m) (tailOps (F := Ideal)) c main_v121
      = val_main_v137 (F := Ideal) (m ((c : Thread nD τ).loc main_arg2)) (m ((c : Thread nD τ).loc main_arg20)) (m ((c : Thread nD τ).loc main_arg21)) :=
  (final_eq m c main_v121).trans (Cert.KernelTail.out6 (Wx m c) _ _ _ (Wx_arg m c main_arg2 (by decide) (by decide)) (Wx_arg m c main_arg20 (by decide) (by decide)) (Wx_arg m c main_arg21 (by decide) (by decide)))

theorem res_out7 :
    Pipeline.afterTail₀ cfgs (dats m) 0 (V0 m) (tailOps (F := Ideal)) c main_v123
      = val_main_v139 (F := Ideal) (m ((c : Thread nD τ).loc main_arg2)) (m ((c : Thread nD τ).loc main_arg20)) (m ((c : Thread nD τ).loc main_arg21)) :=
  (final_eq m c main_v123).trans (Cert.KernelTail.out7 (Wx m c) _ _ _ (Wx_arg m c main_arg2 (by decide) (by decide)) (Wx_arg m c main_arg20 (by decide) (by decide)) (Wx_arg m c main_arg21 (by decide) (by decide)))

end Cert.KernelResults

end
-- ==== Proof.lean ====
/-
  The certificate of the tiled attention program against its whole-array reference.

  The tiled program computes the attribute-similarity attention of 5000 target rows against 10000 landmark rows in a
  region of 25 grid points, 200 target rows at a time with all keys and values resident; host lines before the region
  prepare its inputs and host lines after it turn the region's two results into the eight outputs. The reference
  forms the whole 5000 x 10000 attention at once and finishes with the same host lines.

  Frames: each tiled program (at the word level and on the extended reals) runs around its region to the end and
  leaves its arguments unchanged; the reference's run is a straight line of host operations. Nothing was rewritten
  between the word-level program and its reading on the extended reals, so that conjunct is trivial.

  Equal results on the extended reals: row r of the region's two results depends on query row r only, and is the
  row-wise attention of that row — the scaled inner products against every key, their maximum folded from -inf, the
  exponentials of the differences, their sum, the exponential of each quotient, and these weights summed (the degree)
  and taken against the values (the aggregate). The reference's row sums and product of its attribute scores are the
  same row-wise quantities, a sum or a maximum over a row being the same in any order, and the product into a zero
  accumulator the plain sum. From there on both programs apply the same host operations to equal buffers, so every
  output agrees; no law that needs finiteness is used.
-/
import proofs.«110197_j41532333752349_1_alg».proof.Defs
import proofs.«110197_j41532333752349_1_alg».proof.Proof.Gen.Kernel
import proofs.«110197_j41532333752349_1_alg».proof.Proof.Gen.KernelIdeal
import proofs.«110197_j41532333752349_1_alg».proof.Proof.Gen.ReferenceIdeal
import proofs.«110197_j41532333752349_1_alg».proof.Proof.Gen.Pre_finite_inputs
import proofs.«110197_j41532333752349_1_alg».proof.Proof.BodyBits
import proofs.«110197_j41532333752349_1_alg».proof.Proof.BodyIdeal
import proofs.«110197_j41532333752349_1_alg».proof.Proof.ResultsIdeal
import proofs.«110197_j41532333752349_1_alg».proof.Proof.RefRunP
import proofs.«110197_j41532333752349_1_alg».proof.Proof.RefReadEqP
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Around.frame (F := Bits) m ρ

theorem frame_kernelIdeal : Cert.frame_KernelIdeal := fun m ρ _ => Cert.KernelIdeal.Around.frame (F := Ideal) m ρ

/-- The reference's run, its results dropped. -/
theorem frame_referenceIdeal : Cert.frame_ReferenceIdeal := fun m ρ _ =>
  (θ_run Cert.ReferenceIdeal.defs _ _).mono (fun _ h c => (h c).2.2.2.2.2.2.2.2) (Cert.ReferenceIdeal.ValueP.run (F := Ideal) m ρ)

theorem preserves : Cert.preserves_Kernel_KernelIdeal := trivial

set_option maxHeartbeats 4000000 in
/-- Both programs end with each output at the whole-array program's stage of the tiled program's arguments. -/
theorem algebraic : Cert.algebraic_KernelIdeal_ReferenceIdeal := by
  intro m ρ m' ρ' _ hagree
  refine ⟨fun c => Cert.ReferenceIdeal.ReadP.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.ReadP.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.ReadP.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.ReadP.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.ReadP.val_main_v131 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.ReadP.val_main_v133 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.ReadP.val_main_v137 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.ReadP.val_main_v139 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r h c => ?_) (Cert.KernelIdeal.Around.run_main (F := Ideal) m ρ)
    refine ⟨((h c).2 Cert.KernelIdeal.main_v106 (Pipeline.mem_restRefs_of Cert.KernelIdeal.main_v106 (by decide) (by decide))).trans (Cert.KernelResults.res_out0 m c),
      ((h c).2 Cert.KernelIdeal.main_v108 (Pipeline.mem_restRefs_of Cert.KernelIdeal.main_v108 (by decide) (by decide))).trans (Cert.KernelResults.res_out1 m c),
      ((h c).2 Cert.KernelIdeal.main_v112 (Pipeline.mem_restRefs_of Cert.KernelIdeal.main_v112 (by decide) (by decide))).trans (Cert.KernelResults.res_out2 m c),
      ((h c).2 Cert.KernelIdeal.main_v114 (Pipeline.mem_restRefs_of Cert.KernelIdeal.main_v114 (by decide) (by decide))).trans (Cert.KernelResults.res_out3 m c),
      ((h c).2 Cert.KernelIdeal.main_v115 (Pipeline.mem_restRefs_of Cert.KernelIdeal.main_v115 (by decide) (by decide))).trans (Cert.KernelResults.res_out4 m c),
      ((h c).2 Cert.KernelIdeal.main_v117 (Pipeline.mem_restRefs_of Cert.KernelIdeal.main_v117 (by decide) (by decide))).trans (Cert.KernelResults.res_out5 m c),
      ((h c).2 Cert.KernelIdeal.main_v121 (Pipeline.mem_restRefs_of Cert.KernelIdeal.main_v121 (by decide) (by decide))).trans (Cert.KernelResults.res_out6 m c),
      ((h c).2 Cert.KernelIdeal.main_v123 (Pipeline.mem_restRefs_of Cert.KernelIdeal.main_v123 (by decide) (by decide))).trans (Cert.KernelResults.res_out7 m c),
      Cert.KernelIdeal.Around.kept m r h c Cert.KernelIdeal.main_arg0 (by decide) (by decide) (by decide) (by decide),
      Cert.KernelIdeal.Around.kept m r h c Cert.KernelIdeal.main_arg1 (by decide) (by decide) (by decide) (by decide),
      Cert.KernelIdeal.Around.kept m r h c Cert.KernelIdeal.main_arg2 (by decide) (by decide) (by decide) (by decide),
      Cert.KernelIdeal.Around.kept m r h c Cert.KernelIdeal.main_arg3 (by decide) (by decide) (by decide) (by decide),
      Cert.KernelIdeal.Around.kept m r h c Cert.KernelIdeal.main_arg4 (by decide) (by decide) (by decide) (by decide),
      Cert.KernelIdeal.Around.kept m r h c Cert.KernelIdeal.main_arg5 (by decide) (by decide) (by decide) (by decide),
      Cert.KernelIdeal.Around.kept m r h c Cert.KernelIdeal.main_arg6 (by decide) (by decide) (by decide) (by decide),
      Cert.KernelIdeal.Around.kept m r h c Cert.KernelIdeal.main_arg7 (by decide) (by decide) (by decide) (by decide),
      Cert.KernelIdeal.Around.kept m r h c Cert.KernelIdeal.main_arg8 (by decide) (by decide) (by decide) (by decide),
      Cert.KernelIdeal.Around.kept m r h c Cert.KernelIdeal.main_arg9 (by decide) (by decide) (by decide) (by decide),
      Cert.KernelIdeal.Around.kept m r h c Cert.KernelIdeal.main_arg10 (by decide) (by decide) (by decide) (by decide),
      Cert.KernelIdeal.Around.kept m r h c Cert.KernelIdeal.main_arg11 (by decide) (by decide) (by decide) (by decide),
      Cert.KernelIdeal.Around.kept m r h c Cert.KernelIdeal.main_arg12 (by decide) (by decide) (by decide) (by decide),
      Cert.KernelIdeal.Around.kept m r h c Cert.KernelIdeal.main_arg13 (by decide) (by decide) (by decide) (by decide),
      Cert.KernelIdeal.Around.kept m r h c Cert.KernelIdeal.main_arg14 (by decide) (by decide) (by decide) (by decide),
      Cert.KernelIdeal.Around.kept m r h c Cert.KernelIdeal.main_arg15 (by decide) (by decide) (by decide) (by decide),
      Cert.KernelIdeal.Around.kept m r h c Cert.KernelIdeal.main_arg16 (by decide) (by decide) (by decide) (by decide),
      Cert.KernelIdeal.Around.kept m r h c Cert.KernelIdeal.main_arg17 (by decide) (by decide) (by decide) (by decide),
      Cert.KernelIdeal.Around.kept m r h c Cert.KernelIdeal.main_arg18 (by decide) (by decide) (by decide) (by decide),
      Cert.KernelIdeal.Around.kept m r h c Cert.KernelIdeal.main_arg19 (by decide) (by decide) (by decide) (by decide),
      Cert.KernelIdeal.Around.kept m r h c Cert.KernelIdeal.main_arg20 (by decide) (by decide) (by decide) (by decide),
      Cert.KernelIdeal.Around.kept m r h c Cert.KernelIdeal.main_arg21 (by decide) (by decide) (by decide) (by decide)⟩
  · refine (θ_run Cert.ReferenceIdeal.defs _ _).mono (fun r h c => ?_) (Cert.ReferenceIdeal.ValueP.run (F := Ideal) m' ρ')
    obtain ⟨a0, a1, a2, a3, a4, a5, a6, a7, a8, a9, a10, a11, a12, a13, a14, a15, a16, a17, a18, a19, a20, a21⟩ := hagree c
    obtain ⟨r0, r1, r2, r3, r4, r5, r6, r7, hkept⟩ := h c
    refine ⟨?_, ?_, ?_, ?_, ?_, ?_, ?_, ?_, hkept⟩
    · exact r0.trans ((Cert.ReferenceIdeal.ReadP.val_main_v122_eq m' c).trans (by rw [a0, a1, a2, a4, a5, a6, a7, a9, a10, a11, a12, a13, a14, a15, a16, a17, a18, a19]))
    · exact r1.trans ((Cert.ReferenceIdeal.ReadP.val_main_v124_eq m' c).trans (by rw [a0, a1, a2, a4, a5, a6, a7, a9, a10, a11, a12, a13, a14, a15, a16, a17, a18, a19]))
    · exact r2.trans ((Cert.ReferenceIdeal.ReadP.val_main_v128_eq m' c).trans (by rw [a0, a1, a2, a4, a5, a6, a7, a9, a10, a11, a12, a13, a14, a15, a16, a17, a18, a19]))
    · exact r3.trans ((Cert.ReferenceIdeal.ReadP.val_main_v130_eq m' c).trans (by rw [a0, a1, a2, a4, a5, a6, a7, a9, a10, a11, a12, a13, a14, a15, a16, a17, a18, a19]))
    · exact r4.trans ((Cert.ReferenceIdeal.ReadP.val_main_v131_eq _ _ _).trans (by rw [a2, a20, a21]))
    · exact r5.trans ((Cert.ReferenceIdeal.ReadP.val_main_v133_eq _ _ _).trans (by rw [a2, a20, a21]))
    · exact r6.trans ((Cert.ReferenceIdeal.ReadP.val_main_v137_eq _ _ _).trans (by rw [a2, a20, a21]))
    · exact r7.trans ((Cert.ReferenceIdeal.ReadP.val_main_v139_eq _ _ _).trans (by rw [a2, a20, a21]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
